-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v33)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v33) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x128 : Shape := ⟨2, ![32768, 128]⟩
abbrev S524288x128 : Shape := ⟨2, ![524288, 128]⟩
abbrev S2x524288 : Shape := ⟨2, ![2, 524288]⟩
abbrev S384x128 : Shape := ⟨2, ![384, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S256x128 : Shape := ⟨2, ![256, 128]⟩
abbrev S_ : Shape := ⟨0, ![]⟩

class Facts : Prop where
  bcast_S_S32768x128 : S_.BroadcastsInDim S32768x128 (![] : Fin 0 → Fin S32768x128.rank)
  reducesTo_S32768x128_S_d0_1 : S32768x128.ReducesTo [0, 1] S_
  h_S_ : 0 < S_.numel
  bcast_S_S524288x128 : S_.BroadcastsInDim S524288x128 (![] : Fin 0 → Fin S524288x128.rank)
  reducesTo_S524288x128_S_d0_1 : S524288x128.ReducesTo [0, 1] S_
  bcast_S_S384x128 : S_.BroadcastsInDim S384x128 (![] : Fin 0 → Fin S384x128.rank)
  reducesTo_S384x128_S_d0_1 : S384x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_

variable [Facts]

def fn_part2 {F : FTy → Type} [FloatOps F] (main_arg8 : FVec F S256 .f32) (main_arg9 : FVec F S256x128 .f32) (main_arg10 : FVec F S128 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x128 .f32 := Host.absf main_arg9
  let main_cst_14 : FVec F S_ .f32 := constant S_ .f32 0x7F800000#32
  let main_v40 : FVec F S256x128 .f32 := broadcastInDim S256x128 ![] bcast_S_S256x128 main_cst_14
  let main_v41 : IVec S256x128 1 := cmpf .olt main_v39 main_v40
  let main_c_15 : IVec S_ 1 := constantI S_ 1 1#1
  let main_v42 : IVec S_ 1 := (fun x v => Host.reduce IntOp.andi x v reducesTo_S256x128_S_d0_1 h_S_) main_v41 main_c_15
  let main_v43 : IVec S_ 1 := andi main_v38 main_v42
  let main_v44 : FVec F S128 .f32 := Host.absf main_arg10
  let main_cst_16 : FVec F S_ .f32 := constant S_ .f32 0x7F800000#32
  let main_v45 : FVec F S128 .f32 := broadcastInDim S128 ![] bcast_S_S128 main_cst_16
  let main_v46 : IVec S128 1 := cmpf .olt main_v44 main_v45
  let main_c_17 : IVec S_ 1 := constantI S_ 1 1#1
  let main_v47 : IVec S_ 1 := (fun x v => Host.reduce IntOp.andi x v reducesTo_S128_S_d0 h_S_) main_v46 main_c_17
  let main_v48 : IVec S_ 1 := andi main_v43 main_v47
  main_v48

def fn_part1 {F : FTy → Type} [FloatOps F] (main_arg5 : FVec F S128x128 .f32) (main_arg6 : FVec F S128 .f32) (main_arg7 : FVec F S128x256 .f32) (main_arg8 : FVec F S256 .f32) (main_arg9 : FVec F S256x128 .f32) (main_arg10 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x256 .f32 := Host.absf main_arg7
  let main_cst_10 : FVec F S_ .f32 := constant S_ .f32 0x7F800000#32
  let main_v30 : FVec F S128x256 .f32 := broadcastInDim S128x256 ![] bcast_S_S128x256 main_cst_10
  let main_v31 : IVec S128x256 1 := cmpf .olt main_v29 main_v30
  let main_c_11 : IVec S_ 1 := constantI S_ 1 1#1
  let main_v32 : IVec S_ 1 := (fun x v => Host.reduce IntOp.andi x v reducesTo_S128x256_S_d0_1 h_S_) main_v31 main_c_11
  let main_v33 : IVec S_ 1 := andi main_v28 main_v32
  fn_part2 (F := F) main_arg8 main_arg9 main_arg10 main_v33

def fn {F : FTy → Type} [FloatOps F] (main_arg0 : FVec F S32768x128 .f32) (main_arg1 : FVec F S524288x128 .f32) (main_arg2 : IVec S2x524288 32) (main_arg3 : FVec F S384x128 .f32) (main_arg4 : FVec F S128 .f32) (main_arg5 : FVec F S128x128 .f32) (main_arg6 : FVec F S128 .f32) (main_arg7 : FVec F S128x256 .f32) (main_arg8 : FVec F S256 .f32) (main_arg9 : FVec F S256x128 .f32) (main_arg10 : FVec F S128 .f32) : IVec S_ 1 :=
  let main_v0 : FVec F S32768x128 .f32 := Host.absf main_arg0
  let main_cst : FVec F S_ .f32 := constant S_ .f32 0x7F800000#32
  let main_v1 : FVec F S32768x128 .f32 := broadcastInDim S32768x128 ![] bcast_S_S32768x128 main_cst
  let main_v2 : IVec S32768x128 1 := cmpf .olt main_v0 main_v1
  let main_c : IVec S_ 1 := constantI S_ 1 1#1
  let main_v3 : IVec S_ 1 := (fun x v => Host.reduce IntOp.andi x v reducesTo_S32768x128_S_d0_1 h_S_) main_v2 main_c
  let main_v4 : FVec F S524288x128 .f32 := Host.absf main_arg1
  let main_cst_0 : FVec F S_ .f32 := constant S_ .f32 0x7F800000#32
  let main_v5 : FVec F S524288x128 .f32 := broadcastInDim S524288x128 ![] bcast_S_S524288x128 main_cst_0
  let main_v6 : IVec S524288x128 1 := cmpf .olt main_v4 main_v5
  let main_c_1 : IVec S_ 1 := constantI S_ 1 1#1
  let main_v7 : IVec S_ 1 := (fun x v => Host.reduce IntOp.andi x v reducesTo_S524288x128_S_d0_1 h_S_) main_v6 main_c_1
  let main_v8 : IVec S_ 1 := andi main_v3 main_v7
  let main_v9 : FVec F S384x128 .f32 := Host.absf main_arg3
  let main_cst_2 : FVec F S_ .f32 := constant S_ .f32 0x7F800000#32
  let main_v10 : FVec F S384x128 .f32 := broadcastInDim S384x128 ![] bcast_S_S384x128 main_cst_2
  let main_v11 : IVec S384x128 1 := cmpf .olt main_v9 main_v10
  let main_c_3 : IVec S_ 1 := constantI S_ 1 1#1
  let main_v12 : IVec S_ 1 := (fun x v => Host.reduce IntOp.andi x v reducesTo_S384x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_v13 main_v16
-- ==== Kernel.lean ====
abbrev S32768x128 : Shape := ⟨2, ![32768, 128]⟩
abbrev S524288x128 : Shape := ⟨2, ![524288, 128]⟩
abbrev S2x524288 : Shape := ⟨2, ![2, 524288]⟩
abbrev S384x128 : Shape := ⟨2, ![384, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S256x128 : Shape := ⟨2, ![256, 128]⟩
abbrev S1x524288 : Shape := ⟨2, ![1, 524288]⟩
abbrev S524288 : Shape := ⟨1, ![524288]⟩
abbrev S_ : Shape := ⟨0, ![]⟩
abbrev S524288x1 : Shape := ⟨2, ![524288, 1]⟩
abbrev S524288x384 : Shape := ⟨2, ![524288, 384]⟩
abbrev S4096x384 : Shape := ⟨2, ![4096, 384]⟩
abbrev S4096x128 : Shape := ⟨2, ![4096, 128]⟩
abbrev S1x128 : Shape := ⟨2, ![1, 128]⟩
abbrev S32768 : Shape := ⟨1, ![32768]⟩
abbrev S32768x1 : Shape := ⟨2, ![32768, 1]⟩
abbrev S4096x256 : Shape := ⟨2, ![4096, 256]⟩
abbrev S1x256 : Shape := ⟨2, ![1, 256]⟩

abbrev nBuf : Space → Nat
  | .hbm => 53
  | .vmem => 16
  | .smem => 0
  | _ => 0

abbrev bufTy : (tb : Table) → Fin (tcTables nBuf tb) → BufTy
  | .hbm, ⟨0, _⟩ => ⟨S32768x128, .f32⟩
  | .hbm, ⟨1, _⟩ => ⟨S524288x128, .f32⟩
  | .hbm, ⟨2, _⟩ => ⟨S2x524288, .i32⟩
  | .hbm, ⟨3, _⟩ => ⟨S384x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S1x524288, .i32⟩
  | .hbm, ⟨12, _⟩ => ⟨S524288, .i32⟩
  | .hbm, ⟨13, _⟩ => ⟨S1x524288, .i32⟩
  | .hbm, ⟨14, _⟩ => ⟨S524288, .i32⟩
  | .hbm, ⟨15, _⟩ => ⟨S_, .i32⟩
  | .hbm, ⟨16, _⟩ => ⟨S524288, .i32⟩
  | .hbm, ⟨17, _⟩ => ⟨S524288, .i1⟩
  | .hbm, ⟨18, _⟩ => ⟨S_, .i32⟩
  | .hbm, ⟨19, _⟩ => ⟨S524288, .i32⟩
  | .hbm, ⟨20, _⟩ => ⟨S524288, .i32⟩
  | .hbm, ⟨21, _⟩ => ⟨S524288, .i32⟩
  | .hbm, ⟨22, _⟩ => ⟨S524288x1, .i32⟩
  | .hbm, ⟨23, _⟩ => ⟨S524288x128, .f32⟩
  | .hbm, ⟨24, _⟩ => ⟨S_, .i32⟩
  | .hbm, ⟨25, _⟩ => ⟨S524288, .i32⟩
  | .hbm, ⟨26, _⟩ => ⟨S524288, .i1⟩
  | .hbm, ⟨27, _⟩ => ⟨S_, .i32⟩
  | .hbm, ⟨28, _⟩ => ⟨S524288, .i32⟩
  | .hbm, ⟨29, _⟩ => ⟨S524288, .i32⟩
  | .hbm, ⟨30, _⟩ => ⟨S524288, .i32⟩
  | .hbm, ⟨31, _⟩ => ⟨S524288x1, .i32⟩
  | .hbm, ⟨32, _⟩ => ⟨S524288x128, .f32⟩
  | .hbm, ⟨33, _⟩ => ⟨S524288x384, .f32⟩
  | .hbm, ⟨34, _⟩ => ⟨S524288x128, .f32⟩
  | .hbm, ⟨35, _⟩ => ⟨S_, .f32⟩
  | .hbm, ⟨36, _⟩ => ⟨S32768x128, .f32⟩
  | .hbm, ⟨37, _⟩ => ⟨S524288x1, .i32⟩
  | .hbm, ⟨38, _⟩ => ⟨S32768x128, .f32⟩
  | .hbm, ⟨39, _⟩ => ⟨S_, .f32⟩
  | .hbm, ⟨40, _⟩ => ⟨S524288, .f32⟩
  | .hbm, ⟨41, _⟩ => ⟨S_, .f32⟩
  | .hbm, ⟨42, _⟩ => ⟨S32768, .f32⟩
  | .hbm, ⟨43, _⟩ => ⟨S524288x1, .i32⟩
  | .hbm, ⟨44, _⟩ => ⟨S32768, .f32⟩
  | .hbm, ⟨45, _⟩ => ⟨S_, .f32⟩
  | .hbm, ⟨46, _⟩ => ⟨S32768, .f32⟩
  | .hbm, ⟨47, _⟩ => ⟨S32768, .f32⟩
  | .hbm, ⟨48, _⟩ => ⟨S32768x1, .f32⟩
  | .hbm, ⟨49, _⟩ => ⟨S32768x128, .f32⟩
  | .hbm, ⟨50, _⟩ => ⟨S32768x128, .f32⟩
  | .hbm, ⟨51, _⟩ => ⟨S32768x128, .f32⟩
  | .hbm, ⟨52, _⟩ => ⟨S32768x128, .f32⟩
  | .local _ .vmem, ⟨0, _⟩ => ⟨S4096x384, .f32⟩
  | .local _ .vmem, ⟨1, _⟩ => ⟨S4096x384, .f32⟩
  | .local _ .vmem, ⟨2, _⟩ => ⟨S384x128, .f32⟩
  | .local _ .vmem, ⟨3, _⟩ => ⟨S128, .f32⟩
  | .local _ .vmem, ⟨4, _⟩ => ⟨S128x128, .f32⟩
  | .local _ .vmem, ⟨5, _⟩ => ⟨S128, .f32⟩
  | .local _ .vmem, ⟨6, _⟩ => ⟨S4096x128, .f32⟩
  | .local _ .vmem, ⟨7, _⟩ => ⟨S4096x128, .f32⟩
  | .local _ .vmem, ⟨8, _⟩ => ⟨S4096x128, .f32⟩
  | .local _ .vmem, ⟨9, _⟩ => ⟨S4096x128, .f32⟩
  | .local _ .vmem, ⟨10, _⟩ => ⟨S128x256, .f32⟩
  | .local _ .vmem, ⟨11, _⟩ => ⟨S256, .f32⟩
  | .local _ .vmem, ⟨12, _⟩ => ⟨S256x128, .f32⟩
  | .local _ .vmem, ⟨13, _⟩ => ⟨S128, .f32⟩
  | .local _ .vmem, ⟨14, _⟩ => ⟨S4096x128, .f32⟩
  | .local _ .vmem, ⟨15, _⟩ => ⟨S4096x128, .f32⟩
  | _, _ => ⟨S32768x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_cst : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_cst_4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S384x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4096x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S4096x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S524288_S524288x1_0 : S524288.BroadcastsInDim S524288x1 (![0] : Fin 1 → Fin S524288x1.rank)
  concatenates_S524288x128_S524288x128_S524288x128_S524288x384_d1 : Shape.Concatenates [S524288x128, S524288x128, S524288x128] S524288x384 1
  inb_S4096x384_S4096x384_0_0 : ∀ a, (![0, 0] : Fin 2 → Nat) a + S4096x384.size a ≤ S4096x384.size a
  h_S4096x384 : 0 < S4096x384.numel
  shapeCasts_S4096x384_S4096x384 : S4096x384.ShapeCasts S4096x384
  bitsLt_bf16_f32 : FTy.bits .bf16 < FTy.bits .f32
  inb_S384x128_S384x128_0_0 : ∀ a, (![0, 0] : Fin 2 → Nat) a + S384x128.size a ≤ S384x128.size a
  h_S384x128 : 0 < S384x128.numel
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  inb_S128x128_S128x128_0_0 : ∀ a, (![0, 0] : Fin 2 → Nat) a + S128x128.size a ≤ S128x128.size a
  h_S128x128 : 0 < S128x128.numel
  inb_S4096x128_S4096x128_0_0 : ∀ a, (![0, 0] : Fin 2 → Nat) a + S4096x128.size a ≤ S4096x128.size a
  h_S4096x128 : 0 < S4096x128.numel
  bcast_S_S32768x128 : S_.BroadcastsInDim S32768x128 (![] : Fin 0 → Fin S32768x128.rank)
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x128_0_1 : S32768x1.BroadcastsInDim S32768x128 (![0, 1] : Fin 2 → Fin S32768x128.rank)
  shapeCasts_S4096x128_S4096x128 : S4096x128.ShapeCasts S4096x128
  inb_S128x256_S128x256_0_0 : ∀ a, (![0, 0] : Fin 2 → Nat) a + S128x256.size a ≤ S128x256.size a
  h_S128x256 : 0 < S128x256.numel
  inb_S256_S256_0 : ∀ a, (![0] : Fin 1 → Nat) a + S256.size a ≤ S256.size a
  h_S256 : 0 < S256.numel
  shapeCasts_S256_S1x256 : S256.ShapeCasts S1x256
  broadcasts_S1x256_S4096x256 : S1x256.Broadcasts S4096x256
  inb_S256x128_S256x128_0_0 : ∀ a, (![0, 0] : Fin 2 → Nat) a + S256x128.size a ≤ S256x128.size a
  h_S256x128 : 0 < S256x128.numel
  gather_S32768x128_S524288x1_S524288x128_1_0_n_n_0_1_1128_wf : GatherDims.WF S32768x128 S524288x1 S524288x128 [1] [0] [] [0] [] 1 ![1, 128]
  dot_S4096x384_S384x128_S4096x128_1_0_0_1_n_n_wf : DotDims.WF S4096x384 S384x128 S4096x128 [1] [0] [0] [1] [] []
  dot_S4096x128_S128x128_S4096x128_1_0_0_1_n_n_wf : DotDims.WF S4096x128 S128x128 S4096x128 [1] [0] [0] [1] [] []
  scatter_S32768x128_S524288x1_S524288x128_1_0_0_1_wf : ScatterDims.WF S32768x128 S524288x1 S524288x128 [1] [0] [0] 1
  scatter_S32768_S524288x1_S524288_n_0_0_1_wf : ScatterDims.WF S32768 S524288x1 S524288 [] [0] [0] 1
  dot_S4096x128_S128x256_S4096x256_1_0_0_1_n_n_wf : DotDims.WF S4096x128 S128x256 S4096x256 [1] [0] [0] [1] [] []
  dot_S4096x256_S256x128_S4096x128_1_0_0_1_n_n_wf : DotDims.WF S4096x256 S256x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x384.size a ≤ S524288x384.size a
  hwx0_0 : ∀ i : grid0.Coords, EltTy.bits .f32 = 32 ∨ (Rect.block (s := S524288x384) S4096x384.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S384x128.size a ≤ S384x128.size a
  hwx0_1 : ∀ i : grid0.Coords, EltTy.bits .f32 = 32 ∨ (Rect.block (s := S384x128) S384x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4096x128.size a ≤ S524288x128.size a
  hwx0_5 : ∀ i : grid0.Coords, EltTy.bits .f32 = 32 ∨ (Rect.block (s := S524288x128) S4096x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S32768x128.size a
  hwx1_0 : ∀ i : grid1.Coords, EltTy.bits .f32 = 32 ∨ (Rect.block (s := S32768x128) S4096x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x256.size a ≤ S128x256.size a
  hwx1_1 : ∀ i : grid1.Coords, EltTy.bits .f32 = 32 ∨ (Rect.block (s := S128x256) S128x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256.size a ≤ S256.size a
  hwx1_2 : ∀ i : grid1.Coords, EltTy.bits .f32 = 32 ∨ (Rect.block (s := S256) S256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S256x128.size a
  hwx1_3 : ∀ i : grid1.Coords, EltTy.bits .f32 = 32 ∨ (Rect.block (s := S256x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4096x128.size a ≤ S32768x128.size a
  hwx1_5 : ∀ i : grid1.Coords, EltTy.bits .f32 = 32 ∨ (Rect.block (s := S32768x128) S4096x128.size (cc1_transform_5 i) (hinb1_5 i)).WholeWords (EltTy.packing .f32)

variable [Facts₀]

def gather_S32768x128_S524288x1_S524288x128_1_0_n_n_0_1_1128 : GatherDims S32768x128 S524288x1 S524288x128 where
  offsetDims := [1]
  collapsedSliceDims := [0]
  operandBatchingDims := []
  startIndicesBatchingDims := []
  startIndexMap := [0]
  indexVectorDim := 1
  sliceSizes := ![1, 128]
  wf := gather_S32768x128_S524288x1_S524288x128_1_0_n_n_0_1_1128_wf
def dot_S4096x384_S384x128_S4096x128_1_0_0_1_n_n : DotDims S4096x384 S384x128 S4096x128 where
  lhsContracting := [1]
  rhsContracting := [0]
  lhsNonContracting := [0]
  rhsNonContracting := [1]
  lhsBatch := []
  rhsBatch := []
  wf := dot_S4096x384_S384x128_S4096x128_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def scatter_S32768x128_S524288x1_S524288x128_1_0_0_1 : ScatterDims S32768x128 S524288x1 S524288x128 where
  updateWindowDims := [1]
  insertedWindowDims := [0]
  scatterDimsToOperandDims := [0]
  indexVectorDim := 1
  wf := scatter_S32768x128_S524288x1_S524288x128_1_0_0_1_wf
def scatter_S32768_S524288x1_S524288_n_0_0_1 : ScatterDims S32768 S524288x1 S524288 where
  updateWindowDims := []
  insertedWindowDims := [0]
  scatterDimsToOperandDims := [0]
  indexVectorDim := 1
  wf := scatter_S32768_S524288x1_S524288_n_0_0_1_wf
def dot_S4096x128_S128x256_S4096x256_1_0_0_1_n_n : DotDims S4096x128 S128x256 S4096x256 where
  lhsContracting := [1]
  rhsContracting := [0]
  lhsNonContracting := [0]
  rhsNonContracting := [1]
  lhsBatch := []
  rhsBatch := []
  wf := dot_S4096x128_S128x256_S4096x256_1_0_0_1_n_n_wf
def dot_S4096x256_S256x128_S4096x128_1_0_0_1_n_n : DotDims S4096x256 S256x128 S4096x128 where
  lhsContracting := [1]
  rhsContracting := [0]
  lhsNonContracting := [0]
  rhsNonContracting := [1]
  lhsBatch := []
  rhsBatch := []
  wf := dot_S4096x256_S256x128_S4096x128_1_0_0_1_n_n_wf

abbrev win0_0 : Pipeline.Window sig grid0 :=
  Pipeline.Window.ofSpec (Memref.whole main_v18) S4096x384.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S384x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg4) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg5) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg6) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v19) S4096x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v32) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S128x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S256x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v33) S4096x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S32768x128 : Shape := ⟨2, ![32768, 128]⟩
abbrev S524288x128 : Shape := ⟨2, ![524288, 128]⟩
abbrev S2x524288 : Shape := ⟨2, ![2, 524288]⟩
abbrev S384x128 : Shape := ⟨2, ![384, 128]⟩
abbrev S128 : Shape := ⟨1, ![128]⟩
abbrev S128x128 : Shape := ⟨2, ![128, 128]⟩
abbrev S128x256 : Shape := ⟨2, ![128, 256]⟩
abbrev S256 : Shape := ⟨1, ![256]⟩
abbrev S256x128 : Shape := ⟨2, ![256, 128]⟩
abbrev S1x524288 : Shape := ⟨2, ![1, 524288]⟩
abbrev S524288 : Shape := ⟨1, ![524288]⟩
abbrev S_ : Shape := ⟨0, ![]⟩
abbrev S524288x1 : Shape := ⟨2, ![524288, 1]⟩
abbrev S524288x384 : Shape := ⟨2, ![524288, 384]⟩
abbrev S1x128 : Shape := ⟨2, ![1, 128]⟩
abbrev S32768 : Shape := ⟨1, ![32768]⟩
abbrev S32768x1 : Shape := ⟨2, ![32768, 1]⟩
abbrev S32768x256 : Shape := ⟨2, ![32768, 256]⟩
abbrev S1x256 : Shape := ⟨2, ![1, 256]⟩

abbrev nBuf : Space → Nat
  | .hbm => 95
  | .vmem => 0
  | .smem => 0
  | _ => 0

abbrev bufTy : (tb : Table) → Fin (tcTables nBuf tb) → BufTy
  | .hbm, ⟨0, _⟩ => ⟨S32768x128, .f32⟩
  | .hbm, ⟨1, _⟩ => ⟨S524288x128, .f32⟩
  | .hbm, ⟨2, _⟩ => ⟨S2x524288, .i32⟩
  | .hbm, ⟨3, _⟩ => ⟨S384x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S1x524288, .i32⟩
  | .hbm, ⟨12, _⟩ => ⟨S524288, .i32⟩
  | .hbm, ⟨13, _⟩ => ⟨S1x524288, .i32⟩
  | .hbm, ⟨14, _⟩ => ⟨S524288, .i32⟩
  | .hbm, ⟨15, _⟩ => ⟨S_, .i32⟩
  | .hbm, ⟨16, _⟩ => ⟨S524288, .i32⟩
  | .hbm, ⟨17, _⟩ => ⟨S524288, .i1⟩
  | .hbm, ⟨18, _⟩ => ⟨S_, .i32⟩
  | .hbm, ⟨19, _⟩ => ⟨S524288, .i32⟩
  | .hbm, ⟨20, _⟩ => ⟨S524288, .i32⟩
  | .hbm, ⟨21, _⟩ => ⟨S524288, .i32⟩
  | .hbm, ⟨22, _⟩ => ⟨S524288x1, .i32⟩
  | .hbm, ⟨23, _⟩ => ⟨S524288x128, .f32⟩
  | .hbm, ⟨24, _⟩ => ⟨S_, .i32⟩
  | .hbm, ⟨25, _⟩ => ⟨S524288, .i32⟩
  | .hbm, ⟨26, _⟩ => ⟨S524288, .i1⟩
  | .hbm, ⟨27, _⟩ => ⟨S_, .i32⟩
  | .hbm, ⟨28, _⟩ => ⟨S524288, .i32⟩
  | .hbm, ⟨29, _⟩ => ⟨S524288, .i32⟩
  | .hbm, ⟨30, _⟩ => ⟨S524288, .i32⟩
  | .hbm, ⟨31, _⟩ => ⟨S524288x1, .i32⟩
  | .hbm, ⟨32, _⟩ => ⟨S524288x128, .f32⟩
  | .hbm, ⟨33, _⟩ => ⟨S524288x384, .f32⟩
  | .hbm, ⟨34, _⟩ => ⟨S524288x128, .f32⟩
  | .hbm, ⟨35, _⟩ => ⟨S1x128, .f32⟩
  | .hbm, ⟨36, _⟩ => ⟨S524288x128, .f32⟩
  | .hbm, ⟨37, _⟩ => ⟨S524288x128, .f32⟩
  | .hbm, ⟨38, _⟩ => ⟨S524288x128, .f32⟩
  | .hbm, ⟨39, _⟩ => ⟨S524288x128, .f32⟩
  | .hbm, ⟨40, _⟩ => ⟨S_, .f32⟩
  | .hbm, ⟨41, _⟩ => ⟨S524288x128, .f32⟩
  | .hbm, ⟨42, _⟩ => ⟨S524288x128, .f32⟩
  | .hbm, ⟨43, _⟩ => ⟨S_, .f32⟩
  | .hbm, ⟨44, _⟩ => ⟨S524288x128, .f32⟩
  | .hbm, ⟨45, _⟩ => ⟨S524288x128, .f32⟩
  | .hbm, ⟨46, _⟩ => ⟨S524288x128, .f32⟩
  | .hbm, ⟨47, _⟩ => ⟨S524288x128, .f32⟩
  | .hbm, ⟨48, _⟩ => ⟨S1x128, .f32⟩
  | .hbm, ⟨49, _⟩ => ⟨S524288x128, .f32⟩
  | .hbm, ⟨50, _⟩ => ⟨S524288x128, .f32⟩
  | .hbm, ⟨51, _⟩ => ⟨S524288x128, .f32⟩
  | .hbm, ⟨52, _⟩ => ⟨S524288x128, .f32⟩
  | .hbm, ⟨53, _⟩ => ⟨S_, .f32⟩
  | .hbm, ⟨54, _⟩ => ⟨S524288x128, .f32⟩
  | .hbm, ⟨55, _⟩ => ⟨S524288x128, .f32⟩
  | .hbm, ⟨56, _⟩ => ⟨S_, .f32⟩
  | .hbm, ⟨57, _⟩ => ⟨S524288x128, .f32⟩
  | .hbm, ⟨58, _⟩ => ⟨S524288x128, .f32⟩
  | .hbm, ⟨59, _⟩ => ⟨S524288x128, .f32⟩
  | .hbm, ⟨60, _⟩ => ⟨S_, .f32⟩
  | .hbm, ⟨61, _⟩ => ⟨S32768x128, .f32⟩
  | .hbm, ⟨62, _⟩ => ⟨S524288x1, .i32⟩
  | .hbm, ⟨63, _⟩ => ⟨S32768x128, .f32⟩
  | .hbm, ⟨64, _⟩ => ⟨S_, .f32⟩
  | .hbm, ⟨65, _⟩ => ⟨S524288, .f32⟩
  | .hbm, ⟨66, _⟩ => ⟨S_, .f32⟩
  | .hbm, ⟨67, _⟩ => ⟨S32768, .f32⟩
  | .hbm, ⟨68, _⟩ => ⟨S524288x1, .i32⟩
  | .hbm, ⟨69, _⟩ => ⟨S32768, .f32⟩
  | .hbm, ⟨70, _⟩ => ⟨S_, .f32⟩
  | .hbm, ⟨71, _⟩ => ⟨S32768, .f32⟩
  | .hbm, ⟨72, _⟩ => ⟨S32768, .f32⟩
  | .hbm, ⟨73, _⟩ => ⟨S32768x1, .f32⟩
  | .hbm, ⟨74, _⟩ => ⟨S32768x128, .f32⟩
  | .hbm, ⟨75, _⟩ => ⟨S32768x128, .f32⟩
  | .hbm, ⟨76, _⟩ => ⟨S32768x128, .f32⟩
  | .hbm, ⟨77, _⟩ => ⟨S32768x256, .f32⟩
  | .hbm, ⟨78, _⟩ => ⟨S1x256, .f32⟩
  | .hbm, ⟨79, _⟩ => ⟨S32768x256, .f32⟩
  | .hbm, ⟨80, _⟩ => ⟨S32768x256, .f32⟩
  | .hbm, ⟨81, _⟩ => ⟨S32768x256, .f32⟩
  | .hbm, ⟨82, _⟩ => ⟨S32768x256, .f32⟩
  | .hbm, ⟨83, _⟩ => ⟨S_, .f32⟩
  | .hbm, ⟨84, _⟩ => ⟨S32768x256, .f32⟩
  | .hbm, ⟨85, _⟩ => ⟨S32768x256, .f32⟩
  | .hbm, ⟨86, _⟩ => ⟨S_, .f32⟩
  | .hbm, ⟨87, _⟩ => ⟨S32768x256, .f32⟩
  | .hbm, ⟨88, _⟩ => ⟨S32768x256, .f32⟩
  | .hbm, ⟨89, _⟩ => ⟨S32768x256, .f32⟩
  | .hbm, ⟨90, _⟩ => ⟨S32768x128, .f32⟩
  | .hbm, ⟨91, _⟩ => ⟨S1x128, .f32⟩
  | .hbm, ⟨92, _⟩ => ⟨S32768x128, .f32⟩
  | .hbm, ⟨93, _⟩ => ⟨S32768x128, .f32⟩
  | .hbm, ⟨94, _⟩ => ⟨S32768x128, .f32⟩
  | _, _ => ⟨S32768x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_c_1 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_call1_v0 : Ref sig .tc := ⟨.hbm, 51, rfl⟩
abbrev main_call1_v1 : Ref sig .tc := ⟨.hbm, 52, rfl⟩
abbrev main_call1_cst : Ref sig .tc := ⟨.hbm, 53, rfl⟩
abbrev main_call1_v2 : Ref sig .tc := ⟨.hbm, 54, rfl⟩
abbrev main_call1_v3 : Ref sig .tc := ⟨.hbm, 55, rfl⟩
abbrev main_call1_cst_0 : Ref sig .tc := ⟨.hbm, 56, rfl⟩
abbrev main_call1_v4 : Ref sig .tc := ⟨.hbm, 57, rfl⟩
abbrev main_call1_v5 : Ref sig .tc := ⟨.hbm, 58, rfl⟩
abbrev main_v28 : Ref sig .tc := ⟨.hbm, 59, rfl⟩
abbrev main_cst : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_cst_3 : Ref sig .tc := ⟨.hbm, 64, rfl⟩
abbrev main_v32 : Ref sig .tc := ⟨.hbm, 65, rfl⟩
abbrev main_cst_4 : Ref sig .tc := ⟨.hbm, 66, rfl⟩
abbrev main_v33 : Ref sig .tc := ⟨.hbm, 67, rfl⟩
abbrev main_v34 : Ref sig .tc := ⟨.hbm, 68, rfl⟩
abbrev main_v35 : Ref sig .tc := ⟨.hbm, 69, rfl⟩
abbrev main_cst_5 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_call2_v0 : Ref sig .tc := ⟨.hbm, 81, rfl⟩
abbrev main_call2_v1 : Ref sig .tc := ⟨.hbm, 82, rfl⟩
abbrev main_call2_cst : Ref sig .tc := ⟨.hbm, 83, rfl⟩
abbrev main_call2_v2 : Ref sig .tc := ⟨.hbm, 84, rfl⟩
abbrev main_call2_v3 : Ref sig .tc := ⟨.hbm, 85, rfl⟩
abbrev main_call2_cst_0 : Ref sig .tc := ⟨.hbm, 86, rfl⟩
abbrev main_call2_v4 : Ref sig .tc := ⟨.hbm, 87, rfl⟩
abbrev main_call2_v5 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩

abbrev nD : Nat := 1
abbrev τ : Topo := Topo.v7x

variable {F : FTy → Type} [FloatOps F]

class Facts₀ : Prop where
  slices_S2x524288_S1x524288_0_0 : S2x524288.Slices ![0, 0] S1x524288
  shapeCasts_S1x524288_S524288 : S1x524288.ShapeCasts S524288
  slices_S2x524288_S1x524288_1_0 : S2x524288.Slices ![1, 0] S1x524288
  bcast_S_S524288 : S_.BroadcastsInDim S524288 (![] : Fin 0 → Fin S524288.rank)
  bcast_S524288_S524288x1_0 : S524288.BroadcastsInDim S524288x1 (![0] : Fin 1 → Fin S524288x1.rank)
  concatenates_S524288x128_S524288x128_S524288x128_S524288x384_d1 : Shape.Concatenates [S524288x128, S524288x128, S524288x128] S524288x384 1
  bcast_S128_S1x128_1 : S128.BroadcastsInDim S1x128 (![1] : Fin 1 → Fin S1x128.rank)
  bcast_S1x128_S524288x128_0_1 : S1x128.BroadcastsInDim S524288x128 (![0, 1] : Fin 2 → Fin S524288x128.rank)
  bcast_S_S524288x128 : S_.BroadcastsInDim S524288x128 (![] : Fin 0 → Fin S524288x128.rank)
  bcast_S_S32768x128 : S_.BroadcastsInDim S32768x128 (![] : Fin 0 → Fin S32768x128.rank)
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x128_0_1 : S32768x1.BroadcastsInDim S32768x128 (![0, 1] : Fin 2 → Fin S32768x128.rank)
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  bcast_S_S32768x256 : S_.BroadcastsInDim S32768x256 (![] : Fin 0 → Fin S32768x256.rank)
  bcast_S1x128_S32768x128_0_1 : S1x128.BroadcastsInDim S32768x128 (![0, 1] : Fin 2 → Fin S32768x128.rank)
  gather_S32768x128_S524288x1_S524288x128_1_0_n_n_0_1_1128_wf : GatherDims.WF S32768x128 S524288x1 S524288x128 [1] [0] [] [0] [] 1 ![1, 128]
  dot_S524288x384_S384x128_S524288x128_1_0_0_1_n_n_wf : DotDims.WF S524288x384 S384x128 S524288x128 [1] [0] [0] [1] [] []
  dot_S524288x128_S128x128_S524288x128_1_0_0_1_n_n_wf : DotDims.WF S524288x128 S128x128 S524288x128 [1] [0] [0] [1] [] []
  scatter_S32768x128_S524288x1_S524288x128_1_0_0_1_wf : ScatterDims.WF S32768x128 S524288x1 S524288x128 [1] [0] [0] 1
  scatter_S32768_S524288x1_S524288_n_0_0_1_wf : ScatterDims.WF S32768 S524288x1 S524288 [] [0] [0] 1
  dot_S32768x128_S128x256_S32768x256_1_0_0_1_n_n_wf : DotDims.WF S32768x128 S128x256 S32768x256 [1] [0] [0] [1] [] []
  dot_S32768x256_S256x128_S32768x128_1_0_0_1_n_n_wf : DotDims.WF S32768x256 S256x128 S32768x128 [1] [0] [0] [1] [] []

variable [Facts₀]

def gather_S32768x128_S524288x1_S524288x128_1_0_n_n_0_1_1128 : GatherDims S32768x128 S524288x1 S524288x128 where
  offsetDims := [1]
  collapsedSliceDims := [0]
  operandBatchingDims := []
  startIndicesBatchingDims := []
  startIndexMap := [0]
  indexVectorDim := 1
  sliceSizes := ![1, 128]
  wf := gather_S32768x128_S524288x1_S524288x128_1_0_n_n_0_1_1128_wf
def dot_S524288x384_S384x128_S524288x128_1_0_0_1_n_n : DotDims S524288x384 S384x128 S524288x128 where
  lhsContracting := [1]
  rhsContracting := [0]
  lhsNonContracting := [0]
  rhsNonContracting := [1]
  lhsBatch := []
  rhsBatch := []
  wf := dot_S524288x384_S384x128_S524288x128_1_0_0_1_n_n_wf
def dot_S524288x128_S128x128_S524288x128_1_0_0_1_n_n : DotDims S524288x128 S128x128 S524288x128 where
  lhsContracting := [1]
  rhsContracting := [0]
  lhsNonContracting := [0]
  rhsNonContracting := [1]
  lhsBatch := []
  rhsBatch := []
  wf := dot_S524288x128_S128x128_S524288x128_1_0_0_1_n_n_wf
def scatter_S32768x128_S524288x1_S524288x128_1_0_0_1 : ScatterDims S32768x128 S524288x1 S524288x128 where
  updateWindowDims := [1]
  insertedWindowDims := [0]
  scatterDimsToOperandDims := [0]
  indexVectorDim := 1
  wf := scatter_S32768x128_S524288x1_S524288x128_1_0_0_1_wf
def scatter_S32768_S524288x1_S524288_n_0_0_1 : ScatterDims S32768 S524288x1 S524288 where
  updateWindowDims := []
  insertedWindowDims := [0]
  scatterDimsToOperandDims := [0]
  indexVectorDim := 1
  wf := scatter_S32768_S524288x1_S524288_n_0_0_1_wf
def dot_S32768x128_S128x256_S32768x256_1_0_0_1_n_n : DotDims S32768x128 S128x256 S32768x256 where
  lhsContracting := [1]
  rhsContracting := [0]
  lhsNonContracting := [0]
  rhsNonContracting := [1]
  lhsBatch := []
  rhsBatch := []
  wf := dot_S32768x128_S128x256_S32768x256_1_0_0_1_n_n_wf
def dot_S32768x256_S256x128_S32768x128_1_0_0_1_n_n : DotDims S32768x256 S256x128 S32768x128 where
  lhsContracting := [1]
  rhsContracting := [0]
  lhsNonContracting := [0]
  rhsNonContracting := [1]
  lhsBatch := []
  rhsBatch := []
  wf := dot_S32768x256_S256x128_S32768x128_1_0_0_1_n_n_wf

class Facts : Prop extends Facts₀ where

variable [Facts]
-- ==== Proof.K.Body0.lean ====
import proofs.«111398_j7215545057969_1_alg».proof.Proof.Gen.Kernel.Launch
import proofs.«111398_j7215545057969_1_alg».proof.Proof.Gen.Kernel.Skeleton
import proofs.«111398_j7215545057969_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 0: the edge kernel, a row tile of `silu (silu (ea · w1 + b1) · w2 + b2)`

Everything here is stated at a parameter `V`, the contents of the TensorCore's buffers when the region is entered. -/

section
variable (V : (c : Dev nD) → (b : Ref sig .tc) → Buf (Elt F) ((c : Thread nD τ).loc b))

/-- The block of window `w` at grid point `t`, cut out of the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 of region 0: whatever point the body runs at, and whether or not the pipeline fetched the
    window there, its current staging buffer holds the window's block of the entry array: an unfetched window's
    block index has not moved since the last fetch, and the body leaves the buffer as it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 of region 0: whatever point the body runs at, and whether or not the pipeline fetched the
    window there, its current staging buffer holds the window's block of the entry array: an unfetched window's
    block index has not moved since the last fetch, and the body leaves the buffer as it found it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2 of region 0: whatever point the body runs at, and whether or not the pipeline fetched the
    window there, its current staging buffer holds the window's block of the entry array: an unfetched window's
    block index has not moved since the last fetch, and the body leaves the buffer as it found it. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3 of region 0: whatever point the body runs at, and whether or not the pipeline fetched the
    window there, its current staging buffer holds the window's block of the entry array: an unfetched window's
    block index has not moved since the last fetch, and the body leaves the buffer as it found it. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4 of region 0: whatever point the body runs at, and whether or not the pipeline fetched the
    window there, its current staging buffer holds the window's block of the entry array: an unfetched window's
    block index has not moved since the last fetch, and the body leaves the buffer as it found it. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take a whole staging buffer -/

abbrev r0_0 : Rect S4096x384 := Rect.unit (s := S4096x384) ![0, 0] S4096x384.size inb_S4096x384_S4096x384_0_0
abbrev r0_1 : Rect S384x128 := Rect.unit (s := S384x128) ![0, 0] S384x128.size inb_S384x128_S384x128_0_0
abbrev r0_2 : Rect S128 := Rect.unit (s := S128) ![0] S128.size inb_S128_S128_0
abbrev r0_3 : Rect S128x128 := Rect.unit (s := S128x128) ![0, 0] S128x128.size inb_S128x128_S128x128_0_0
abbrev r0_4 : Rect S128 := Rect.unit (s := S128) ![0] S128.size inb_S128_S128_0
abbrev r0_5 : Rect S4096x128 := Rect.unit (s := S4096x128) ![0, 0] S4096x128.size inb_S4096x128_S4096x128_0_0

/-- What the body leaves in the output window's staging buffer: its one store, of the body's arithmetic applied to the
    five input blocks, over the whole buffer. -/
def out0_5 (x0 : Vec F S4096x384 .f32) (x1 : Vec F S384x128 .f32) (x2 : Vec F S128 .f32) (x3 : Vec F S128x128 .f32) (x4 : Vec F S128 .f32) : Vec F S4096x128 .f32 :=
  View.canon [⟨r0_5, k0_pay1 (View.ld x0 r0_0) (View.ld x1 r0_1) (View.ld x2 r0_2) (View.ld x3 r0_3) (View.ld x4 r0_4)⟩]

/-- The one store covers the whole output buffer. -/
theorem cover0_5 (p0 : Vec F S4096x128 .f32) (y : S4096x128.Idx) :
    ∃ pc ∈ ([⟨r0_5, p0⟩] : List (View.Piece (Elt F) S4096x128 .f32)), y ∈ pc.1.set :=
  View.cover_of_tiled [⟨r0_5, p0⟩] S4096x128.size (by rfl) y

set_option maxHeartbeats 1000000 in
/-- The body on whole staging buffers — the five inputs at known contents, the output at anything — runs to the end
    without a fault, leaves the inputs as they were and the output at `out0_5` of the inputs. -/
theorem sound_kernel0 (c : Dev nD) (E : Set ℕ) (i : grid0.Coords) (arg0 : Memref sig .tc .vmem S4096x384 .f32) (harg0 : arg0.IsWhole) (arg1 : Memref sig .tc .vmem S384x128 .f32) (harg1 : arg1.IsWhole)
    (arg2 : Memref sig .tc .vmem S128 .f32) (harg2 : arg2.IsWhole) (arg3 : Memref sig .tc .vmem S128x128 .f32) (harg3 : arg3.IsWhole)
    (arg4 : Memref sig .tc .vmem S128 .f32) (harg4 : arg4.IsWhole) (arg5 : Memref sig .tc .vmem S4096x128 .f32) (harg5 : arg5.IsWhole)
    (x0 : Vec F S4096x384 .f32) (x1 : Vec F S384x128 .f32) (x2 : Vec F S128 .f32) (x3 : Vec F S128x128 .f32) (x4 : Vec F S128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out0_5 x0 x1 x2 x3 x4)) -∗ K ⟨⟩))
      ⊢ wp frame (wpE (defs₀ (F := F)) Variants.none c none) E (cc0__edge_mlp_kernel i arg0 harg0 arg1 harg1 arg2 harg2 arg3 harg3 arg4 harg4 arg5 harg5) K := by
  simp only [cc0__edge_mlp_kernel_eq_skeleton]; unfold cc0__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- Pipeline 0's proof data on core `c`: the arrays are the entry contents; after the body at point `t` each input
    buffer holds its block and the output buffer `out0_5` of the five blocks; the body neither reads nor changes
    anything else, owes nothing and holds every buffer whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of pipeline 0, at every point. -/
theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.K.Body1.lean ====
import proofs.«111398_j7215545057969_1_alg».proof.Proof.Gen.Kernel.Launch
import proofs.«111398_j7215545057969_1_alg».proof.Proof.Gen.Kernel.Skeleton
import proofs.«111398_j7215545057969_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 1: the node kernel, a row tile of `x + (silu (x · wu1 + bu1) · wu2 + bu2)`

Everything here is stated at a parameter `V`, the contents of the TensorCore's buffers when the region is entered. -/

section
variable (V : (c : Dev nD) → (b : Ref sig .tc) → Buf (Elt F) ((c : Thread nD τ).loc b))

/-- The block of window `w` at grid point `t`, cut out of the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 of region 1: whatever point the body runs at, and whether or not the pipeline fetched the
    window there, its current staging buffer holds the window's block of the entry array: an unfetched window's
    block index has not moved since the last fetch, and the body leaves the buffer as it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 of region 1: whatever point the body runs at, and whether or not the pipeline fetched the
    window there, its current staging buffer holds the window's block of the entry array: an unfetched window's
    block index has not moved since the last fetch, and the body leaves the buffer as it found it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2 of region 1: whatever point the body runs at, and whether or not the pipeline fetched the
    window there, its current staging buffer holds the window's block of the entry array: an unfetched window's
    block index has not moved since the last fetch, and the body leaves the buffer as it found it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3 of region 1: whatever point the body runs at, and whether or not the pipeline fetched the
    window there, its current staging buffer holds the window's block of the entry array: an unfetched window's
    block index has not moved since the last fetch, and the body leaves the buffer as it found it. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4 of region 1: whatever point the body runs at, and whether or not the pipeline fetched the
    window there, its current staging buffer holds the window's block of the entry array: an unfetched window's
    block index has not moved since the last fetch, and the body leaves the buffer as it found it. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a whole staging buffer -/

abbrev r1_0 : Rect S4096x128 := Rect.unit (s := S4096x128) ![0, 0] S4096x128.size inb_S4096x128_S4096x128_0_0
abbrev r1_1 : Rect S128x256 := Rect.unit (s := S128x256) ![0, 0] S128x256.size inb_S128x256_S128x256_0_0
abbrev r1_2 : Rect S256 := Rect.unit (s := S256) ![0] S256.size inb_S256_S256_0
abbrev r1_3 : Rect S256x128 := Rect.unit (s := S256x128) ![0, 0] S256x128.size inb_S256x128_S256x128_0_0
abbrev r1_4 : Rect S128 := Rect.unit (s := S128) ![0] S128.size inb_S128_S128_0
abbrev r1_5 : Rect S4096x128 := Rect.unit (s := S4096x128) ![0, 0] S4096x128.size inb_S4096x128_S4096x128_0_0

/-- What the body leaves in the output window's staging buffer: its one store, of the body's arithmetic applied to the
    five input blocks, over the whole buffer. -/
def out1_5 (x0 : Vec F S4096x128 .f32) (x1 : Vec F S128x256 .f32) (x2 : Vec F S256 .f32) (x3 : Vec F S256x128 .f32) (x4 : Vec F S128 .f32) : Vec F S4096x128 .f32 :=
  View.canon [⟨r1_5, k1_pay1 (View.ld x0 r1_0) (View.ld x1 r1_1) (View.ld x2 r1_2) (View.ld x3 r1_3) (View.ld x4 r1_4)⟩]

/-- The one store covers the whole output buffer. -/
theorem cover1_5 (p0 : Vec F S4096x128 .f32) (y : S4096x128.Idx) :
    ∃ pc ∈ ([⟨r1_5, p0⟩] : List (View.Piece (Elt F) S4096x128 .f32)), y ∈ pc.1.set :=
  View.cover_of_tiled [⟨r1_5, p0⟩] S4096x128.size (by rfl) y

set_option maxHeartbeats 1000000 in
/-- The body on whole staging buffers — the five inputs at known contents, the output at anything — runs to the end
    without a fault, leaves the inputs as they were and the output at `out1_5` of the inputs. -/
theorem sound_kernel1 (c : Dev nD) (E : Set ℕ) (i : grid1.Coords) (arg0 : Memref sig .tc .vmem S4096x128 .f32) (harg0 : arg0.IsWhole) (arg1 : Memref sig .tc .vmem S128x256 .f32) (harg1 : arg1.IsWhole)
    (arg2 : Memref sig .tc .vmem S256 .f32) (harg2 : arg2.IsWhole) (arg3 : Memref sig .tc .vmem S256x128 .f32) (harg3 : arg3.IsWhole)
    (arg4 : Memref sig .tc .vmem S128 .f32) (harg4 : arg4.IsWhole) (arg5 : Memref sig .tc .vmem S4096x128 .f32) (harg5 : arg5.IsWhole)
    (x0 : Vec F S4096x128 .f32) (x1 : Vec F S128x256 .f32) (x2 : Vec F S256 .f32) (x3 : Vec F S256x128 .f32) (x4 : Vec F S128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out1_5 x0 x1 x2 x3 x4)) -∗ K ⟨⟩))
      ⊢ wp frame (wpE (defs₀ (F := F)) Variants.none c none) E (cc1__node_update_kernel i arg0 harg0 arg1 harg1 arg2 harg2 arg3 harg3 arg4 harg4 arg5 harg5) K := by
  simp only [cc1__node_update_kernel_eq_skeleton]; unfold cc1__node_update_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- Pipeline 1's proof data on core `c`: the arrays are the entry contents; after the body at point `t` each input
    buffer holds its block and the output buffer `out1_5` of the five blocks; the body neither reads nor changes
    anything else, owes nothing and holds every buffer whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of pipeline 1, at every point. -/
theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.K.Run.lean ====
import proofs.«111398_j7215545057969_1_alg».proof.Proof.Gen.Kernel.Launch
import proofs.«111398_j7215545057969_1_alg».proof.Proof.Gen.Kernel.Skeleton
import proofs.«111398_j7215545057969_1_alg».proof.Proof.Gen.Kernel.Points
import proofs.«111398_j7215545057969_1_alg».proof.Proof.K.Body0
import proofs.«111398_j7215545057969_1_alg».proof.Proof.K.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The run of @main: a stretch of host operations, the edge kernel's region, a second stretch, the node kernel's region

The contents of the TensorCore's unscoped buffers are followed from the launch to the return: a host stretch leaves
the fold of its operations; a region leaves its input arrays as entered and its output array at the fold of the
blocks its grid points write back. -/

variable (m : (ℓ : Loc nD τ sig) → Buf (Elt F) ℓ) (ρ : Dev nD → PrngReg)

/-- Core `c`'s buffers at launch. -/
abbrev U0 : Dev nD → Valuation τ sig (Elt F) := fun c b => (s₀ m ρ).mem ((c : Dev nD), b)
/-- After the first host stretch (the gathers and the concatenation): the edge region's entry. -/
abbrev U1 : Dev nD → Valuation τ sig (Elt F) := fun c => StableHlo.after hostOps0 (U0 m ρ c)
abbrev E1 : (c : Dev nD) → (b : Ref sig .tc) → Buf (Elt F) ((c : Thread nD τ).loc b) := fun c b => U1 m ρ c b
/-- At the edge region's exit: its arrays at what the pipeline leaves, every other buffer as entered. -/
def U2 (c : Dev nD) : Valuation τ sig (Elt F) :=
  Pipeline.withArrays spec0 c (U1 m ρ c) fun w => (dat0 (E1 m ρ) c).arrAt w cfg0.N
theorem U2_arr (c : Dev nD) (w : Fin cfg0.W) :
    U2 m ρ c (Proc.devRef .tc (Pipeline.arrRef spec0 w)) = (dat0 (E1 m ρ) c).arrAt w cfg0.N := by
  unfold U2; exact Pipeline.withArrays_arr spec0 launch0.win.arr_inj c _ _ w
theorem U2_of_ne (c : Dev nD) (b : Ref sig .tc) (hb : ∀ w, Pipeline.arrRef spec0 w ≠ b) :
    U2 m ρ c (Proc.devRef .tc b) = U1 m ρ c (Proc.devRef .tc b) := by
  unfold U2; exact Pipeline.withArrays_of_ne spec0 c _ _ b hb
abbrev E2 : (c : Dev nD) → (b : Ref sig .tc) → Buf (Elt F) ((c : Thread nD τ).loc b) := fun c b => U2 m ρ c b
theorem hF0 (c : Dev nD) (w : Fin cfg0.W) : (dat0 (E1 m ρ) c).arrAt w cfg0.N = E2 m ρ c (Pipeline.arrRef spec0 w) :=
  (U2_arr m ρ c w).symm
theorem hrest0 (c : Dev nD) : ∀ b, b ∉ Finset.univ.image (Pipeline.arrRef spec0) → E2 m ρ c b = E1 m ρ c b :=
  fun b hb => U2_of_ne m ρ c b fun w e => hb (Finset.mem_image.mpr ⟨w, Finset.mem_univ _, e⟩)

/-- After the second host stretch (the scatter-mean and the residual): the node region's entry. -/
abbrev U3 : Dev nD → Valuation τ sig (Elt F) := fun c => StableHlo.after hostOps1 (U2 m ρ c)
abbrev E3 : (c : Dev nD) → (b : Ref sig .tc) → Buf (Elt F) ((c : Thread nD τ).loc b) := fun c b => U3 m ρ c b
/-- At the node region's exit. -/
def U4 (c : Dev nD) : Valuation τ sig (Elt F) :=
  Pipeline.withArrays spec1 c (U3 m ρ c) fun w => (dat1 (E3 m ρ) c).arrAt w cfg1.N
theorem U4_arr (c : Dev nD) (w : Fin cfg1.W) :
    U4 m ρ c (Proc.devRef .tc (Pipeline.arrRef spec1 w)) = (dat1 (E3 m ρ) c).arrAt w cfg1.N := by
  unfold U4; exact Pipeline.withArrays_arr spec1 launch1.win.arr_inj c _ _ w
theorem U4_of_ne (c : Dev nD) (b : Ref sig .tc) (hb : ∀ w, Pipeline.arrRef spec1 w ≠ b) :
    U4 m ρ c (Proc.devRef .tc b) = U3 m ρ c (Proc.devRef .tc b) := by
  unfold U4; exact Pipeline.withArrays_of_ne spec1 c _ _ b hb
abbrev E4 : (c : Dev nD) → (b : Ref sig .tc) → Buf (Elt F) ((c : Thread nD τ).loc b) := fun c b => U4 m ρ c b
theorem hF1 (c : Dev nD) (w : Fin cfg1.W) : (dat1 (E3 m ρ) c).arrAt w cfg1.N = E4 m ρ c (Pipeline.arrRef spec1 w) :=
  (U4_arr m ρ c w).symm
theorem hrest1 (c : Dev nD) : ∀ b, b ∉ Finset.univ.image (Pipeline.arrRef spec1) → E4 m ρ c b = E3 m ρ c b :=
  fun b hb => U4_of_ne m ρ c b fun w e => hb (Finset.mem_image.mpr ⟨w, Finset.mem_univ _, e⟩)

/-! ## The proof data of both pipelines and the thread state -/

/-- No pipeline has a prefetched table. -/
abbrev tabs : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) tabs p) c
  | ⟨0, _⟩ => fun c => dat0 (E1 m ρ) c
  | ⟨1, _⟩ => fun c => dat1 (E3 m ρ) c
abbrev vars : Variants := Variants.none
abbrev lvls : GSem nD τ sig → Finset Unit := fun _ => ∅
abbrev lvOf : GSem nD τ sig → Unit → ℕ := fun _ _ => 0
/-- What rides beside the buffers: the generator register at some state, and nothing owed. -/
abbrev Rd (c : Dev nD) : sProp 𝕄 := iprop((∃ r, prngReg c r) ∗ ∃ W, owes (c : Thread nD τ) (0 : CellTallies nD τ sig Unit) W)
abbrev hostPart (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ vars lvls lvOf :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd

theorem ops0_fresh : (hostOps0 : List (HloOp τ sig (Elt F))).Forall fun op => op.fresh = ∅ := by
  simp only [List.Forall]; repeat' constructor
theorem ops1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tend (c : Dev nD) : sProp 𝕄 := iprop(StableHlo.held (c : Thread nD τ) (Pipeline.ucRefs τ sig) (U4 m ρ c) ∗ ∃ r, prngReg c r)

/-! ## The regions as segments -/

set_option backward.isDefEq.respectTransparency.types false in
/-- The edge region over the thread state: entered with every unscoped buffer at `U1`, left at `U2`. -/
def reg0 : Pipeline.RegionSeg (pcfgs (F := F)) tabs (pdats m ρ) () defs₀ vars lvls lvOf 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ lvls lvOf 0 fun _ _ => rfl
  pre c := iprop(StableHlo.held (c : Thread nD τ) (Pipeline.ucRefs τ sig) (U1 m ρ c) ∗ Rd c)
  post c := iprop(StableHlo.held (c : Thread nD τ) (Pipeline.ucRefs τ sig) (U2 m ρ c) ∗ Rd c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) tabs (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tabs (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The node region over the thread state: entered with every unscoped buffer at `U3`, left at `U4`. -/
def reg1 : Pipeline.RegionSeg (pcfgs (F := F)) tabs (pdats m ρ) () defs₀ vars lvls lvOf 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ lvls lvOf 1 fun _ _ => rfl
  pre c := iprop(StableHlo.held (c : Thread nD τ) (Pipeline.ucRefs τ sig) (U3 m ρ c) ∗ Rd c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) tabs (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) tabs (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its four parts, and the launch -/

abbrev parts : List (Pipeline.Seg (pcfgs (F := F)) tabs (pdats m ρ) () defs₀ vars lvls lvOf) :=
  [ .host (hostPart hostOps0 hostOps0_sub ops0_fresh (U0 m ρ)),
    .region (reg0 m ρ),
    .host (hostPart hostOps1 hostOps1_sub ops1_fresh (U2 m ρ)),
    .region (reg1 m ρ) ]
theorem main_parts (c : Dev nD) : main (F := F) c = Pipeline.Seg.run (parts m ρ) := (main_chain c).trans (by chain_rfl)

set_option backward.isDefEq.respectTransparency.types false in
/-- THE RUN. From any memory with zero counters every weakly fair execution of @main terminates without a fault, and in
    every final state each unscoped TensorCore buffer holds what the fold `U4` says. -/
theorem run_all : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = U4 m ρ c (Proc.devRef .tc b)) :=
  Pipeline.θ_run_regions_kit (pcfgs (F := F)) tabs (pdats m ρ) () cellOf_inj emb₁ defs₀ vars lvls lvOf m ρ main (parts m ρ)
    (fun c Q => by rw [main_parts m ρ c])
    (by simp only [parts, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m ρ c) ∗ Rd c)) (Tₙ := Tend m ρ)
    (hch := ⟨fun _ => .rfl, fun _ => .rfl, fun _ => .rfl, fun _ => .rfl, fun _ => .rfl⟩)
    (hinit := by
      refine Pipeline.initEach lvls lvOf fun c => ?_
      rw [show unscopedBufs c (fun b => m ((c : Thread nD τ).loc b)) = StableHlo.held (c : Thread nD τ) (Pipeline.ucRefs τ sig) (U0 m ρ c)
        from Pipeline.unscopedBufs_held c (U0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U4 m ρ c b)
    (hfin := fun c s' => by
      iintro ⟨⟨Hh, -⟩, HSI⟩
      unfold StableHlo.held
      imodintro
      iapply (pointsTo_read_all (Pipeline.ucRefs τ sig) (fun b => (((c : Thread nD τ)).1, b)) (U4 m ρ c) s')
      isplitl [Hh] <;> iassumption)
    (hQ := fun s h c b hb => h c _ (mem_uc b hb))

end Cert.Kernel.Hand

end
-- ==== Proof.K.Frame.lean ====
import proofs.«111398_j7215545057969_1_alg».proof.Proof.Gen.Kernel.Launch
import proofs.«111398_j7215545057969_1_alg».proof.Proof.Gen.Kernel.Skeleton
import proofs.«111398_j7215545057969_1_alg».proof.Proof.Gen.Kernel.Points
import proofs.«111398_j7215545057969_1_alg».proof.Proof.K.Run
import proofs.«111398_j7215545057969_1_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # What the run leaves in the arguments and in the two results

No host operation writes an argument array; a region stages an argument through an input window, which it never
writes back, or does not touch it at all. So every argument ends as launched. The two results end at the folds of
the blocks their regions' grid points wrote back. -/

variable (m : (ℓ : Loc nD τ sig) → Buf (Elt F) ℓ) (ρ : Dev nD → PrngReg)

/-- A buffer that is no array of the node region is unchanged by it. -/
theorem keep4 (c : Dev nD) (b : Ref sig .tc) (h : ∀ w, Pipeline.arrRef spec1 w ≠ b) :
    U4 m ρ c (Proc.devRef .tc b) = U3 m ρ c (Proc.devRef .tc b) := U4_of_ne m ρ c b h
/-- An input array of the node region is unchanged by it. -/
theorem keep4in (c : Dev nD) (w : Fin cfg1.W) (hw : (cfg1.win w).isOut = false) :
    U4 m ρ c (Proc.devRef .tc (Pipeline.arrRef spec1 w)) = U3 m ρ c (Proc.devRef .tc (Pipeline.arrRef spec1 w)) :=
  (U4_arr m ρ c w).trans (((dat1 (E3 m ρ) c).arrAt_in w hw _).trans (A_eq1 (E3 m ρ) c w))
/-- A buffer the second host stretch does not write is unchanged by it. -/
theorem keep3 (c : Dev nD) (b : Ref sig .tc) (h : b ∉ Gen.hostOps1_W) :
    U3 m ρ c (Proc.devRef .tc b) = U2 m ρ c (Proc.devRef .tc b) :=
  StableHlo.after_of_writes_sub hostOps1 _ Gen.hostOps1_writes h
/-- A buffer that is no array of the edge region is unchanged by it. -/
theorem keep2 (c : Dev nD) (b : Ref sig .tc) (h : ∀ w, Pipeline.arrRef spec0 w ≠ b) :
    U2 m ρ c (Proc.devRef .tc b) = U1 m ρ c (Proc.devRef .tc b) := U2_of_ne m ρ c b h
/-- An input array of the edge region is unchanged by it. -/
theorem keep2in (c : Dev nD) (w : Fin cfg0.W) (hw : (cfg0.win w).isOut = false) :
    U2 m ρ c (Proc.devRef .tc (Pipeline.arrRef spec0 w)) = U1 m ρ c (Proc.devRef .tc (Pipeline.arrRef spec0 w)) :=
  (U2_arr m ρ c w).trans (((dat0 (E1 m ρ) c).arrAt_in w hw _).trans (A_eq0 (E1 m ρ) c w))
/-- A buffer the first host stretch does not write is unchanged by it. -/
theorem keep1 (c : Dev nD) (b : Ref sig .tc) (h : b ∉ Gen.hostOps0_W) :
    U1 m ρ c (Proc.devRef .tc b) = U0 m ρ c (Proc.devRef .tc b) :=
  StableHlo.after_of_writes_sub hostOps0 _ Gen.hostOps0_writes h

theorem U4_main_arg0 (c : Dev nD) : U4 m ρ c (Proc.devRef .tc main_arg0) = m ((c : Thread nD τ).loc main_arg0) :=
  (keep4 m ρ c main_arg0 (by decide)).trans <| (keep3 m ρ c main_arg0 (by decide)).trans <| (keep2 m ρ c main_arg0 (by decide)).trans <| (keep1 m ρ c main_arg0 (by decide)).trans rfl
theorem U4_main_arg1 (c : Dev nD) : U4 m ρ c (Proc.devRef .tc main_arg1) = m ((c : Thread nD τ).loc main_arg1) :=
  (keep4 m ρ c main_arg1 (by decide)).trans <| (keep3 m ρ c main_arg1 (by decide)).trans <| (keep2 m ρ c main_arg1 (by decide)).trans <| (keep1 m ρ c main_arg1 (by decide)).trans rfl
theorem U4_main_arg2 (c : Dev nD) : U4 m ρ c (Proc.devRef .tc main_arg2) = m ((c : Thread nD τ).loc main_arg2) :=
  (keep4 m ρ c main_arg2 (by decide)).trans <| (keep3 m ρ c main_arg2 (by decide)).trans <| (keep2 m ρ c main_arg2 (by decide)).trans <| (keep1 m ρ c main_arg2 (by decide)).trans rfl
theorem U4_main_arg3 (c : Dev nD) : U4 m ρ c (Proc.devRef .tc main_arg3) = m ((c : Thread nD τ).loc main_arg3) :=
  (keep4 m ρ c main_arg3 (by decide)).trans <| (keep3 m ρ c main_arg3 (by decide)).trans <| (keep2in m ρ c 1 rfl).trans <| (keep1 m ρ c main_arg3 (by decide)).trans rfl
theorem U4_main_arg4 (c : Dev nD) : U4 m ρ c (Proc.devRef .tc main_arg4) = m ((c : Thread nD τ).loc main_arg4) :=
  (keep4 m ρ c main_arg4 (by decide)).trans <| (keep3 m ρ c main_arg4 (by decide)).trans <| (keep2in m ρ c 2 rfl).trans <| (keep1 m ρ c main_arg4 (by decide)).trans rfl
theorem U4_main_arg5 (c : Dev nD) : U4 m ρ c (Proc.devRef .tc main_arg5) = m ((c : Thread nD τ).loc main_arg5) :=
  (keep4 m ρ c main_arg5 (by decide)).trans <| (keep3 m ρ c main_arg5 (by decide)).trans <| (keep2in m ρ c 3 rfl).trans <| (keep1 m ρ c main_arg5 (by decide)).trans rfl
theorem U4_main_arg6 (c : Dev nD) : U4 m ρ c (Proc.devRef .tc main_arg6) = m ((c : Thread nD τ).loc main_arg6) :=
  (keep4 m ρ c main_arg6 (by decide)).trans <| (keep3 m ρ c main_arg6 (by decide)).trans <| (keep2in m ρ c 4 rfl).trans <| (keep1 m ρ c main_arg6 (by decide)).trans rfl
theorem U4_main_arg7 (c : Dev nD) : U4 m ρ c (Proc.devRef .tc main_arg7) = m ((c : Thread nD τ).loc main_arg7) :=
  (keep4in m ρ c 1 rfl).trans <| (keep3 m ρ c main_arg7 (by decide)).trans <| (keep2 m ρ c main_arg7 (by decide)).trans <| (keep1 m ρ c main_arg7 (by decide)).trans rfl
theorem U4_main_arg8 (c : Dev nD) : U4 m ρ c (Proc.devRef .tc main_arg8) = m ((c : Thread nD τ).loc main_arg8) :=
  (keep4in m ρ c 2 rfl).trans <| (keep3 m ρ c main_arg8 (by decide)).trans <| (keep2 m ρ c main_arg8 (by decide)).trans <| (keep1 m ρ c main_arg8 (by decide)).trans rfl
theorem U4_main_arg9 (c : Dev nD) : U4 m ρ c (Proc.devRef .tc main_arg9) = m ((c : Thread nD τ).loc main_arg9) :=
  (keep4in m ρ c 3 rfl).trans <| (keep3 m ρ c main_arg9 (by decide)).trans <| (keep2 m ρ c main_arg9 (by decide)).trans <| (keep1 m ρ c main_arg9 (by decide)).trans rfl
theorem U4_main_arg10 (c : Dev nD) : U4 m ρ c (Proc.devRef .tc main_arg10) = m ((c : Thread nD τ).loc main_arg10) :=
  (keep4in m ρ c 4 rfl).trans <| (keep3 m ρ c main_arg10 (by decide)).trans <| (keep2 m ρ c main_arg10 (by decide)).trans <| (keep1 m ρ c main_arg10 (by decide)).trans rfl

/-- The node result ends at the fold of the node region's write-backs. -/
theorem U4_main_v33 (c : Dev nD) : U4 m ρ c (Proc.devRef .tc main_v33) = (dat1 (E3 m ρ) c).arrAt 5 cfg1.N := U4_arr m ρ c 5
/-- The message result ends at the fold of the edge region's write-backs: nothing after that region writes it. -/
theorem U4_main_v19 (c : Dev nD) : U4 m ρ c (Proc.devRef .tc main_v19) = (dat0 (E1 m ρ) c).arrAt 5 cfg0.N :=
  (keep4 m ρ c main_v19 (by decide)).trans <| (keep3 m ρ c main_v19 (by decide)).trans (U2_arr m ρ c 5)

/-- The run with the two results named and every argument as launched. -/
theorem run_named : θ_run defs (onTc (τ := τ) (main (F := F))) ⟨m, fun _ => 0, ρ⟩ (fun r => ∀ c : Dev nD,
      r.2.mem ((c.tc : Thread nD τ).loc main_v33) = (dat1 (E3 m ρ) c).arrAt 5 cfg1.N
      ∧ r.2.mem ((c.tc : Thread nD τ).loc main_v19) = (dat0 (E1 m ρ) c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c main_v33 (by decide)).trans (U4_main_v33 m ρ c), (h c main_v19 (by decide)).trans (U4_main_v19 m ρ c),
      (h c main_arg0 (by decide)).trans (U4_main_arg0 m ρ c),
      (h c main_arg1 (by decide)).trans (U4_main_arg1 m ρ c),
      (h c main_arg2 (by decide)).trans (U4_main_arg2 m ρ c),
      (h c main_arg3 (by decide)).trans (U4_main_arg3 m ρ c),
      (h c main_arg4 (by decide)).trans (U4_main_arg4 m ρ c),
      (h c main_arg5 (by decide)).trans (U4_main_arg5 m ρ c),
      (h c main_arg6 (by decide)).trans (U4_main_arg6 m ρ c),
      (h c main_arg7 (by decide)).trans (U4_main_arg7 m ρ c),
      (h c main_arg8 (by decide)).trans (U4_main_arg8 m ρ c),
      (h c main_arg9 (by decide)).trans (U4_main_arg9 m ρ c),
      (h c main_arg10 (by decide)).trans (U4_main_arg10 m ρ c)⟩) (run_all m ρ)

/-- The frame: @main runs to the end without a fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => (h c).2.2) (run_named m ρ)

end Cert.Kernel.Hand

end
-- ==== Proof.KI.Body0.lean ====
import proofs.«111398_j7215545057969_1_alg».proof.Proof.Gen.KernelIdeal.Launch
import proofs.«111398_j7215545057969_1_alg».proof.Proof.Gen.KernelIdeal.Skeleton
import proofs.«111398_j7215545057969_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 0: the edge kernel, a row tile of `silu (silu (ea · w1 + b1) · w2 + b2)`

Everything here is stated at a parameter `V`, the contents of the TensorCore's buffers when the region is entered. -/

section
variable (V : (c : Dev nD) → (b : Ref sig .tc) → Buf (Elt F) ((c : Thread nD τ).loc b))

/-- The block of window `w` at grid point `t`, cut out of the window's array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 of region 0: whatever point the body runs at, and whether or not the pipeline fetched the
    window there, its current staging buffer holds the window's block of the entry array: an unfetched window's
    block index has not moved since the last fetch, and the body leaves the buffer as it found it. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1 of region 0: whatever point the body runs at, and whether or not the pipeline fetched the
    window there, its current staging buffer holds the window's block of the entry array: an unfetched window's
    block index has not moved since the last fetch, and the body leaves the buffer as it found it. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2 of region 0: whatever point the body runs at, and whether or not the pipeline fetched the
    window there, its current staging buffer holds the window's block of the entry array: an unfetched window's
    block index has not moved since the last fetch, and the body leaves the buffer as it found it. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- Input window 3 of region 0: whatever point the body runs at, and whether or not the pipeline fetched the
    window there, its current staging buffer holds the window's block of the entry array: an unfetched window's
    block index has not moved since the last fetch, and the body leaves the buffer as it found it. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- Input window 4 of region 0: whatever point the body runs at, and whether or not the pipeline fetched the
    window there, its current staging buffer holds the window's block of the entry array: an unfetched window's
    block index has not moved since the last fetch, and the body leaves the buffer as it found it. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the one store take a whole staging buffer -/

abbrev r0_0 : Rect S4096x384 := Rect.unit (s := S4096x384) ![0, 0] S4096x384.size inb_S4096x384_S4096x384_0_0
abbrev r0_1 : Rect S384x128 := Rect.unit (s := S384x128) ![0, 0] S384x128.size inb_S384x128_S384x128_0_0
abbrev r0_2 : Rect S128 := Rect.unit (s := S128) ![0] S128.size inb_S128_S128_0
abbrev r0_3 : Rect S128x128 := Rect.unit (s := S128x128) ![0, 0] S128x128.size inb_S128x128_S128x128_0_0
abbrev r0_4 : Rect S128 := Rect.unit (s := S128) ![0] S128.size inb_S128_S128_0
abbrev r0_5 : Rect S4096x128 := Rect.unit (s := S4096x128) ![0, 0] S4096x128.size inb_S4096x128_S4096x128_0_0

/-- What the body leaves in the output window's staging buffer: its one store, of the body's arithmetic applied to the
    five input blocks, over the whole buffer. -/
def out0_5 (x0 : Vec F S4096x384 .f32) (x1 : Vec F S384x128 .f32) (x2 : Vec F S128 .f32) (x3 : Vec F S128x128 .f32) (x4 : Vec F S128 .f32) : Vec F S4096x128 .f32 :=
  View.canon [⟨r0_5, k0_pay1 (View.ld x0 r0_0) (View.ld x1 r0_1) (View.ld x2 r0_2) (View.ld x3 r0_3) (View.ld x4 r0_4)⟩]

/-- The one store covers the whole output buffer. -/
theorem cover0_5 (p0 : Vec F S4096x128 .f32) (y : S4096x128.Idx) :
    ∃ pc ∈ ([⟨r0_5, p0⟩] : List (View.Piece (Elt F) S4096x128 .f32)), y ∈ pc.1.set :=
  View.cover_of_tiled [⟨r0_5, p0⟩] S4096x128.size (by rfl) y

set_option maxHeartbeats 1000000 in
/-- The body on whole staging buffers — the five inputs at known contents, the output at anything — runs to the end
    without a fault, leaves the inputs as they were and the output at `out0_5` of the inputs. -/
theorem sound_kernel0 (c : Dev nD) (E : Set ℕ) (i : grid0.Coords) (arg0 : Memref sig .tc .vmem S4096x384 .f32) (harg0 : arg0.IsWhole) (arg1 : Memref sig .tc .vmem S384x128 .f32) (harg1 : arg1.IsWhole)
    (arg2 : Memref sig .tc .vmem S128 .f32) (harg2 : arg2.IsWhole) (arg3 : Memref sig .tc .vmem S128x128 .f32) (harg3 : arg3.IsWhole)
    (arg4 : Memref sig .tc .vmem S128 .f32) (harg4 : arg4.IsWhole) (arg5 : Memref sig .tc .vmem S4096x128 .f32) (harg5 : arg5.IsWhole)
    (x0 : Vec F S4096x384 .f32) (x1 : Vec F S384x128 .f32) (x2 : Vec F S128 .f32) (x3 : Vec F S128x128 .f32) (x4 : Vec F S128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out0_5 x0 x1 x2 x3 x4)) -∗ K ⟨⟩))
      ⊢ wp frame (wpE (defs₀ (F := F)) Variants.none c none) E (cc0__edge_mlp_kernel i arg0 harg0 arg1 harg1 arg2 harg2 arg3 harg3 arg4 harg4 arg5 harg5) K := by
  simp only [cc0__edge_mlp_kernel_eq_skeleton]; unfold cc0__edge_mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover0_5 _)

/-! ## The pipeline's proof data -/

/-- Pipeline 0's proof data on core `c`: the arrays are the entry contents; after the body at point `t` each input
    buffer holds its block and the output buffer `out0_5` of the five blocks; the body neither reads nor changes
    anything else, owes nothing and holds every buffer whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t
    = out0_5 (iblk0 V c 0 t) (iblk0 V c 1 t) (iblk0 V c 2 t) (iblk0 V c 3 t) (iblk0 V c 4 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-! ## The body obligation at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel0 c Set.univ _ _ _ _ _ _ _ _ _ _ _ _ _ (iblk0 V c 0 t) (iblk0 V c 1 t) (iblk0 V c 2 t) (iblk0 V c 3 t) (iblk0 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of pipeline 0, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.KI.Body1.lean ====
import proofs.«111398_j7215545057969_1_alg».proof.Proof.Gen.KernelIdeal.Launch
import proofs.«111398_j7215545057969_1_alg».proof.Proof.Gen.KernelIdeal.Skeleton
import proofs.«111398_j7215545057969_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 1: the node kernel, a row tile of `x + (silu (x · wu1 + bu1) · wu2 + bu2)`

Everything here is stated at a parameter `V`, the contents of the TensorCore's buffers when the region is entered. -/

section
variable (V : (c : Dev nD) → (b : Ref sig .tc) → Buf (Elt F) ((c : Thread nD τ).loc b))

/-- The block of window `w` at grid point `t`, cut out of the window's array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 of region 1: whatever point the body runs at, and whether or not the pipeline fetched the
    window there, its current staging buffer holds the window's block of the entry array: an unfetched window's
    block index has not moved since the last fetch, and the body leaves the buffer as it found it. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1 of region 1: whatever point the body runs at, and whether or not the pipeline fetched the
    window there, its current staging buffer holds the window's block of the entry array: an unfetched window's
    block index has not moved since the last fetch, and the body leaves the buffer as it found it. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2 of region 1: whatever point the body runs at, and whether or not the pipeline fetched the
    window there, its current staging buffer holds the window's block of the entry array: an unfetched window's
    block index has not moved since the last fetch, and the body leaves the buffer as it found it. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- Input window 3 of region 1: whatever point the body runs at, and whether or not the pipeline fetched the
    window there, its current staging buffer holds the window's block of the entry array: an unfetched window's
    block index has not moved since the last fetch, and the body leaves the buffer as it found it. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- Input window 4 of region 1: whatever point the body runs at, and whether or not the pipeline fetched the
    window there, its current staging buffer holds the window's block of the entry array: an unfetched window's
    block index has not moved since the last fetch, and the body leaves the buffer as it found it. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the one store take a whole staging buffer -/

abbrev r1_0 : Rect S4096x128 := Rect.unit (s := S4096x128) ![0, 0] S4096x128.size inb_S4096x128_S4096x128_0_0
abbrev r1_1 : Rect S128x256 := Rect.unit (s := S128x256) ![0, 0] S128x256.size inb_S128x256_S128x256_0_0
abbrev r1_2 : Rect S256 := Rect.unit (s := S256) ![0] S256.size inb_S256_S256_0
abbrev r1_3 : Rect S256x128 := Rect.unit (s := S256x128) ![0, 0] S256x128.size inb_S256x128_S256x128_0_0
abbrev r1_4 : Rect S128 := Rect.unit (s := S128) ![0] S128.size inb_S128_S128_0
abbrev r1_5 : Rect S4096x128 := Rect.unit (s := S4096x128) ![0, 0] S4096x128.size inb_S4096x128_S4096x128_0_0

/-- What the body leaves in the output window's staging buffer: its one store, of the body's arithmetic applied to the
    five input blocks, over the whole buffer. -/
def out1_5 (x0 : Vec F S4096x128 .f32) (x1 : Vec F S128x256 .f32) (x2 : Vec F S256 .f32) (x3 : Vec F S256x128 .f32) (x4 : Vec F S128 .f32) : Vec F S4096x128 .f32 :=
  View.canon [⟨r1_5, k1_pay1 (View.ld x0 r1_0) (View.ld x1 r1_1) (View.ld x2 r1_2) (View.ld x3 r1_3) (View.ld x4 r1_4)⟩]

/-- The one store covers the whole output buffer. -/
theorem cover1_5 (p0 : Vec F S4096x128 .f32) (y : S4096x128.Idx) :
    ∃ pc ∈ ([⟨r1_5, p0⟩] : List (View.Piece (Elt F) S4096x128 .f32)), y ∈ pc.1.set :=
  View.cover_of_tiled [⟨r1_5, p0⟩] S4096x128.size (by rfl) y

set_option maxHeartbeats 1000000 in
/-- The body on whole staging buffers — the five inputs at known contents, the output at anything — runs to the end
    without a fault, leaves the inputs as they were and the output at `out1_5` of the inputs. -/
theorem sound_kernel1 (c : Dev nD) (E : Set ℕ) (i : grid1.Coords) (arg0 : Memref sig .tc .vmem S4096x128 .f32) (harg0 : arg0.IsWhole) (arg1 : Memref sig .tc .vmem S128x256 .f32) (harg1 : arg1.IsWhole)
    (arg2 : Memref sig .tc .vmem S256 .f32) (harg2 : arg2.IsWhole) (arg3 : Memref sig .tc .vmem S256x128 .f32) (harg3 : arg3.IsWhole)
    (arg4 : Memref sig .tc .vmem S128 .f32) (harg4 : arg4.IsWhole) (arg5 : Memref sig .tc .vmem S4096x128 .f32) (harg5 : arg5.IsWhole)
    (x0 : Vec F S4096x128 .f32) (x1 : Vec F S128x256 .f32) (x2 : Vec F S256 .f32) (x3 : Vec F S256x128 .f32) (x4 : Vec F S128 .f32) (K : PUnit → sProp 𝕄) :
    iprop(owns (c : Thread nD τ) arg0 fullShare x0 ∗ owns (c : Thread nD τ) arg1 fullShare x1 ∗ owns (c : Thread nD τ) arg2 fullShare x2
        ∗ owns (c : Thread nD τ) arg3 fullShare x3 ∗ owns (c : Thread nD τ) arg4 fullShare x4 ∗ (∃ d, owns (c : Thread nD τ) arg5 fullShare d)
        ∗ (iprop(owns (c : Thread nD τ) arg0 fullShare x0 ∗ owns (c : Thread nD τ) arg1 fullShare x1 ∗ owns (c : Thread nD τ) arg2 fullShare x2
            ∗ owns (c : Thread nD τ) arg3 fullShare x3 ∗ owns (c : Thread nD τ) arg4 fullShare x4
            ∗ owns (c : Thread nD τ) arg5 fullShare (out1_5 x0 x1 x2 x3 x4)) -∗ K ⟨⟩))
      ⊢ wp frame (wpE (defs₀ (F := F)) Variants.none c none) E (cc1__node_update_kernel i arg0 harg0 arg1 harg1 arg2 harg2 arg3 harg3 arg4 harg4 arg5 harg5) K := by
  simp only [cc1__node_update_kernel_eq_skeleton]; unfold cc1__node_update_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-! ## The pipeline's proof data -/

/-- Pipeline 1's proof data on core `c`: the arrays are the entry contents; after the body at point `t` each input
    buffer holds its block and the output buffer `out1_5` of the five blocks; the body neither reads nor changes
    anything else, owes nothing and holds every buffer whole. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation at a generic point -/

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ _ _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The body obligation of pipeline 1, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.KI.Run.lean ====
import proofs.«111398_j7215545057969_1_alg».proof.Proof.Gen.KernelIdeal.Launch
import proofs.«111398_j7215545057969_1_alg».proof.Proof.Gen.KernelIdeal.Skeleton
import proofs.«111398_j7215545057969_1_alg».proof.Proof.Gen.KernelIdeal.Points
import proofs.«111398_j7215545057969_1_alg».proof.Proof.KI.Body0
import proofs.«111398_j7215545057969_1_alg».proof.Proof.KI.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The run of @main: a stretch of host operations, the edge kernel's region, a second stretch, the node kernel's region

The contents of the TensorCore's unscoped buffers are followed from the launch to the return: a host stretch leaves
the fold of its operations; a region leaves its input arrays as entered and its output array at the fold of the
blocks its grid points write back. -/

variable (m : (ℓ : Loc nD τ sig) → Buf (Elt F) ℓ) (ρ : Dev nD → PrngReg)

/-- Core `c`'s buffers at launch. -/
abbrev U0 : Dev nD → Valuation τ sig (Elt F) := fun c b => (s₀ m ρ).mem ((c : Dev nD), b)
/-- After the first host stretch (the gathers and the concatenation): the edge region's entry. -/
abbrev U1 : Dev nD → Valuation τ sig (Elt F) := fun c => StableHlo.after hostOps0 (U0 m ρ c)
abbrev E1 : (c : Dev nD) → (b : Ref sig .tc) → Buf (Elt F) ((c : Thread nD τ).loc b) := fun c b => U1 m ρ c b
/-- At the edge region's exit: its arrays at what the pipeline leaves, every other buffer as entered. -/
def U2 (c : Dev nD) : Valuation τ sig (Elt F) :=
  Pipeline.withArrays spec0 c (U1 m ρ c) fun w => (dat0 (E1 m ρ) c).arrAt w cfg0.N
theorem U2_arr (c : Dev nD) (w : Fin cfg0.W) :
    U2 m ρ c (Proc.devRef .tc (Pipeline.arrRef spec0 w)) = (dat0 (E1 m ρ) c).arrAt w cfg0.N := by
  unfold U2; exact Pipeline.withArrays_arr spec0 launch0.win.arr_inj c _ _ w
theorem U2_of_ne (c : Dev nD) (b : Ref sig .tc) (hb : ∀ w, Pipeline.arrRef spec0 w ≠ b) :
    U2 m ρ c (Proc.devRef .tc b) = U1 m ρ c (Proc.devRef .tc b) := by
  unfold U2; exact Pipeline.withArrays_of_ne spec0 c _ _ b hb
abbrev E2 : (c : Dev nD) → (b : Ref sig .tc) → Buf (Elt F) ((c : Thread nD τ).loc b) := fun c b => U2 m ρ c b
theorem hF0 (c : Dev nD) (w : Fin cfg0.W) : (dat0 (E1 m ρ) c).arrAt w cfg0.N = E2 m ρ c (Pipeline.arrRef spec0 w) :=
  (U2_arr m ρ c w).symm
theorem hrest0 (c : Dev nD) : ∀ b, b ∉ Finset.univ.image (Pipeline.arrRef spec0) → E2 m ρ c b = E1 m ρ c b :=
  fun b hb => U2_of_ne m ρ c b fun w e => hb (Finset.mem_image.mpr ⟨w, Finset.mem_univ _, e⟩)

/-- After the second host stretch (the scatter-mean and the residual): the node region's entry. -/
abbrev U3 : Dev nD → Valuation τ sig (Elt F) := fun c => StableHlo.after hostOps1 (U2 m ρ c)
abbrev E3 : (c : Dev nD) → (b : Ref sig .tc) → Buf (Elt F) ((c : Thread nD τ).loc b) := fun c b => U3 m ρ c b
/-- At the node region's exit. -/
def U4 (c : Dev nD) : Valuation τ sig (Elt F) :=
  Pipeline.withArrays spec1 c (U3 m ρ c) fun w => (dat1 (E3 m ρ) c).arrAt w cfg1.N
theorem U4_arr (c : Dev nD) (w : Fin cfg1.W) :
    U4 m ρ c (Proc.devRef .tc (Pipeline.arrRef spec1 w)) = (dat1 (E3 m ρ) c).arrAt w cfg1.N := by
  unfold U4; exact Pipeline.withArrays_arr spec1 launch1.win.arr_inj c _ _ w
theorem U4_of_ne (c : Dev nD) (b : Ref sig .tc) (hb : ∀ w, Pipeline.arrRef spec1 w ≠ b) :
    U4 m ρ c (Proc.devRef .tc b) = U3 m ρ c (Proc.devRef .tc b) := by
  unfold U4; exact Pipeline.withArrays_of_ne spec1 c _ _ b hb
abbrev E4 : (c : Dev nD) → (b : Ref sig .tc) → Buf (Elt F) ((c : Thread nD τ).loc b) := fun c b => U4 m ρ c b
theorem hF1 (c : Dev nD) (w : Fin cfg1.W) : (dat1 (E3 m ρ) c).arrAt w cfg1.N = E4 m ρ c (Pipeline.arrRef spec1 w) :=
  (U4_arr m ρ c w).symm
theorem hrest1 (c : Dev nD) : ∀ b, b ∉ Finset.univ.image (Pipeline.arrRef spec1) → E4 m ρ c b = E3 m ρ c b :=
  fun b hb => U4_of_ne m ρ c b fun w e => hb (Finset.mem_image.mpr ⟨w, Finset.mem_univ _, e⟩)

/-! ## The proof data of both pipelines and the thread state -/

/-- No pipeline has a prefetched table. -/
abbrev tabs : (p : Fin 2) → (pcfgs (F := F) p).Adm := fun p => (cfgs p).toPCfg_adm
/-- Each pipeline's proof data at its region's entry contents. -/
def pdats : (p : Fin 2) → (c : Dev nD) → Dat τ (Elt F) Unit ℕ (UR sig nD τ) ℕ (Pipeline.pin (pcfgs (F := F)) tabs p) c
  | ⟨0, _⟩ => fun c => dat0 (E1 m ρ) c
  | ⟨1, _⟩ => fun c => dat1 (E3 m ρ) c
abbrev vars : Variants := Variants.none
abbrev lvls : GSem nD τ sig → Finset Unit := fun _ => ∅
abbrev lvOf : GSem nD τ sig → Unit → ℕ := fun _ _ => 0
/-- What rides beside the buffers: the generator register at some state, and nothing owed. -/
abbrev Rd (c : Dev nD) : sProp 𝕄 := iprop((∃ r, prngReg c r) ∗ ∃ W, owes (c : Thread nD τ) (0 : CellTallies nD τ sig Unit) W)
abbrev hostPart (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ vars lvls lvOf :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W Rd

theorem ops0_fresh : (hostOps0 : List (HloOp τ sig (Elt F))).Forall fun op => op.fresh = ∅ := by
  simp only [List.Forall]; repeat' constructor
theorem ops1_fresh : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tend (c : Dev nD) : sProp 𝕄 := iprop(StableHlo.held (c : Thread nD τ) (Pipeline.ucRefs τ sig) (U4 m ρ c) ∗ ∃ r, prngReg c r)

/-! ## The regions as segments -/

set_option backward.isDefEq.respectTransparency.types false in
/-- The edge region over the thread state: entered with every unscoped buffer at `U1`, left at `U2`. -/
def reg0 : Pipeline.RegionSeg (pcfgs (F := F)) tabs (pdats m ρ) () defs₀ vars lvls lvOf 0 where
  win := launch0.win.to₀
  block_pos := launch0.block_pos
  stage_whole := launch0.stage_whole
  K := PEmpty
  osem k := k.elim
  ho := Pipeline.OwnSemFacts.none _
  hbody c := (body_obligation0 (E1 m ρ) c).loose
  hwaits := Pipeline.hwaits_of_owed_zero _ _ _ _ lvls lvOf 0 fun _ _ => rfl
  pre c := iprop(StableHlo.held (c : Thread nD τ) (Pipeline.ucRefs τ sig) (U1 m ρ c) ∗ Rd c)
  post c := iprop(StableHlo.held (c : Thread nD τ) (Pipeline.ucRefs τ sig) (U2 m ρ c) ∗ Rd c)
  X c := iprop(∃ r, prngReg c r)
  Y c := iprop(∃ r, prngReg c r)
  Z c := Pipeline.unscopedRest (Ix := Unit) (Name := ℕ) (U := UR sig nD τ) (Lvl := ℕ) spec0 c (E1 m ρ c)
  hentry c := by
    rw [Pipeline.ownSems0_none]
    have hsplit := Pipeline.arrays_of_unscopedBufs (p := 0) (pcfgs (F := F)) tabs (pdats m ρ) launch0.win launch0.arr_whole c
      ((pdats m ρ 0 c).share_full fun _ => rfl) (E1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) tabs (Ix := Unit) (Name := ℕ) (U := UR sig nD τ) (Lvl := ℕ)
      launch0.win launch0.arr_whole c (pdats m ρ) ((pdats m ρ 0 c).share_full fun _ => rfl)
      (E1 m ρ c) (E2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The node region over the thread state: entered with every unscoped buffer at `U3`, left at `U4`. -/
def reg1 : Pipeline.RegionSeg (pcfgs (F := F)) tabs (pdats m ρ) () defs₀ vars lvls lvOf 1 where
  win := launch1.win.to₀
  block_pos := launch1.block_pos
  stage_whole := launch1.stage_whole
  K := PEmpty
  osem k := k.elim
  ho := Pipeline.OwnSemFacts.none _
  hbody c := (body_obligation1 (E3 m ρ) c).loose
  hwaits := Pipeline.hwaits_of_owed_zero _ _ _ _ lvls lvOf 1 fun _ _ => rfl
  pre c := iprop(StableHlo.held (c : Thread nD τ) (Pipeline.ucRefs τ sig) (U3 m ρ c) ∗ Rd c)
  post c := iprop(Tend m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (E3 m ρ c)
  hentry c := by
    rw [Pipeline.ownSems0_none]
    have hsplit := Pipeline.arrays_of_unscopedBufs (p := 1) (pcfgs (F := F)) tabs (pdats m ρ) launch1.win launch1.arr_whole c
      ((pdats m ρ 1 c).share_full fun _ => rfl) (E3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) tabs (Ix := Unit) (Name := ℕ) (U := UR sig nD τ) (Lvl := ℕ)
      launch1.win launch1.arr_whole c (pdats m ρ) ((pdats m ρ 1 c).share_full fun _ => rfl)
      (E3 m ρ c) (E4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as its four parts, and the launch -/

abbrev parts : List (Pipeline.Seg (pcfgs (F := F)) tabs (pdats m ρ) () defs₀ vars lvls lvOf) :=
  [ .host (hostPart hostOps0 hostOps0_sub ops0_fresh (U0 m ρ)),
    .region (reg0 m ρ),
    .host (hostPart hostOps1 hostOps1_sub ops1_fresh (U2 m ρ)),
    .region (reg1 m ρ) ]
theorem main_parts (c : Dev nD) : main (F := F) c = Pipeline.Seg.run (parts m ρ) := (main_chain c).trans (by chain_rfl)

set_option backward.isDefEq.respectTransparency.types false in
/-- THE RUN. From any memory with zero counters every weakly fair execution of @main terminates without a fault, and in
    every final state each unscoped TensorCore buffer holds what the fold `U4` says. -/
theorem run_all : θ_run defs (onTc (τ := τ) (main (F := F))) ⟨m, fun _ => 0, ρ⟩ (fun r => ∀ c : Dev nD, ∀ b : Ref sig .tc,
      ¬ (Proc.devRef .tc b : DevRef τ sig).isScoped → r.2.mem ((c.tc : Thread nD τ).loc b) = U4 m ρ c (Proc.devRef .tc b)) :=
  Pipeline.θ_run_regions_kit (pcfgs (F := F)) tabs (pdats m ρ) () cellOf_inj emb₁ defs₀ vars lvls lvOf m ρ main (parts m ρ)
    (fun c Q => by rw [main_parts m ρ c])
    (by simp only [parts, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (U0 m ρ c) ∗ Rd c)) (Tₙ := Tend m ρ)
    (hch := ⟨fun _ => .rfl, fun _ => .rfl, fun _ => .rfl, fun _ => .rfl, fun _ => .rfl⟩)
    (hinit := by
      refine Pipeline.initEach lvls lvOf fun c => ?_
      rw [show unscopedBufs c (fun b => m ((c : Thread nD τ).loc b)) = StableHlo.held (c : Thread nD τ) (Pipeline.ucRefs τ sig) (U0 m ρ c)
        from Pipeline.unscopedBufs_held c (U0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = U4 m ρ c b)
    (hfin := fun c s' => by
      iintro ⟨⟨Hh, -⟩, HSI⟩
      unfold StableHlo.held
      imodintro
      iapply (pointsTo_read_all (Pipeline.ucRefs τ sig) (fun b => (((c : Thread nD τ)).1, b)) (U4 m ρ c) s')
      isplitl [Hh] <;> iassumption)
    (hQ := fun s h c b hb => h c _ (mem_uc b hb))

end Cert.KernelIdeal.Hand

end
-- ==== Proof.KI.Frame.lean ====
import proofs.«111398_j7215545057969_1_alg».proof.Proof.Gen.KernelIdeal.Launch
import proofs.«111398_j7215545057969_1_alg».proof.Proof.Gen.KernelIdeal.Skeleton
import proofs.«111398_j7215545057969_1_alg».proof.Proof.Gen.KernelIdeal.Points
import proofs.«111398_j7215545057969_1_alg».proof.Proof.KI.Run
import proofs.«111398_j7215545057969_1_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # What the run leaves in the arguments and in the two results

No host operation writes an argument array; a region stages an argument through an input window, which it never
writes back, or does not touch it at all. So every argument ends as launched. The two results end at the folds of
the blocks their regions' grid points wrote back. -/

variable (m : (ℓ : Loc nD τ sig) → Buf (Elt F) ℓ) (ρ : Dev nD → PrngReg)

/-- A buffer that is no array of the node region is unchanged by it. -/
theorem keep4 (c : Dev nD) (b : Ref sig .tc) (h : ∀ w, Pipeline.arrRef spec1 w ≠ b) :
    U4 m ρ c (Proc.devRef .tc b) = U3 m ρ c (Proc.devRef .tc b) := U4_of_ne m ρ c b h
/-- An input array of the node region is unchanged by it. -/
theorem keep4in (c : Dev nD) (w : Fin cfg1.W) (hw : (cfg1.win w).isOut = false) :
    U4 m ρ c (Proc.devRef .tc (Pipeline.arrRef spec1 w)) = U3 m ρ c (Proc.devRef .tc (Pipeline.arrRef spec1 w)) :=
  (U4_arr m ρ c w).trans (((dat1 (E3 m ρ) c).arrAt_in w hw _).trans (A_eq1 (E3 m ρ) c w))
/-- A buffer the second host stretch does not write is unchanged by it. -/
theorem keep3 (c : Dev nD) (b : Ref sig .tc) (h : b ∉ Gen.hostOps1_W) :
    U3 m ρ c (Proc.devRef .tc b) = U2 m ρ c (Proc.devRef .tc b) :=
  StableHlo.after_of_writes_sub hostOps1 _ Gen.hostOps1_writes h
/-- A buffer that is no array of the edge region is unchanged by it. -/
theorem keep2 (c : Dev nD) (b : Ref sig .tc) (h : ∀ w, Pipeline.arrRef spec0 w ≠ b) :
    U2 m ρ c (Proc.devRef .tc b) = U1 m ρ c (Proc.devRef .tc b) := U2_of_ne m ρ c b h
/-- An input array of the edge region is unchanged by it. -/
theorem keep2in (c : Dev nD) (w : Fin cfg0.W) (hw : (cfg0.win w).isOut = false) :
    U2 m ρ c (Proc.devRef .tc (Pipeline.arrRef spec0 w)) = U1 m ρ c (Proc.devRef .tc (Pipeline.arrRef spec0 w)) :=
  (U2_arr m ρ c w).trans (((dat0 (E1 m ρ) c).arrAt_in w hw _).trans (A_eq0 (E1 m ρ) c w))
/-- A buffer the first host stretch does not write is unchanged by it. -/
theorem keep1 (c : Dev nD) (b : Ref sig .tc) (h : b ∉ Gen.hostOps0_W) :
    U1 m ρ c (Proc.devRef .tc b) = U0 m ρ c (Proc.devRef .tc b) :=
  StableHlo.after_of_writes_sub hostOps0 _ Gen.hostOps0_writes h

theorem U4_main_arg0 (c : Dev nD) : U4 m ρ c (Proc.devRef .tc main_arg0) = m ((c : Thread nD τ).loc main_arg0) :=
  (keep4 m ρ c main_arg0 (by decide)).trans <| (keep3 m ρ c main_arg0 (by decide)).trans <| (keep2 m ρ c main_arg0 (by decide)).trans <| (keep1 m ρ c main_arg0 (by decide)).trans rfl
theorem U4_main_arg1 (c : Dev nD) : U4 m ρ c (Proc.devRef .tc main_arg1) = m ((c : Thread nD τ).loc main_arg1) :=
  (keep4 m ρ c main_arg1 (by decide)).trans <| (keep3 m ρ c main_arg1 (by decide)).trans <| (keep2 m ρ c main_arg1 (by decide)).trans <| (keep1 m ρ c main_arg1 (by decide)).trans rfl
theorem U4_main_arg2 (c : Dev nD) : U4 m ρ c (Proc.devRef .tc main_arg2) = m ((c : Thread nD τ).loc main_arg2) :=
  (keep4 m ρ c main_arg2 (by decide)).trans <| (keep3 m ρ c main_arg2 (by decide)).trans <| (keep2 m ρ c main_arg2 (by decide)).trans <| (keep1 m ρ c main_arg2 (by decide)).trans rfl
theorem U4_main_arg3 (c : Dev nD) : U4 m ρ c (Proc.devRef .tc main_arg3) = m ((c : Thread nD τ).loc main_arg3) :=
  (keep4 m ρ c main_arg3 (by decide)).trans <| (keep3 m ρ c main_arg3 (by decide)).trans <| (keep2in m ρ c 1 rfl).trans <| (keep1 m ρ c main_arg3 (by decide)).trans rfl
theorem U4_main_arg4 (c : Dev nD) : U4 m ρ c (Proc.devRef .tc main_arg4) = m ((c : Thread nD τ).loc main_arg4) :=
  (keep4 m ρ c main_arg4 (by decide)).trans <| (keep3 m ρ c main_arg4 (by decide)).trans <| (keep2in m ρ c 2 rfl).trans <| (keep1 m ρ c main_arg4 (by decide)).trans rfl
theorem U4_main_arg5 (c : Dev nD) : U4 m ρ c (Proc.devRef .tc main_arg5) = m ((c : Thread nD τ).loc main_arg5) :=
  (keep4 m ρ c main_arg5 (by decide)).trans <| (keep3 m ρ c main_arg5 (by decide)).trans <| (keep2in m ρ c 3 rfl).trans <| (keep1 m ρ c main_arg5 (by decide)).trans rfl
theorem U4_main_arg6 (c : Dev nD) : U4 m ρ c (Proc.devRef .tc main_arg6) = m ((c : Thread nD τ).loc main_arg6) :=
  (keep4 m ρ c main_arg6 (by decide)).trans <| (keep3 m ρ c main_arg6 (by decide)).trans <| (keep2in m ρ c 4 rfl).trans <| (keep1 m ρ c main_arg6 (by decide)).trans rfl
theorem U4_main_arg7 (c : Dev nD) : U4 m ρ c (Proc.devRef .tc main_arg7) = m ((c : Thread nD τ).loc main_arg7) :=
  (keep4in m ρ c 1 rfl).trans <| (keep3 m ρ c main_arg7 (by decide)).trans <| (keep2 m ρ c main_arg7 (by decide)).trans <| (keep1 m ρ c main_arg7 (by decide)).trans rfl
theorem U4_main_arg8 (c : Dev nD) : U4 m ρ c (Proc.devRef .tc main_arg8) = m ((c : Thread nD τ).loc main_arg8) :=
  (keep4in m ρ c 2 rfl).trans <| (keep3 m ρ c main_arg8 (by decide)).trans <| (keep2 m ρ c main_arg8 (by decide)).trans <| (keep1 m ρ c main_arg8 (by decide)).trans rfl
theorem U4_main_arg9 (c : Dev nD) : U4 m ρ c (Proc.devRef .tc main_arg9) = m ((c : Thread nD τ).loc main_arg9) :=
  (keep4in m ρ c 3 rfl).trans <| (keep3 m ρ c main_arg9 (by decide)).trans <| (keep2 m ρ c main_arg9 (by decide)).trans <| (keep1 m ρ c main_arg9 (by decide)).trans rfl
theorem U4_main_arg10 (c : Dev nD) : U4 m ρ c (Proc.devRef .tc main_arg10) = m ((c : Thread nD τ).loc main_arg10) :=
  (keep4in m ρ c 4 rfl).trans <| (keep3 m ρ c main_arg10 (by decide)).trans <| (keep2 m ρ c main_arg10 (by decide)).trans <| (keep1 m ρ c main_arg10 (by decide)).trans rfl

/-- The node result ends at the fold of the node region's write-backs. -/
theorem U4_main_v33 (c : Dev nD) : U4 m ρ c (Proc.devRef .tc main_v33) = (dat1 (E3 m ρ) c).arrAt 5 cfg1.N := U4_arr m ρ c 5
/-- The message result ends at the fold of the edge region's write-backs: nothing after that region writes it. -/
theorem U4_main_v19 (c : Dev nD) : U4 m ρ c (Proc.devRef .tc main_v19) = (dat0 (E1 m ρ) c).arrAt 5 cfg0.N :=
  (keep4 m ρ c main_v19 (by decide)).trans <| (keep3 m ρ c main_v19 (by decide)).trans (U2_arr m ρ c 5)

/-- The run with the two results named and every argument as launched. -/
theorem run_named : θ_run defs (onTc (τ := τ) (main (F := F))) ⟨m, fun _ => 0, ρ⟩ (fun r => ∀ c : Dev nD,
      r.2.mem ((c.tc : Thread nD τ).loc main_v33) = (dat1 (E3 m ρ) c).arrAt 5 cfg1.N
      ∧ r.2.mem ((c.tc : Thread nD τ).loc main_v19) = (dat0 (E1 m ρ) c).arrAt 5 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c main_v33 (by decide)).trans (U4_main_v33 m ρ c), (h c main_v19 (by decide)).trans (U4_main_v19 m ρ c),
      (h c main_arg0 (by decide)).trans (U4_main_arg0 m ρ c),
      (h c main_arg1 (by decide)).trans (U4_main_arg1 m ρ c),
      (h c main_arg2 (by decide)).trans (U4_main_arg2 m ρ c),
      (h c main_arg3 (by decide)).trans (U4_main_arg3 m ρ c),
      (h c main_arg4 (by decide)).trans (U4_main_arg4 m ρ c),
      (h c main_arg5 (by decide)).trans (U4_main_arg5 m ρ c),
      (h c main_arg6 (by decide)).trans (U4_main_arg6 m ρ c),
      (h c main_arg7 (by decide)).trans (U4_main_arg7 m ρ c),
      (h c main_arg8 (by decide)).trans (U4_main_arg8 m ρ c),
      (h c main_arg9 (by decide)).trans (U4_main_arg9 m ρ c),
      (h c main_arg10 (by decide)).trans (U4_main_arg10 m ρ c)⟩) (run_all m ρ)

/-- The frame: @main runs to the end without a fault and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => (h c).2.2) (run_named m ρ)

end Cert.KernelIdeal.Hand

end
-- ==== Proof.LibMatSum.lean ====
/-
  A matrix product read at an entry, at the ideal values, for any dimension record that contracts the left
  operand's columns with the right operand's rows (no batch axis): the entry `(a, b)` of `A · B` is
  `∑ c, A (a, c) · B (c, b)`, for the host's product and for the matrix unit's product into a zero accumulator alike.
  (The record's well-formedness witness is a proposition, so every such record is the library's plain one.)
-/
import Idealize.ShloMosaic.Lib.StackMember
import Idealize.ShloMosaic.Lib.ValueIdx
import Idealize.ShloMosaic.PureOps.Ideal.Laws

noncomputable section

namespace Idealize.ShloMosaic.MatSum

open Idealize.ShloMosaic Idealize.ShloMosaic.ValueIdx

variable {m k n : Nat} {φ₁ φ₂ : FTy}

/-- A record with the plain product's dimension numbers is the plain record. -/
theorem eq_plain (w : DotDims.WF ⟨2, ![m, k]⟩ ⟨2, ![k, n]⟩ ⟨2, ![m, n]⟩ [1] [0] [0] [1] [] []) :
    (⟨[1], [0], [0], [1], [], [], w⟩ : DotDims ⟨2, ![m, k]⟩ ⟨2, ![k, n]⟩ ⟨2, ![m, n]⟩) = DotDims.plain m k n := rfl

/-- The plain record's operand indices at output `(a, b)` and contraction position `c`. -/
theorem plain_lhsIdx (a : Fin m) (b : Fin n) (c : Fin k) :
    (DotDims.plain m k n).lhsIdx (ix2 a b) ((contrEquiv1 (DotDims.plain m k n) k rfl rfl).symm c) = ix2 a c := by
  have c2 := contrEquiv1_symm_val (DotDims.plain m k n) k rfl rfl c
  funext ax; apply Fin.ext
  match ax with
  | ⟨0, _⟩ => simp [DotDims.lhsIdx, DotDims.plain]; rfl
  | ⟨1, _⟩ => simp [DotDims.lhsIdx, DotDims.plain]; exact c2

theorem plain_rhsIdx (a : Fin m) (b : Fin n) (c : Fin k) :
    (DotDims.plain m k n).rhsIdx (ix2 a b) ((contrEquiv1 (DotDims.plain m k n) k rfl rfl).symm c) = ix2 c b := by
  have c2 := contrEquiv1_symm_val (DotDims.plain m k n) k rfl rfl c
  funext ax; apply Fin.ext
  match ax with
  | ⟨0, _⟩ => simp [DotDims.rhsIdx, DotDims.plain]; exact c2
  | ⟨1, _⟩ => simp [DotDims.rhsIdx, DotDims.plain]; rfl

/-- The host's product at an entry. -/
theorem dotGeneral_entry (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (⟨[1], [0], [0], [1], [], [], w⟩ : DotDims ⟨2, ![m, k]⟩ ⟨2, ![k, n]⟩ ⟨2, ![m, n]⟩) prec A B (ix2 a b)
      = ∑ c : Fin k, A (ix2 a c) * B (ix2 c b) := by
  rw [eq_plain]
  exact StackMember.dotGeneral_plain_apply prec A B a b

/-- The matrix unit's product into a zero accumulator at an entry. -/
theorem matmul_zero_entry (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (⟨[1], [0], [0], [1], [], [], w⟩ : DotDims ⟨2, ![m, k]⟩ ⟨2, ![k, n]⟩ ⟨2, ![m, n]⟩) prec A B
        (constant (⟨2, ![m, n]⟩ : Shape) .f32 0x00000000#32) (ix2 a b)
      = ∑ c : Fin k, A (ix2 a c) * B (ix2 c b) := by
  rw [eq_plain]
  show FloatOps.matmul _ prec A B (constant _ .f32 0x00000000#32) (ix2 a b) = _
  rw [Ideal.matmul_constant_zero_apply, ← Equiv.sum_comp (contrEquiv1 (DotDims.plain m k n) k rfl rfl).symm]
  refine Finset.sum_congr rfl fun c _ => ?_
  rw [plain_lhsIdx, plain_rhsIdx]

end Idealize.ShloMosaic.MatSum

end
-- ==== Proof.LibHostRows.lean ====
/-
  Four readings at an index of host layout operations on matrices, for any extents.

  * A vector of `d` numbers made a `[1, d]` row and then repeated down `N` rows reads, at `(r, j)`, the vector at `j`.
  * The all-zero single-precision word held as a scalar and spread over any shape reads, everywhere, that word's value.
  * Two matrices with the same number of rows laid side by side read, at `(r, k)`, the left one at `(r, k)` when `k` is
    one of its columns and the right one at `(r, k - its width)` otherwise.
  * A column `[a, 1]` viewed as a row `[1, a]` reads, at `(u, i)`, the column at `(i, 0)`.
-/
import Idealize.ShloMosaic.PureOps.Ideal
import Idealize.ShloMosaic.Lib.ValueIdx
import Idealize.ShloMosaic.Lib.IdealHost
import Idealize.ShloMosaic.Lib.Pipeline.Value

noncomputable section

namespace Cert.Lib.HostRows

open Idealize.ShloMosaic Idealize.ShloMosaic.ValueIdx

variable {α : Type}

/-- A vector broadcast to one row and then to every row, at `(r, j)`: the vector at `j`. -/
theorem rowBias_apply {N d : ℕ} (b : (⟨1, ![d]⟩ : Shape).Idx → α)
    (h1 : (⟨1, ![d]⟩ : Shape).BroadcastsInDim ⟨2, ![1, d]⟩ ![1])
    (h2 : (⟨2, ![1, d]⟩ : Shape).BroadcastsInDim ⟨2, ![N, d]⟩ ![0, 1]) (r : Fin N) (j : Fin d) :
    broadcastInDim ⟨2, ![N, d]⟩ ![0, 1] h2 (broadcastInDim ⟨2, ![1, d]⟩ ![1] h1 b) (ix2 r j) = b (ix1 j) := by
  have hj : j.val = if d = 1 then 0 else j.val := by
    split
    · have := j.isLt; omega
    · rfl
  refine (broadcastInDim_apply _ h2 _ (ix2 r j) (ix2 (0 : Fin 1) j) (fun a => ?_)).trans
    (broadcastInDim_apply _ h1 b (ix2 (0 : Fin 1) j) (ix1 j) (fun a => ?_))
  · match a with
    | ⟨0, _⟩ => rfl
    | ⟨1, _⟩ => exact hj
  · match a with
    | ⟨0, _⟩ => exact hj

/-- The zero word as a scalar spread over a shape, anywhere: the word's value. -/
theorem zeroSplat_apply {T : Shape} (h : (⟨0, ![]⟩ : Shape).BroadcastsInDim T ![]) (i : T.Idx) :
    broadcastInDim T ![] h (constant (F := Ideal) ⟨0, ![]⟩ .f32 0x00000000#32) i = Ideal.ofBits .f32 0x00000000#32 := by
  rw [broadcastInDim_scalar_apply]
  rfl

/-- Two matrices side by side, at a column of the left one. -/
theorem sideBySide_left {N a b : ℕ} (x : (⟨2, ![N, a]⟩ : Shape).Idx → α) (y : (⟨2, ![N, b]⟩ : Shape).Idx → α)
    (h : Shape.Concatenates [⟨2, ![N, a]⟩, ⟨2, ![N, b]⟩] ⟨2, ![N, a + b]⟩ (1 : Fin 2)) (r : Fin N) (k : Fin a) :
    concatenate ⟨2, ![N, a + b]⟩ (1 : Fin 2) [⟨⟨2, ![N, a]⟩, x⟩, ⟨⟨2, ![N, b]⟩, y⟩] h
        (ix2 r ⟨k.val, by have := k.isLt; omega⟩) = x (ix2 r k) := by
  refine concatenate_pair_apply_left (t := ⟨2, ![N, a + b]⟩) (s₁ := ⟨2, ![N, a]⟩) (s₂ := ⟨2, ![N, b]⟩) _ x y h _ rfl (ix2 r k) (fun c => ?_)
  match c with
  | ⟨0, _⟩ => rfl
  | ⟨1, _⟩ => rfl

/-- Two matrices side by side, at a column of the right one. -/
theorem sideBySide_right {N a b : ℕ} (x : (⟨2, ![N, a]⟩ : Shape).Idx → α) (y : (⟨2, ![N, b]⟩ : Shape).Idx → α)
    (h : Shape.Concatenates [⟨2, ![N, a]⟩, ⟨2, ![N, b]⟩] ⟨2, ![N, a + b]⟩ (1 : Fin 2)) (r : Fin N) (k : Fin b) :
    concatenate ⟨2, ![N, a + b]⟩ (1 : Fin 2) [⟨⟨2, ![N, a]⟩, x⟩, ⟨⟨2, ![N, b]⟩, y⟩] h
        (ix2 r ⟨a + k.val, by have := k.isLt; omega⟩) = y (ix2 r k) := by
  refine concatenate_pair_apply_right (t := ⟨2, ![N, a + b]⟩) (s₁ := ⟨2, ![N, a]⟩) (s₂ := ⟨2, ![N, b]⟩) _ x y h _ rfl rfl (ix2 r k)
    (fun c hc => ?_) ?_
  · match c with
    | ⟨0, _⟩ => rfl
    | ⟨1, _⟩ => exact absurd rfl hc
  · show k.val + a = a + k.val
    omega

/-- A column viewed as a row, at `(u, i)`: the column at `(i, 0)`. -/
theorem columnAsRow_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.mul_one, Nat.add_zero, Nat.zero_mul, Nat.zero_add])

end Cert.Lib.HostRows

end
-- ==== Proof.LibHostDense.lean ====
/-
  A dense layer on the host read at an entry, at the ideal values, for any extents.

  The layer multiplies an `[N, n]` matrix of inputs by an `[n, d]` matrix of weights (contracting the inputs' columns
  with the weights' rows) and adds a bias vector of `d` numbers repeated down the rows. At `(r, j)` that is
  `(∑ k, X (r, k) · W (k, j)) + b j`. With a rectifier behind it — the entrywise maximum with the all-zero word spread
  over the shape — it is the maximum of that number and the zero word's value.
-/
import proofs.«111398_j7215545057969_1_alg».proof.Proof.LibMatSum
import proofs.«111398_j7215545057969_1_alg».proof.Proof.LibHostRows

noncomputable section

namespace Cert.Lib.HostDense

open Idealize.ShloMosaic Idealize.ShloMosaic.ValueIdx Idealize.ShloMosaic.MatSum Cert.Lib.HostRows

variable {N n d : ℕ}

/-- Product plus bias, at `(r, j)`. -/
theorem dense_entry (w : DotDims.WF ⟨2, ![N, n]⟩ ⟨2, ![n, d]⟩ ⟨2, ![N, d]⟩ [1] [0] [0] [1] [] [])
    (X : FVec Ideal ⟨2, ![N, n]⟩ .f32) (W : FVec Ideal ⟨2, ![n, d]⟩ .f32) (b : FVec Ideal ⟨1, ![d]⟩ .f32)
    (h1 : (⟨1, ![d]⟩ : Shape).BroadcastsInDim ⟨2, ![1, d]⟩ ![1])
    (h2 : (⟨2, ![1, d]⟩ : Shape).BroadcastsInDim ⟨2, ![N, d]⟩ ![0, 1]) (r : Fin N) (j : Fin d) :
    addf (Host.dotGeneral (⟨[1], [0], [0], [1], [], [], w⟩ : DotDims ⟨2, ![N, n]⟩ ⟨2, ![n, d]⟩ ⟨2, ![N, d]⟩) none X W)
        (broadcastInDim ⟨2, ![N, d]⟩ ![0, 1] h2 (broadcastInDim ⟨2, ![1, d]⟩ ![1] h1 b)) (ix2 r j)
      = (∑ k : Fin n, X (ix2 r k) * W (ix2 k j)) + b (ix1 j) := by
  rw [addf_apply, dotGeneral_entry, rowBias_apply]

/-- Product plus bias, rectified, at `(r, j)`. -/
theorem denseRelu_entry (w : DotDims.WF ⟨2, ![N, n]⟩ ⟨2, ![n, d]⟩ ⟨2, ![N, d]⟩ [1] [0] [0] [1] [] [])
    (X : FVec Ideal ⟨2, ![N, n]⟩ .f32) (W : FVec Ideal ⟨2, ![n, d]⟩ .f32) (b : FVec Ideal ⟨1, ![d]⟩ .f32)
    (h1 : (⟨1, ![d]⟩ : Shape).BroadcastsInDim ⟨2, ![1, d]⟩ ![1])
    (h2 : (⟨2, ![1, d]⟩ : Shape).BroadcastsInDim ⟨2, ![N, d]⟩ ![0, 1])
    (h0 : (⟨0, ![]⟩ : Shape).BroadcastsInDim ⟨2, ![N, d]⟩ ![]) (r : Fin N) (j : Fin d) :
    maximumf (addf (Host.dotGeneral (⟨[1], [0], [0], [1], [], [], w⟩ : DotDims ⟨2, ![N, n]⟩ ⟨2, ![n, d]⟩ ⟨2, ![N, d]⟩) none X W)
          (broadcastInDim ⟨2, ![N, d]⟩ ![0, 1] h2 (broadcastInDim ⟨2, ![1, d]⟩ ![1] h1 b)))
        (broadcastInDim ⟨2, ![N, d]⟩ ![] h0 (constant (F := Ideal) ⟨0, ![]⟩ .f32 0x00000000#32)) (ix2 r j)
      = max ((∑ k : Fin n, X (ix2 r k) * W (ix2 k j)) + b (ix1 j)) (Ideal.ofBits .f32 0x00000000#32) := by
  rw [maximumf_apply, dense_entry, zeroSplat_apply]

end Cert.Lib.HostDense

end
-- ==== Proof.LibLayer.lean ====
/-
  The elementwise tail of a dense layer read at an entry, at the ideal values, for any extents.

  * A vector of `n` numbers viewed as a one-row matrix and repeated down `a` rows reads, at `(i, j)`, the vector at `j`
    (also when `n = 1`).
  * A float word held as a scalar and spread over any shape reads, everywhere, that word's value.
  * Adding a bias vector to every row and taking the maximum with zero reads, at `(i, j)`, `max (x i j + b j) 0` — for
    the block form (casts and a repeated row, the zero a splatted scalar) and for the host form (two broadcasts of the
    bias, the zero word spread over the matrix) alike.
  * Adding a bias and applying `1 / (1 + exp (-v))` reads, at `(i, j)`, that expression of `x i j + b j` — for the
    block form, which writes the negative as `0 - v`, and for the host form, which negates; on the extended reals
    `0 - v = -v` for every `v`, the infinities included.
-/
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value
import proofs.«111398_j7215545057969_1_alg».proof.Proof.LibHostRows

noncomputable section

namespace Cert.Lib.Layer

open Idealize.ShloMosaic Idealize.ShloMosaic.ValueIdx

/-- A vector viewed as a one-row matrix and repeated down the rows, at `(i, j)`: the vector at `j`. -/
theorem rowCast_entry {α : Type} {a n : ℕ} (z : (⟨1, ![n]⟩ : Shape).Idx → α)
    (hc : (⟨1, ![n]⟩ : Shape).ShapeCasts ⟨2, ![1, n]⟩) (hb : (⟨2, ![1, n]⟩ : Shape).Broadcasts ⟨2, ![a, n]⟩)
    (i : Fin a) (j : Fin n) :
    broadcastTo ⟨2, ![a, n]⟩ (shapeCast ⟨2, ![1, n]⟩ z hc) hb (ix2 i j) = z (ix1 j) := by
  have hj : j.val = if n = 1 then 0 else j.val := by
    split
    · have := j.isLt; omega
    · rfl
  refine (broadcastTo_apply _ hb (ix2 i j) (ix2 (0 : Fin 1) j) (fun ax => match ax with
    | ⟨0, _⟩ => by show 0 = if (1 : ℕ) = 1 then 0 else i.val; rw [if_pos rfl]
    | ⟨1, _⟩ => hj)).trans ?_
  exact shapeCast_apply z hc _ _ (by
    rw [Shape.rowMajor_val_two, Shape.rowMajor_val_one]
    show j.val = 0 * n + j.val
    omega)

/-- A float word as a scalar spread over a shape, anywhere: the word's value. -/
theorem splat_apply {T : Shape} (w : BitVec 32) (h : (⟨0, ![]⟩ : Shape).BroadcastsInDim T ![]) (i : T.Idx) :
    broadcastInDim T ![] h (constant (F := Ideal) ⟨0, ![]⟩ .f32 w) i = Ideal.ofBits .f32 w := by
  rw [broadcastInDim_scalar_apply]
  rfl

/-- On the extended reals zero minus a number is its negative. -/
theorem zero_sub_eq_neg (x : EReal) : (0 : EReal) - x = -x := by rw [sub_eq_add_neg, zero_add]

variable {a n : ℕ}

/-- A block with a bias row added and the maximum with zero taken, at `(i, j)`. -/
theorem blockBiasRelu_entry (x : FVec Ideal ⟨2, ![a, n]⟩ .f32) (b : FVec Ideal ⟨1, ![n]⟩ .f32)
    (hs : (⟨2, ![a, n]⟩ : Shape).ShapeCasts ⟨2, ![a, n]⟩)
    (hc : (⟨1, ![n]⟩ : Shape).ShapeCasts ⟨2, ![1, n]⟩) (hb : (⟨2, ![1, n]⟩ : Shape).Broadcasts ⟨2, ![a, n]⟩)
    (i : Fin a) (j : Fin n) :
    maximumf (addf (shapeCast ⟨2, ![a, n]⟩ x hs) (broadcastTo ⟨2, ![a, n]⟩ (shapeCast ⟨2, ![1, n]⟩ b hc) hb))
        (broadcast ⟨2, ![a, n]⟩ (Scalar.ofBits (F := Ideal) .f32 0x00000000#32)) (ix2 i j)
      = max (x (ix2 i j) + b (ix1 j)) 0 := by
  show max (shapeCast ⟨2, ![a, n]⟩ x hs (ix2 i j) + broadcastTo ⟨2, ![a, n]⟩ (shapeCast ⟨2, ![1, n]⟩ b hc) hb (ix2 i j))
      (Ideal.ofBits .f32 0x00000000#32) = _
  rw [shapeCast_self, rowCast_entry, Ideal.ofBits_zero_f32]

/-- A matrix with a bias vector broadcast to every row added and the maximum with the spread zero word taken, at `(r, j)`. -/
theorem hostBiasRelu_entry {N : ℕ} (X : FVec Ideal ⟨2, ![N, n]⟩ .f32) (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![N, n]⟩ ![0, 1])
    (h0 : (⟨0, ![]⟩ : Shape).BroadcastsInDim ⟨2, ![N, n]⟩ ![]) (r : Fin N) (j : Fin n) :
    maximumf (addf X (broadcastInDim ⟨2, ![N, n]⟩ ![0, 1] h2 (broadcastInDim ⟨2, ![1, n]⟩ ![1] h1 b)))
        (broadcastInDim ⟨2, ![N, n]⟩ ![] h0 (constant (F := Ideal) ⟨0, ![]⟩ .f32 0x00000000#32)) (ix2 r j)
      = max (X (ix2 r j) + b (ix1 j)) 0 := by
  show max (X (ix2 r j) + broadcastInDim ⟨2, ![N, n]⟩ ![0, 1] h2 (broadcastInDim ⟨2, ![1, n]⟩ ![1] h1 b) (ix2 r j))
      (broadcastInDim ⟨2, ![N, n]⟩ ![] h0 (constant (F := Ideal) ⟨0, ![]⟩ .f32 0x00000000#32) (ix2 r j)) = _
  rw [Cert.Lib.HostRows.rowBias_apply, splat_apply, Ideal.ofBits_zero_f32]

/-- The logistic expression of a number, with the literal one kept as its word's value. -/
def logisticOf (v : EReal) : EReal :=
  Ideal.div (Ideal.ofBits .f32 0x3F800000#32) (Ideal.ofBits .f32 0x3F800000#32 + Ideal.exp (-v))

/-- A block with a bias row added and `1 / (1 + exp (0 - v))` applied, at `(i, j)`. -/
theorem blockBiasLogistic_entry (x : FVec Ideal ⟨2, ![a, n]⟩ .f32) (b : FVec Ideal ⟨1, ![n]⟩ .f32)
    (hs : (⟨2, ![a, n]⟩ : Shape).ShapeCasts ⟨2, ![a, n]⟩)
    (hc : (⟨1, ![n]⟩ : Shape).ShapeCasts ⟨2, ![1, n]⟩) (hb : (⟨2, ![1, n]⟩ : Shape).Broadcasts ⟨2, ![a, n]⟩)
    (i : Fin a) (j : Fin n) :
    divf (broadcast ⟨2, ![a, n]⟩ (Scalar.ofBits (F := Ideal) .f32 0x3F800000#32))
        (addf (broadcast ⟨2, ![a, n]⟩ (Scalar.ofBits (F := Ideal) .f32 0x3F800000#32))
          (exp (subf (broadcast ⟨2, ![a, n]⟩ (Scalar.ofBits (F := Ideal) .f32 0x00000000#32))
            (addf (shapeCast ⟨2, ![a, n]⟩ x hs) (broadcastTo ⟨2, ![a, n]⟩ (shapeCast ⟨2, ![1, n]⟩ b hc) hb))))) (ix2 i j)
      = logisticOf (x (ix2 i j) + b (ix1 j)) := by
  show Ideal.div (Ideal.ofBits .f32 0x3F800000#32) (Ideal.ofBits .f32 0x3F800000#32
      + Ideal.exp (Ideal.ofBits .f32 0x00000000#32
        - (shapeCast ⟨2, ![a, n]⟩ x hs (ix2 i j) + broadcastTo ⟨2, ![a, n]⟩ (shapeCast ⟨2, ![1, n]⟩ b hc) hb (ix2 i j)))) = _
  rw [shapeCast_self, rowCast_entry, Ideal.ofBits_zero_f32, zero_sub_eq_neg]
  rfl

/-- A matrix with a bias vector broadcast to every row added and `1 / (1 + exp (-v))` applied, at `(r, j)`. -/
theorem hostBiasLogistic_entry {N : ℕ} (X : FVec Ideal ⟨2, ![N, n]⟩ .f32) (b : FVec Ideal ⟨1, ![n]⟩ .f32)
    (h1 : (⟨1, ![n]⟩ : Shape).BroadcastsInDim ⟨2, ![1, n]⟩ ![1])
    (h2 : (⟨2, ![1, n]⟩ : Shape).BroadcastsInDim ⟨2, ![N, n]⟩ ![0, 1])
    (h0 h0' : (⟨0, ![]⟩ : Shape).BroadcastsInDim ⟨2, ![N, n]⟩ ![]) (r : Fin N) (j : Fin n) :
    Host.divf (broadcastInDim ⟨2, ![N, n]⟩ ![] h0 (constant (F := Ideal) ⟨0, ![]⟩ .f32 0x3F800000#32))
        (addf (broadcastInDim ⟨2, ![N, n]⟩ ![] h0' (constant (F := Ideal) ⟨0, ![]⟩ .f32 0x3F800000#32))
          (Host.exp (Host.negf (addf X (broadcastInDim ⟨2, ![N, n]⟩ ![0, 1] h2 (broadcastInDim ⟨2, ![1, n]⟩ ![1] h1 b)))))) (ix2 r j)
      = logisticOf (X (ix2 r j) + b (ix1 j)) := by
  show Ideal.div (broadcastInDim ⟨2, ![N, n]⟩ ![] h0 (constant (F := Ideal) ⟨0, ![]⟩ .f32 0x3F800000#32) (ix2 r j))
      (broadcastInDim ⟨2, ![N, n]⟩ ![] h0' (constant (F := Ideal) ⟨0, ![]⟩ .f32 0x3F800000#32) (ix2 r j)
        + Ideal.exp (-(X (ix2 r j) + broadcastInDim ⟨2, ![N, n]⟩ ![0, 1] h2 (broadcastInDim ⟨2, ![1, n]⟩ ![1] h1 b) (ix2 r j)))) = _
  rw [Cert.Lib.HostRows.rowBias_apply, splat_apply]
  rfl

end Cert.Lib.Layer

end
-- ==== Proof.LibMlp.lean ====
/-
  A two-layer perceptron with the activation `z · 1 / (1 + exp (-z))` read at an entry, at the ideal values, for any
  extents — as a kernel body computes it on a block of rows (matrix-unit products into a zero accumulator of operands
  rounded to a narrower format, which at the ideal values is no rounding; a bias vector made a row and repeated; the
  activation as one logistic operation) and as host operations compute it on the whole matrix (plain products, the bias
  broadcast twice, the logistic spelt as negate, exponential, add one, divide one by it).

  * `dense X W b r j` is `(∑ k, X (r, k) · W (k, j)) + b j`.
  * `msgAt ea w1 b1 w2 b2 r j` is the activation of the second layer's entry over the activations of the first layer's row `r`.
  * `nodeAt x w1 b1 w2 b2 r j` is `x (r, j)` plus the second layer's entry (no activation behind it) over the same.
  Both forms of each read these numbers; an entry depends on one row of the first operand only, so a block of rows
  reads the same number as the whole matrix at the corresponding row.
-/
import Idealize.ShloMosaic.PureOps.Ideal
import Idealize.ShloMosaic.PureOps.Ideal.Laws
import Idealize.ShloMosaic.Lib.ValueIdx
import Idealize.ShloMosaic.Lib.IdealHost
import Idealize.ShloMosaic.Lib.Pipeline.Value
import proofs.«111398_j7215545057969_1_alg».proof.Proof.LibMatSum
import proofs.«111398_j7215545057969_1_alg».proof.Proof.LibHostRows
import proofs.«111398_j7215545057969_1_alg».proof.Proof.LibHostDense
import proofs.«111398_j7215545057969_1_alg».proof.Proof.LibLayer

noncomputable section

namespace Cert.Lib.Mlp

open Idealize.ShloMosaic Idealize.ShloMosaic.ValueIdx

/-- `z · 1 / (1 + exp (-z))` on the extended reals. -/
def silu (z : EReal) : EReal := z * Ideal.logistic z

variable {N n0 n1 n2 : ℕ}

/-- One entry of a product plus a bias: `(∑ k, X (r, k) · W (k, j)) + b j`. -/
def dense (X : FVec Ideal ⟨2, ![N, n0]⟩ .f32) (W : FVec Ideal ⟨2, ![n0, n1]⟩ .f32) (b : FVec Ideal ⟨1, ![n1]⟩ .f32)
    (r : Fin N) (j : Fin n1) : EReal :=
  (∑ k : Fin n0, X (ix2 r k) * W (ix2 k j)) + b (ix1 j)

/-- One entry of the two-layer message: the activation of the second layer over the activations of the first. -/
def msgAt (ea : FVec Ideal ⟨2, ![N, n0]⟩ .f32) (w1 : FVec Ideal ⟨2, ![n0, n1]⟩ .f32) (b1 : FVec Ideal ⟨1, ![n1]⟩ .f32)
    (w2 : FVec Ideal ⟨2, ![n1, n2]⟩ .f32) (b2 : FVec Ideal ⟨1, ![n2]⟩ .f32) (r : Fin N) (j : Fin n2) : EReal :=
  silu ((∑ k : Fin n1, silu (dense ea w1 b1 r k) * w2 (ix2 k j)) + b2 (ix1 j))

/-- One entry of the residual update: the input plus the second layer (no activation) over the activations of the first. -/
def nodeAt (x : FVec Ideal ⟨2, ![N, n0]⟩ .f32) (w1 : FVec Ideal ⟨2, ![n0, n1]⟩ .f32) (b1 : FVec Ideal ⟨1, ![n1]⟩ .f32)
    (w2 : FVec Ideal ⟨2, ![n1, n0]⟩ .f32) (b2 : FVec Ideal ⟨1, ![n0]⟩ .f32) (r : Fin N) (j : Fin n0) : EReal :=
  x (ix2 r j) + ((∑ k : Fin n1, silu (dense x w1 b1 r k) * w2 (ix2 k j)) + b2 (ix1 j))

/-- An entry of `dense` depends on one row of the first operand. -/
theorem dense_congr {M : ℕ} (X : FVec Ideal ⟨2, ![N, n0]⟩ .f32) (X' : FVec Ideal ⟨2, ![M, n0]⟩ .f32) (W : FVec Ideal ⟨2, ![n0, n1]⟩ .f32)
    (b : FVec Ideal ⟨1, ![n1]⟩ .f32) (r : Fin N) (r' : Fin M) (h : ∀ k, X (ix2 r k) = X' (ix2 r' k)) (j : Fin n1) :
    dense X W b r j = dense X' W b r' j := by
  unfold dense
  rw [Finset.sum_congr rfl fun k _ => by rw [h k]]

theorem msgAt_congr {M : ℕ} (ea : FVec Ideal ⟨2, ![N, n0]⟩ .f32) (ea' : FVec Ideal ⟨2, ![M, n0]⟩ .f32) (w1 : FVec Ideal ⟨2, ![n0, n1]⟩ .f32)
    (b1 : FVec Ideal ⟨1, ![n1]⟩ .f32) (w2 : FVec Ideal ⟨2, ![n1, n2]⟩ .f32) (b2 : FVec Ideal ⟨1, ![n2]⟩ .f32) (r : Fin N) (r' : Fin M)
    (h : ∀ k, ea (ix2 r k) = ea' (ix2 r' k)) (j : Fin n2) : msgAt ea w1 b1 w2 b2 r j = msgAt ea' w1 b1 w2 b2 r' j := by
  unfold msgAt
  rw [Finset.sum_congr rfl fun k _ => by rw [dense_congr ea ea' w1 b1 r r' h k]]

theorem nodeAt_congr {M : ℕ} (x : FVec Ideal ⟨2, ![N, n0]⟩ .f32) (x' : FVec Ideal ⟨2, ![M, n0]⟩ .f32) (w1 : FVec Ideal ⟨2, ![n0, n1]⟩ .f32)
    (b1 : FVec Ideal ⟨1, ![n1]⟩ .f32) (w2 : FVec Ideal ⟨2, ![n1, n0]⟩ .f32) (b2 : FVec Ideal ⟨1, ![n0]⟩ .f32) (r : Fin N) (r' : Fin M)
    (h : ∀ k, x (ix2 r k) = x' (ix2 r' k)) (j : Fin n0) : nodeAt x w1 b1 w2 b2 r j = nodeAt x' w1 b1 w2 b2 r' j := by
  unfold nodeAt
  rw [h j, Finset.sum_congr rfl fun k _ => by rw [dense_congr x x' w1 b1 r r' h k]]

/-! ## The block forms -/

/-- The activation as a kernel body writes it: the value times its logistic. -/
def blockSilu {s : Shape} (v : FVec Ideal s .f32) : FVec Ideal s .f32 := mulf v (logistic v)
theorem blockSilu_apply {s : Shape} (v : FVec Ideal s .f32) (i : s.Idx) : blockSilu v i = silu (v i) := rfl

/-- A dense layer as a kernel body writes it: the matrix unit's product into a zero accumulator of a narrow left operand
    and the narrowed weights, plus the bias made a row and repeated down the rows. -/
def blockDense (w : DotDims.WF ⟨2, ![N, n0]⟩ ⟨2, ![n0, n1]⟩ ⟨2, ![N, n1]⟩ [1] [0] [0] [1] [] [])
    (A : FVec Ideal ⟨2, ![N, n0]⟩ .bf16) (W : FVec Ideal ⟨2, ![n0, n1]⟩ .f32) (b : FVec Ideal ⟨1, ![n1]⟩ .f32)
    (hbf : FTy.bits .bf16 < FTy.bits .f32)
    (hc : (⟨1, ![n1]⟩ : Shape).ShapeCasts ⟨2, ![1, n1]⟩) (hb : (⟨2, ![1, n1]⟩ : Shape).Broadcasts ⟨2, ![N, n1]⟩) : FVec Ideal ⟨2, ![N, n1]⟩ .f32 :=
  addf (matmul (⟨[1], [0], [0], [1], [], [], w⟩ : DotDims ⟨2, ![N, n0]⟩ ⟨2, ![n0, n1]⟩ ⟨2, ![N, n1]⟩) none A (truncf .bf16 W hbf)
      (constant (F := Ideal) (⟨2, ![N, n1]⟩ : Shape) .f32 0x00000000#32))
    (broadcastTo ⟨2, ![N, n1]⟩ (shapeCast ⟨2, ![1, n1]⟩ b hc) hb)

theorem blockDense_entry (w : DotDims.WF ⟨2, ![N, n0]⟩ ⟨2, ![n0, n1]⟩ ⟨2, ![N, n1]⟩ [1] [0] [0] [1] [] [])
    (A : FVec Ideal ⟨2, ![N, n0]⟩ .bf16) (W : FVec Ideal ⟨2, ![n0, n1]⟩ .f32) (b : FVec Ideal ⟨1, ![n1]⟩ .f32)
    (hbf : FTy.bits .bf16 < FTy.bits .f32)
    (hc : (⟨1, ![n1]⟩ : Shape).ShapeCasts ⟨2, ![1, n1]⟩) (hb : (⟨2, ![1, n1]⟩ : Shape).Broadcasts ⟨2, ![N, n1]⟩) (r : Fin N) (j : Fin n1) :
    blockDense w A W b hbf hc hb (ix2 r j) = (∑ k : Fin n0, A (ix2 r k) * W (ix2 k j)) + b (ix1 j) := by
  unfold blockDense
  rw [addf_apply, Idealize.ShloMosaic.MatSum.matmul_zero_entry, Cert.Lib.Layer.rowCast_entry]
  rfl

/-- The two-layer message of a block of rows, as the edge kernel's body writes it. -/
def blockMsg (wf1 : DotDims.WF ⟨2, ![N, n0]⟩ ⟨2, ![n0, n1]⟩ ⟨2, ![N, n1]⟩ [1] [0] [0] [1] [] [])
    (wf2 : DotDims.WF ⟨2, ![N, n1]⟩ ⟨2, ![n1, n2]⟩ ⟨2, ![N, n2]⟩ [1] [0] [0] [1] [] [])
    (hs : (⟨2, ![N, n0]⟩ : Shape).ShapeCasts ⟨2, ![N, n0]⟩) (hbf : FTy.bits .bf16 < FTy.bits .f32)
    (hc1 : (⟨1, ![n1]⟩ : Shape).ShapeCasts ⟨2, ![1, n1]⟩) (hb1 : (⟨2, ![1, n1]⟩ : Shape).Broadcasts ⟨2, ![N, n1]⟩)
    (hc2 : (⟨1, ![n2]⟩ : Shape).ShapeCasts ⟨2, ![1, n2]⟩) (hb2 : (⟨2, ![1, n2]⟩ : Shape).Broadcasts ⟨2, ![N, n2]⟩)
    (x0 : FVec Ideal ⟨2, ![N, n0]⟩ .f32) (w1 : FVec Ideal ⟨2, ![n0, n1]⟩ .f32) (b1 : FVec Ideal ⟨1, ![n1]⟩ .f32)
    (w2 : FVec Ideal ⟨2, ![n1, n2]⟩ .f32) (b2 : FVec Ideal ⟨1, ![n2]⟩ .f32) : FVec Ideal ⟨2, ![N, n2]⟩ .f32 :=
  blockSilu (blockDense wf2 (truncf .bf16 (blockSilu (blockDense wf1 (truncf .bf16 (shapeCast ⟨2, ![N, n0]⟩ x0 hs) hbf) w1 b1 hbf hc1 hb1)) hbf)
    w2 b2 hbf hc2 hb2)

theorem blockMsg_entry (wf1 : DotDims.WF ⟨2, ![N, n0]⟩ ⟨2, ![n0, n1]⟩ ⟨2, ![N, n1]⟩ [1] [0] [0] [1] [] [])
    (wf2 : DotDims.WF ⟨2, ![N, n1]⟩ ⟨2, ![n1, n2]⟩ ⟨2, ![N, n2]⟩ [1] [0] [0] [1] [] [])
    (hs : (⟨2, ![N, n0]⟩ : Shape).ShapeCasts ⟨2, ![N, n0]⟩) (hbf : FTy.bits .bf16 < FTy.bits .f32)
    (hc1 : (⟨1, ![n1]⟩ : Shape).ShapeCasts ⟨2, ![1, n1]⟩) (hb1 : (⟨2, ![1, n1]⟩ : Shape).Broadcasts ⟨2, ![N, n1]⟩)
    (hc2 : (⟨1, ![n2]⟩ : Shape).ShapeCasts ⟨2, ![1, n2]⟩) (hb2 : (⟨2, ![1, n2]⟩ : Shape).Broadcasts ⟨2, ![N, n2]⟩)
    (x0 : FVec Ideal ⟨2, ![N, n0]⟩ .f32) (w1 : FVec Ideal ⟨2, ![n0, n1]⟩ .f32) (b1 : FVec Ideal ⟨1, ![n1]⟩ .f32)
    (w2 : FVec Ideal ⟨2, ![n1, n2]⟩ .f32) (b2 : FVec Ideal ⟨1, ![n2]⟩ .f32) (r : Fin N) (j : Fin n2) :
    blockMsg wf1 wf2 hs hbf hc1 hb1 hc2 hb2 x0 w1 b1 w2 b2 (ix2 r j) = msgAt x0 w1 b1 w2 b2 r j := by
  unfold blockMsg msgAt
  rw [blockSilu_apply, blockDense_entry]
  refine congrArg silu (congrArg (· + b2 (ix1 j)) (Finset.sum_congr rfl fun k _ => ?_))
  rw [truncf_apply, blockSilu_apply, blockDense_entry]
  refine congrArg (fun z => silu z * w2 (ix2 k j)) ?_
  unfold dense
  refine congrArg (· + b1 (ix1 k)) (Finset.sum_congr rfl fun c _ => ?_)
  rw [truncf_apply, shapeCast_self]

/-- The residual update of a block of rows, as the node kernel's body writes it. -/
def blockNode (wf1 : DotDims.WF ⟨2, ![N, n0]⟩ ⟨2, ![n0, n1]⟩ ⟨2, ![N, n1]⟩ [1] [0] [0] [1] [] [])
    (wf2 : DotDims.WF ⟨2, ![N, n1]⟩ ⟨2, ![n1, n0]⟩ ⟨2, ![N, n0]⟩ [1] [0] [0] [1] [] [])
    (hs : (⟨2, ![N, n0]⟩ : Shape).ShapeCasts ⟨2, ![N, n0]⟩) (hbf : FTy.bits .bf16 < FTy.bits .f32)
    (hc1 : (⟨1, ![n1]⟩ : Shape).ShapeCasts ⟨2, ![1, n1]⟩) (hb1 : (⟨2, ![1, n1]⟩ : Shape).Broadcasts ⟨2, ![N, n1]⟩)
    (hc2 : (⟨1, ![n0]⟩ : Shape).ShapeCasts ⟨2, ![1, n0]⟩) (hb2 : (⟨2, ![1, n0]⟩ : Shape).Broadcasts ⟨2, ![N, n0]⟩)
    (x0 : FVec Ideal ⟨2, ![N, n0]⟩ .f32) (w1 : FVec Ideal ⟨2, ![n0, n1]⟩ .f32) (b1 : FVec Ideal ⟨1, ![n1]⟩ .f32)
    (w2 : FVec Ideal ⟨2, ![n1, n0]⟩ .f32) (b2 : FVec Ideal ⟨1, ![n0]⟩ .f32) : FVec Ideal ⟨2, ![N, n0]⟩ .f32 :=
  addf (shapeCast ⟨2, ![N, n0]⟩ x0 hs)
    (blockDense wf2 (truncf .bf16 (blockSilu (blockDense wf1 (truncf .bf16 (shapeCast ⟨2, ![N, n0]⟩ x0 hs) hbf) w1 b1 hbf hc1 hb1)) hbf)
      w2 b2 hbf hc2 hb2)

theorem blockNode_entry (wf1 : DotDims.WF ⟨2, ![N, n0]⟩ ⟨2, ![n0, n1]⟩ ⟨2, ![N, n1]⟩ [1] [0] [0] [1] [] [])
    (wf2 : DotDims.WF ⟨2, ![N, n1]⟩ ⟨2, ![n1, n0]⟩ ⟨2, ![N, n0]⟩ [1] [0] [0] [1] [] [])
    (hs : (⟨2, ![N, n0]⟩ : Shape).ShapeCasts ⟨2, ![N, n0]⟩) (hbf : FTy.bits .bf16 < FTy.bits .f32)
    (hc1 : (⟨1, ![n1]⟩ : Shape).ShapeCasts ⟨2, ![1, n1]⟩) (hb1 : (⟨2, ![1, n1]⟩ : Shape).Broadcasts ⟨2, ![N, n1]⟩)
    (hc2 : (⟨1, ![n0]⟩ : Shape).ShapeCasts ⟨2, ![1, n0]⟩) (hb2 : (⟨2, ![1, n0]⟩ : Shape).Broadcasts ⟨2, ![N, n0]⟩)
    (x0 : FVec Ideal ⟨2, ![N, n0]⟩ .f32) (w1 : FVec Ideal ⟨2, ![n0, n1]⟩ .f32) (b1 : FVec Ideal ⟨1, ![n1]⟩ .f32)
    (w2 : FVec Ideal ⟨2, ![n1, n0]⟩ .f32) (b2 : FVec Ideal ⟨1, ![n0]⟩ .f32) (r : Fin N) (j : Fin n0) :
    blockNode wf1 wf2 hs hbf hc1 hb1 hc2 hb2 x0 w1 b1 w2 b2 (ix2 r j) = nodeAt x0 w1 b1 w2 b2 r j := by
  unfold blockNode nodeAt
  rw [addf_apply, shapeCast_self, blockDense_entry]
  refine congrArg (x0 (ix2 r j) + ·) (congrArg (· + b2 (ix1 j)) (Finset.sum_congr rfl fun k _ => ?_))
  rw [truncf_apply, blockSilu_apply, blockDense_entry]
  refine congrArg (fun z => silu z * w2 (ix2 k j)) ?_
  unfold dense
  refine congrArg (· + b1 (ix1 k)) (Finset.sum_congr rfl fun c _ => ?_)
  rw [truncf_apply]

/-! ## The host forms -/

/-- The activation as host operations write it: the value times one over one plus the exponential of its negative. -/
def hostSilu {T : Shape} (h0 h0' : (⟨0, ![]⟩ : Shape).BroadcastsInDim T ![]) (v : FVec Ideal T .f32) : FVec Ideal T .f32 :=
  mulf v (Host.divf (broadcastInDim T ![] h0 (constant (F := Ideal) ⟨0, ![]⟩ .f32 0x3F800000#32))
    (addf (broadcastInDim T ![] h0' (constant (F := Ideal) ⟨0, ![]⟩ .f32 0x3F800000#32)) (Host.exp (Host.negf v))))

theorem hostSilu_apply {T : Shape} (h0 h0' : (⟨0, ![]⟩ : Shape).BroadcastsInDim T ![]) (v : FVec Ideal T .f32) (i : T.Idx) :
    hostSilu h0 h0' v i = silu (v i) := by
  show v i * Ideal.div (broadcastInDim T ![] h0 (constant (F := Ideal) ⟨0, ![]⟩ .f32 0x3F800000#32) i)
      (broadcastInDim T ![] h0' (constant (F := Ideal) ⟨0, ![]⟩ .f32 0x3F800000#32) i + Ideal.exp (-(v i))) = v i * Ideal.logistic (v i)
  simp only [Cert.Lib.Layer.splat_apply, Ideal.ofBits_one_f32]
  rfl

/-- A dense layer as host operations write it: the plain product plus the bias broadcast to a row and then to every row. -/
def hostDense (w : DotDims.WF ⟨2, ![N, n0]⟩ ⟨2, ![n0, n1]⟩ ⟨2, ![N, n1]⟩ [1] [0] [0] [1] [] [])
    (h1 : (⟨1, ![n1]⟩ : Shape).BroadcastsInDim ⟨2, ![1, n1]⟩ ![1]) (h2 : (⟨2, ![1, n1]⟩ : Shape).BroadcastsInDim ⟨2, ![N, n1]⟩ ![0, 1])
    (X : FVec Ideal ⟨2, ![N, n0]⟩ .f32) (W : FVec Ideal ⟨2, ![n0, n1]⟩ .f32) (b : FVec Ideal ⟨1, ![n1]⟩ .f32) : FVec Ideal ⟨2, ![N, n1]⟩ .f32 :=
  addf (Host.dotGeneral (⟨[1], [0], [0], [1], [], [], w⟩ : DotDims ⟨2, ![N, n0]⟩ ⟨2, ![n0, n1]⟩ ⟨2, ![N, n1]⟩) none X W)
    (broadcastInDim ⟨2, ![N, n1]⟩ ![0, 1] h2 (broadcastInDim ⟨2, ![1, n1]⟩ ![1] h1 b))

theorem hostDense_entry (w : DotDims.WF ⟨2, ![N, n0]⟩ ⟨2, ![n0, n1]⟩ ⟨2, ![N, n1]⟩ [1] [0] [0] [1] [] [])
    (h1 : (⟨1, ![n1]⟩ : Shape).BroadcastsInDim ⟨2, ![1, n1]⟩ ![1]) (h2 : (⟨2, ![1, n1]⟩ : Shape).BroadcastsInDim ⟨2, ![N, n1]⟩ ![0, 1])
    (X : FVec Ideal ⟨2, ![N, n0]⟩ .f32) (W : FVec Ideal ⟨2, ![n0, n1]⟩ .f32) (b : FVec Ideal ⟨1, ![n1]⟩ .f32) (r : Fin N) (j : Fin n1) :
    hostDense w h1 h2 X W b (ix2 r j) = dense X W b r j :=
  Cert.Lib.HostDense.dense_entry w X W b h1 h2 r j

/-- The two-layer message of the whole matrix, as host operations write it. -/
def hostMsg (wf1 : DotDims.WF ⟨2, ![N, n0]⟩ ⟨2, ![n0, n1]⟩ ⟨2, ![N, n1]⟩ [1] [0] [0] [1] [] [])
    (wf2 : DotDims.WF ⟨2, ![N, n1]⟩ ⟨2, ![n1, n2]⟩ ⟨2, ![N, n2]⟩ [1] [0] [0] [1] [] [])
    (g1 : (⟨1, ![n1]⟩ : Shape).BroadcastsInDim ⟨2, ![1, n1]⟩ ![1]) (g2 : (⟨2, ![1, n1]⟩ : Shape).BroadcastsInDim ⟨2, ![N, n1]⟩ ![0, 1])
    (s1 s1' : (⟨0, ![]⟩ : Shape).BroadcastsInDim ⟨2, ![N, n1]⟩ ![])
    (g3 : (⟨1, ![n2]⟩ : Shape).BroadcastsInDim ⟨2, ![1, n2]⟩ ![1]) (g4 : (⟨2, ![1, n2]⟩ : Shape).BroadcastsInDim ⟨2, ![N, n2]⟩ ![0, 1])
    (s2 s2' : (⟨0, ![]⟩ : Shape).BroadcastsInDim ⟨2, ![N, n2]⟩ ![])
    (ea : FVec Ideal ⟨2, ![N, n0]⟩ .f32) (w1 : FVec Ideal ⟨2, ![n0, n1]⟩ .f32) (b1 : FVec Ideal ⟨1, ![n1]⟩ .f32)
    (w2 : FVec Ideal ⟨2, ![n1, n2]⟩ .f32) (b2 : FVec Ideal ⟨1, ![n2]⟩ .f32) : FVec Ideal ⟨2, ![N, n2]⟩ .f32 :=
  hostSilu s2 s2' (hostDense wf2 g3 g4 (hostSilu s1 s1' (hostDense wf1 g1 g2 ea w1 b1)) w2 b2)

theorem hostMsg_entry (wf1 : DotDims.WF ⟨2, ![N, n0]⟩ ⟨2, ![n0, n1]⟩ ⟨2, ![N, n1]⟩ [1] [0] [0] [1] [] [])
    (wf2 : DotDims.WF ⟨2, ![N, n1]⟩ ⟨2, ![n1, n2]⟩ ⟨2, ![N, n2]⟩ [1] [0] [0] [1] [] [])
    (g1 : (⟨1, ![n1]⟩ : Shape).BroadcastsInDim ⟨2, ![1, n1]⟩ ![1]) (g2 : (⟨2, ![1, n1]⟩ : Shape).BroadcastsInDim ⟨2, ![N, n1]⟩ ![0, 1])
    (s1 s1' : (⟨0, ![]⟩ : Shape).BroadcastsInDim ⟨2, ![N, n1]⟩ ![])
    (g3 : (⟨1, ![n2]⟩ : Shape).BroadcastsInDim ⟨2, ![1, n2]⟩ ![1]) (g4 : (⟨2, ![1, n2]⟩ : Shape).BroadcastsInDim ⟨2, ![N, n2]⟩ ![0, 1])
    (s2 s2' : (⟨0, ![]⟩ : Shape).BroadcastsInDim ⟨2, ![N, n2]⟩ ![])
    (ea : FVec Ideal ⟨2, ![N, n0]⟩ .f32) (w1 : FVec Ideal ⟨2, ![n0, n1]⟩ .f32) (b1 : FVec Ideal ⟨1, ![n1]⟩ .f32)
    (w2 : FVec Ideal ⟨2, ![n1, n2]⟩ .f32) (b2 : FVec Ideal ⟨1, ![n2]⟩ .f32) (r : Fin N) (j : Fin n2) :
    hostMsg wf1 wf2 g1 g2 s1 s1' g3 g4 s2 s2' ea w1 b1 w2 b2 (ix2 r j) = msgAt ea w1 b1 w2 b2 r j := by
  unfold hostMsg msgAt
  rw [hostSilu_apply, hostDense_entry]
  unfold dense
  refine congrArg silu (congrArg (· + b2 (ix1 j)) (Finset.sum_congr rfl fun k _ => ?_))
  rw [hostSilu_apply, hostDense_entry]
  rfl

/-- The residual update of the whole matrix, as host operations write it. -/
def hostNode (wf1 : DotDims.WF ⟨2, ![N, n0]⟩ ⟨2, ![n0, n1]⟩ ⟨2, ![N, n1]⟩ [1] [0] [0] [1] [] [])
    (wf2 : DotDims.WF ⟨2, ![N, n1]⟩ ⟨2, ![n1, n0]⟩ ⟨2, ![N, n0]⟩ [1] [0] [0] [1] [] [])
    (g1 : (⟨1, ![n1]⟩ : Shape).BroadcastsInDim ⟨2, ![1, n1]⟩ ![1]) (g2 : (⟨2, ![1, n1]⟩ : Shape).BroadcastsInDim ⟨2, ![N, n1]⟩ ![0, 1])
    (s1 s1' : (⟨0, ![]⟩ : Shape).BroadcastsInDim ⟨2, ![N, n1]⟩ ![])
    (g3 : (⟨1, ![n0]⟩ : Shape).BroadcastsInDim ⟨2, ![1, n0]⟩ ![1]) (g4 : (⟨2, ![1, n0]⟩ : Shape).BroadcastsInDim ⟨2, ![N, n0]⟩ ![0, 1])
    (x : FVec Ideal ⟨2, ![N, n0]⟩ .f32) (w1 : FVec Ideal ⟨2, ![n0, n1]⟩ .f32) (b1 : FVec Ideal ⟨1, ![n1]⟩ .f32)
    (w2 : FVec Ideal ⟨2, ![n1, n0]⟩ .f32) (b2 : FVec Ideal ⟨1, ![n0]⟩ .f32) : FVec Ideal ⟨2, ![N, n0]⟩ .f32 :=
  addf x (hostDense wf2 g3 g4 (hostSilu s1 s1' (hostDense wf1 g1 g2 x w1 b1)) w2 b2)

theorem hostNode_entry (wf1 : DotDims.WF ⟨2, ![N, n0]⟩ ⟨2, ![n0, n1]⟩ ⟨2, ![N, n1]⟩ [1] [0] [0] [1] [] [])
    (wf2 : DotDims.WF ⟨2, ![N, n1]⟩ ⟨2, ![n1, n0]⟩ ⟨2, ![N, n0]⟩ [1] [0] [0] [1] [] [])
    (g1 : (⟨1, ![n1]⟩ : Shape).BroadcastsInDim ⟨2, ![1, n1]⟩ ![1]) (g2 : (⟨2, ![1, n1]⟩ : Shape).BroadcastsInDim ⟨2, ![N, n1]⟩ ![0, 1])
    (s1 s1' : (⟨0, ![]⟩ : Shape).BroadcastsInDim ⟨2, ![N, n1]⟩ ![])
    (g3 : (⟨1, ![n0]⟩ : Shape).BroadcastsInDim ⟨2, ![1, n0]⟩ ![1]) (g4 : (⟨2, ![1, n0]⟩ : Shape).BroadcastsInDim ⟨2, ![N, n0]⟩ ![0, 1])
    (x : FVec Ideal ⟨2, ![N, n0]⟩ .f32) (w1 : FVec Ideal ⟨2, ![n0, n1]⟩ .f32) (b1 : FVec Ideal ⟨1, ![n1]⟩ .f32)
    (w2 : FVec Ideal ⟨2, ![n1, n0]⟩ .f32) (b2 : FVec Ideal ⟨1, ![n0]⟩ .f32) (r : Fin N) (j : Fin n0) :
    hostNode wf1 wf2 g1 g2 s1 s1' g3 g4 x w1 b1 w2 b2 (ix2 r j) = nodeAt x w1 b1 w2 b2 r j := by
  unfold hostNode nodeAt
  rw [addf_apply, hostDense_entry]
  unfold dense
  refine congrArg (x (ix2 r j) + ·) (congrArg (· + b2 (ix1 j)) (Finset.sum_congr rfl fun k _ => ?_))
  rw [hostSilu_apply, hostDense_entry]
  rfl

/-! ## The whole arrays -/

/-- The message array: `msgAt` at every entry. -/
def msgArr (ea : FVec Ideal ⟨2, ![N, n0]⟩ .f32) (w1 : FVec Ideal ⟨2, ![n0, n1]⟩ .f32) (b1 : FVec Ideal ⟨1, ![n1]⟩ .f32)
    (w2 : FVec Ideal ⟨2, ![n1, n2]⟩ .f32) (b2 : FVec Ideal ⟨1, ![n2]⟩ .f32) : FVec Ideal ⟨2, ![N, n2]⟩ .f32 :=
  fun i => msgAt ea w1 b1 w2 b2 (i 0) (i 1)

/-- The updated node array: `nodeAt` at every entry. -/
def nodeArr (x : FVec Ideal ⟨2, ![N, n0]⟩ .f32) (w1 : FVec Ideal ⟨2, ![n0, n1]⟩ .f32) (b1 : FVec Ideal ⟨1, ![n1]⟩ .f32)
    (w2 : FVec Ideal ⟨2, ![n1, n0]⟩ .f32) (b2 : FVec Ideal ⟨1, ![n0]⟩ .f32) : FVec Ideal ⟨2, ![N, n0]⟩ .f32 :=
  fun i => nodeAt x w1 b1 w2 b2 (i 0) (i 1)

/-- The host's two-layer message is the message array. -/
theorem hostMsg_eq (wf1 : DotDims.WF ⟨2, ![N, n0]⟩ ⟨2, ![n0, n1]⟩ ⟨2, ![N, n1]⟩ [1] [0] [0] [1] [] [])
    (wf2 : DotDims.WF ⟨2, ![N, n1]⟩ ⟨2, ![n1, n2]⟩ ⟨2, ![N, n2]⟩ [1] [0] [0] [1] [] [])
    (g1 : (⟨1, ![n1]⟩ : Shape).BroadcastsInDim ⟨2, ![1, n1]⟩ ![1]) (g2 : (⟨2, ![1, n1]⟩ : Shape).BroadcastsInDim ⟨2, ![N, n1]⟩ ![0, 1])
    (s1 s1' : (⟨0, ![]⟩ : Shape).BroadcastsInDim ⟨2, ![N, n1]⟩ ![])
    (g3 : (⟨1, ![n2]⟩ : Shape).BroadcastsInDim ⟨2, ![1, n2]⟩ ![1]) (g4 : (⟨2, ![1, n2]⟩ : Shape).BroadcastsInDim ⟨2, ![N, n2]⟩ ![0, 1])
    (s2 s2' : (⟨0, ![]⟩ : Shape).BroadcastsInDim ⟨2, ![N, n2]⟩ ![])
    (ea : FVec Ideal ⟨2, ![N, n0]⟩ .f32) (w1 : FVec Ideal ⟨2, ![n0, n1]⟩ .f32) (b1 : FVec Ideal ⟨1, ![n1]⟩ .f32)
    (w2 : FVec Ideal ⟨2, ![n1, n2]⟩ .f32) (b2 : FVec Ideal ⟨1, ![n2]⟩ .f32) :
    hostMsg wf1 wf2 g1 g2 s1 s1' g3 g4 s2 s2' ea w1 b1 w2 b2 = msgArr ea w1 b1 w2 b2 := by
  funext i
  obtain ⟨r, j, rfl⟩ : ∃ (r : Fin N) (j : Fin n2), i = ix2 r j := ⟨i 0, i 1, eq_ix2 i⟩
  exact hostMsg_entry wf1 wf2 g1 g2 s1 s1' g3 g4 s2 s2' ea w1 b1 w2 b2 r j

/-- The host's residual update is the updated node array. -/
theorem hostNode_eq (wf1 : DotDims.WF ⟨2, ![N, n0]⟩ ⟨2, ![n0, n1]⟩ ⟨2, ![N, n1]⟩ [1] [0] [0] [1] [] [])
    (wf2 : DotDims.WF ⟨2, ![N, n1]⟩ ⟨2, ![n1, n0]⟩ ⟨2, ![N, n0]⟩ [1] [0] [0] [1] [] [])
    (g1 : (⟨1, ![n1]⟩ : Shape).BroadcastsInDim ⟨2, ![1, n1]⟩ ![1]) (g2 : (⟨2, ![1, n1]⟩ : Shape).BroadcastsInDim ⟨2, ![N, n1]⟩ ![0, 1])
    (s1 s1' : (⟨0, ![]⟩ : Shape).BroadcastsInDim ⟨2, ![N, n1]⟩ ![])
    (g3 : (⟨1, ![n0]⟩ : Shape).BroadcastsInDim ⟨2, ![1, n0]⟩ ![1]) (g4 : (⟨2, ![1, n0]⟩ : Shape).BroadcastsInDim ⟨2, ![N, n0]⟩ ![0, 1])
    (x : FVec Ideal ⟨2, ![N, n0]⟩ .f32) (w1 : FVec Ideal ⟨2, ![n0, n1]⟩ .f32) (b1 : FVec Ideal ⟨1, ![n1]⟩ .f32)
    (w2 : FVec Ideal ⟨2, ![n1, n0]⟩ .f32) (b2 : FVec Ideal ⟨1, ![n0]⟩ .f32) :
    hostNode wf1 wf2 g1 g2 s1 s1' g3 g4 x w1 b1 w2 b2 = nodeArr x w1 b1 w2 b2 := by
  funext i
  obtain ⟨r, j, rfl⟩ : ∃ (r : Fin N) (j : Fin n0), i = ix2 r j := ⟨i 0, i 1, eq_ix2 i⟩
  exact hostNode_entry wf1 wf2 g1 g2 s1 s1' g3 g4 x w1 b1 w2 b2 r j

end Cert.Lib.Mlp

end
-- ==== Proof.KI.Value0.lean ====
import proofs.«111398_j7215545057969_1_alg».proof.Proof.KI.Body0
import proofs.«111398_j7215545057969_1_alg».proof.Proof.LibMlp
import Idealize.ShloMosaic.Lib.ValueIdx
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Lib.Mlp

/-! # The edge region's result, at the ideal values

Grid point `t` of 128 stages rows `4096·t … 4096·t + 4095` of the concatenated edge features, the whole of both weight
matrices and both biases, and writes back the same rows of the message array. An entry of the block the body stores is
the two-layer message of its row of the staged block; that row is row `4096·t + p` of the whole array, and the weights
are the whole arrays: so the block is the block of ONE function of the region's entry arrays, the message array, and
the 128 blocks tile the result. -/

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The edge body's arithmetic is the two-layer message of a block of rows. -/
theorem pay0_eq (x0 : Vec Ideal S4096x384 .f32) (x1 : Vec Ideal S384x128 .f32) (x2 : Vec Ideal S128 .f32)
    (x3 : Vec Ideal S128x128 .f32) (x4 : Vec Ideal S128 .f32) :
    k0_pay1 (F := Ideal) x0 x1 x2 x3 x4
      = blockMsg Gen.dot_S4096x384_S384x128_S4096x128_1_0_0_1_n_n_wf Gen.dot_S4096x128_S128x128_S4096x128_1_0_0_1_n_n_wf
          Gen.shapeCasts_S4096x384_S4096x384 Gen.bitsLt_bf16_f32 Gen.shapeCasts_S128_S1x128 Gen.broadcasts_S1x128_S4096x128
          Gen.shapeCasts_S128_S1x128 Gen.broadcasts_S1x128_S4096x128 x0 x1 x2 x3 x4 := rfl

/-- The six index maps over the 128 grid points: the edge features' and the result's block row is the point, every
    other block index is zero. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- Row `p` of the edge features' block at point `t` is row `4096·t + p` of the array. -/
theorem blk0_0 (c : Dev nD) (t : Fin cfg0.N) (p : Fin 4096) (k : Fin 384) (r : Fin 524288) (hr : r.val = t.val * 4096 + p.val) :
    iblk0 V c 0 t (ix2 p k) = V c main_v18 (ix2 r k) := by
  show V c main_v18 (((cfg0.win 0).blk t).view.emb (ix2 p k)) = V c main_v18 (ix2 r k)
  refine congrArg _ (funext fun a => Fin.ext ?_)
  obtain ⟨e0, e1, -⟩ := idx0 t
  match a with
  | ⟨0, _⟩ => show win0_0.index t (0 : Fin 2) * 4096 + 1 * p.val = r.val; omega
  | ⟨1, _⟩ => show win0_0.index t (1 : Fin 2) * 384 + 1 * k.val = k.val; omega

/-- The first weight matrix's block at any point is the whole matrix. -/
theorem blk0_1 (c : Dev nD) (t : Fin cfg0.N) (y : S384x128.Idx) : iblk0 V c 1 t y = V c main_arg3 y := by
  show V c main_arg3 (((cfg0.win 1).blk t).view.emb y) = V c main_arg3 y
  refine congrArg _ (funext fun a => Fin.ext ?_)
  obtain ⟨-, -, e0, e1, -⟩ := idx0 t
  match a with
  | ⟨0, _⟩ => show win0_1.index t (0 : Fin 2) * 384 + 1 * (y 0).val = (y 0).val; omega
  | ⟨1, _⟩ => show win0_1.index t (1 : Fin 2) * 128 + 1 * (y 1).val = (y 1).val; omega

theorem blk0_2 (c : Dev nD) (t : Fin cfg0.N) (y : S128.Idx) : iblk0 V c 2 t y = V c main_arg4 y := by
  show V c main_arg4 (((cfg0.win 2).blk t).view.emb y) = V c main_arg4 y
  refine congrArg _ (funext fun a => Fin.ext ?_)
  obtain ⟨-, -, -, -, e0, -⟩ := idx0 t
  match a with
  | ⟨0, _⟩ => show win0_2.index t (0 : Fin 1) * 128 + 1 * (y 0).val = (y 0).val; omega

theorem blk0_3 (c : Dev nD) (t : Fin cfg0.N) (y : S128x128.Idx) : iblk0 V c 3 t y = V c main_arg5 y := by
  show V c main_arg5 (((cfg0.win 3).blk t).view.emb y) = V c main_arg5 y
  refine congrArg _ (funext fun a => Fin.ext ?_)
  obtain ⟨-, -, -, -, -, e0, e1, -⟩ := idx0 t
  match a with
  | ⟨0, _⟩ => show win0_3.index t (0 : Fin 2) * 128 + 1 * (y 0).val = (y 0).val; omega
  | ⟨1, _⟩ => show win0_3.index t (1 : Fin 2) * 128 + 1 * (y 1).val = (y 1).val; omega

theorem blk0_4 (c : Dev nD) (t : Fin cfg0.N) (y : S128.Idx) : iblk0 V c 4 t y = V c main_arg6 y := by
  show V c main_arg6 (((cfg0.win 4).blk t).view.emb y) = V c main_arg6 y
  refine congrArg _ (funext fun a => Fin.ext ?_)
  obtain ⟨-, -, -, -, -, -, -, e0, -⟩ := idx0 t
  match a with
  | ⟨0, _⟩ => show win0_4.index t (0 : Fin 1) * 128 + 1 * (y 0).val = (y 0).val; omega

/-- Entry `(p, q)` of the result's block at point `t` sits at `(4096·t + p, q)` of the array. -/
theorem emb0_5 (t : Fin cfg0.N) (p : Fin 4096) (q : Fin 128) (r : Fin 524288) (hr : r.val = t.val * 4096 + p.val) :
    ((cfg0.win 5).blk t).view.emb (ix2 p q) = (ix2 r q : S524288x128.Idx) := by
  refine funext fun a => Fin.ext ?_
  obtain ⟨-, -, -, -, -, -, -, -, e0, e1⟩ := idx0 t
  match a with
  | ⟨0, _⟩ => show win0_5.index t (0 : Fin 2) * 4096 + 1 * p.val = r.val; omega
  | ⟨1, _⟩ => show win0_5.index t (1 : Fin 2) * 128 + 1 * q.val = q.val; omega

/-- The message of a staged block's row is the message of the whole array's corresponding row. -/
theorem msg_block (X0 : FVec Ideal ⟨2, ![4096, 384]⟩ .f32) (W1 : FVec Ideal ⟨2, ![384, 128]⟩ .f32) (B1 : FVec Ideal ⟨1, ![128]⟩ .f32)
    (W2 : FVec Ideal ⟨2, ![128, 128]⟩ .f32) (B2 : FVec Ideal ⟨1, ![128]⟩ .f32)
    (EA : FVec Ideal ⟨2, ![524288, 384]⟩ .f32) (w1 : FVec Ideal ⟨2, ![384, 128]⟩ .f32) (b1 : FVec Ideal ⟨1, ![128]⟩ .f32)
    (w2 : FVec Ideal ⟨2, ![128, 128]⟩ .f32) (b2 : FVec Ideal ⟨1, ![128]⟩ .f32) (p : Fin 4096) (r : Fin 524288) (q : Fin 128)
    (h0 : ∀ k, X0 (ix2 p k) = EA (ix2 r k)) (h1 : W1 = w1) (h2 : B1 = b1) (h3 : W2 = w2) (h4 : B2 = b2) :
    msgAt X0 W1 B1 W2 B2 p q = msgAt EA w1 b1 w2 b2 r q := by
  subst h1 h2 h3 h4
  exact msgAt_congr X0 EA W1 B1 W2 B2 p r h0 q

/-- WHAT POINT `t` WRITES BACK is block `t` of the message array of the region's entry arrays. -/
theorem flushed0_eq (c : Dev nD) (t : Fin cfg0.N) :
    (dat0 V c).flushed 5 t = ((cfg0.win 5).blk t).view.read (Elt Ideal)
      (msgArr (V c main_v18) (V c main_arg3) (V c main_arg4) (V c main_arg5) (V c main_arg6)) := by
  show (cfg0.win 5).cut (grid0.coords t) ((dat0 V c).after 5 t) = _
  rw [after0_5]
  unfold out0_5
  rw [View.canon_unit_zero zero2]
  simp only [View.ld_unit_zero (S := S4096x384) zero2, View.ld_unit_zero (S := S384x128) zero2, View.ld_unit_zero (S := S128) zero1,
    View.ld_unit_zero (S := S128x128) zero2]
  rw [pay0_eq]
  funext j
  obtain ⟨p, q, rfl⟩ : ∃ (p : Fin 4096) (q : Fin 128), j = ix2 p q := ⟨j 0, j 1, eq_ix2 j⟩
  have hlt : t.val * 4096 + p.val < 524288 := by
    have ht : t.val < 128 := by have h := t.isLt; have hN : cfg0.N = 128 := N_0; omega
    have hp := p.isLt; omega
  show blockMsg _ _ _ _ _ _ _ _ (iblk0 V c 0 t) (iblk0 V c 1 t) (iblk0 V c 2 t) (iblk0 V c 3 t) (iblk0 V c 4 t) (ix2 p q)
      = msgArr (V c main_v18) (V c main_arg3) (V c main_arg4) (V c main_arg5) (V c main_arg6) (((cfg0.win 5).blk t).view.emb (ix2 p q))
  rw [emb0_5 t p q ⟨t.val * 4096 + p.val, hlt⟩ rfl]
  refine (blockMsg_entry _ _ _ _ _ _ _ _ _ _ _ _ _ p q).trans ?_
  exact msg_block _ _ _ _ _ _ _ _ _ _ p ⟨t.val * 4096 + p.val, hlt⟩ q (fun k => blk0_0 V c t p k _ rfl)
    (funext (blk0_1 V c t)) (funext (blk0_2 V c t)) (funext (blk0_3 V c t)) (funext (blk0_4 V c t))

/-- An index of the result array is in point `t`'s block iff each coordinate is in the block's range on its axis. -/
theorem mem_blk0 (t : Fin cfg0.N) (i : S524288x128.Idx) :
    i ∈ ((cfg0.win 5).blk t).view.set ↔ ∀ a : Fin 2, win0_5.index t a * S4096x128.size a ≤ (i a).val ∧ (i a).val < win0_5.index t a * S4096x128.size a + S4096x128.size a := by
  show i ∈ ((View.whole main_v19).slice (win0_5.rect t)).set ↔ _
  rw [View.set_slice_whole, Rect.mem_set_unit]
  exact Iff.rfl

/-- The 128 blocks tile the result array: row `r` is in the block of point `r / 4096`. -/
theorem cover0 (i : S524288x128.Idx) : ∃ t : Fin cfg0.N, (cfg0.win 5).flush t = true ∧ i ∈ ((cfg0.win 5).blk t).view.set := by
  have hi0 : (i 0).val < 524288 := (i 0).isLt
  have hi1 : (i 1).val < 128 := (i 1).isLt
  have hN : cfg0.N = 128 := N_0
  let t : Fin cfg0.N := ⟨(i 0).val / 4096, by rw [hN]; omega⟩
  refine ⟨t, flush0_5 t, ?_⟩
  rw [mem_blk0]
  obtain ⟨-, -, -, -, -, -, -, -, e0, e1⟩ := idx0 t
  have ht : t.val = (i 0).val / 4096 := rfl
  intro a
  match a with
  | ⟨0, _⟩ => show win0_5.index t (0 : Fin 2) * 4096 ≤ (i 0).val ∧ (i 0).val < win0_5.index t (0 : Fin 2) * 4096 + 4096; omega
  | ⟨1, _⟩ => show win0_5.index t (1 : Fin 2) * 128 ≤ (i 1).val ∧ (i 1).val < win0_5.index t (1 : Fin 2) * 128 + 128; omega

/-- THE MESSAGE ARRAY after the region: the two-layer message of the region's entry arrays, entry by entry. -/
theorem final0 (c : Dev nD) : (dat0 V c).arrAt 5 cfg0.N
    = msgArr (V c main_v18) (V c main_arg3) (V c main_arg4) (V c main_arg5) (V c main_arg6) :=
  (dat0 V c).arrAt_eq_of_cover 5 _ (fun t _ => flushed0_eq V c t) cover0

end Cert.KernelIdeal.Hand

end
-- ==== Proof.KI.Value1.lean ====
import proofs.«111398_j7215545057969_1_alg».proof.Proof.KI.Body1
import proofs.«111398_j7215545057969_1_alg».proof.Proof.LibMlp
import Idealize.ShloMosaic.Lib.ValueIdx
import Idealize.ShloMosaic.Lib.Pipeline.Value
import Idealize.ShloMosaic.PureOps.Ideal.Laws

set_option maxRecDepth 16384

noncomputable section

namespace Cert.KernelIdeal.Hand.Node

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Lib.Mlp

/-! # The node region's result, at the ideal values

Grid point `t` of 8 stages rows `4096·t … 4096·t + 4095` of the pre-update node features, the whole of both weight
matrices and both biases, and writes back the same rows of the result. An entry of the stored block is the residual
update of its row; the 8 blocks tile the result, which is therefore the updated node array of the region's entry arrays. -/

open Cert.KernelIdeal.Hand

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The node body's arithmetic is the residual update of a block of rows. -/
theorem pay1_eq (x0 : Vec Ideal S4096x128 .f32) (x1 : Vec Ideal S128x256 .f32) (x2 : Vec Ideal S256 .f32)
    (x3 : Vec Ideal S256x128 .f32) (x4 : Vec Ideal S128 .f32) :
    k1_pay1 (F := Ideal) x0 x1 x2 x3 x4
      = blockNode Gen.dot_S4096x128_S128x256_S4096x256_1_0_0_1_n_n_wf Gen.dot_S4096x256_S256x128_S4096x128_1_0_0_1_n_n_wf
          Gen.shapeCasts_S4096x128_S4096x128 Gen.bitsLt_bf16_f32 Gen.shapeCasts_S256_S1x256 Gen.broadcasts_S1x256_S4096x256
          Gen.shapeCasts_S128_S1x128 Gen.broadcasts_S1x128_S4096x128 x0 x1 x2 x3 x4 := rfl

/-- The six index maps over the 8 grid points. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

theorem blk1_0 (c : Dev nD) (t : Fin cfg1.N) (p : Fin 4096) (k : Fin 128) (r : Fin 32768) (hr : r.val = t.val * 4096 + p.val) :
    iblk1 V c 0 t (ix2 p k) = V c main_v32 (ix2 r k) := by
  show V c main_v32 (((cfg1.win 0).blk t).view.emb (ix2 p k)) = V c main_v32 (ix2 r k)
  refine congrArg _ (funext fun a => Fin.ext ?_)
  obtain ⟨e0, e1, -⟩ := idx1 t
  match a with
  | ⟨0, _⟩ => show win1_0.index t (0 : Fin 2) * 4096 + 1 * p.val = r.val; omega
  | ⟨1, _⟩ => show win1_0.index t (1 : Fin 2) * 128 + 1 * k.val = k.val; omega

theorem blk1_1 (c : Dev nD) (t : Fin cfg1.N) (y : S128x256.Idx) : iblk1 V c 1 t y = V c main_arg7 y := by
  show V c main_arg7 (((cfg1.win 1).blk t).view.emb y) = V c main_arg7 y
  refine congrArg _ (funext fun a => Fin.ext ?_)
  obtain ⟨-, -, e0, e1, -⟩ := idx1 t
  match a with
  | ⟨0, _⟩ => show win1_1.index t (0 : Fin 2) * 128 + 1 * (y 0).val = (y 0).val; omega
  | ⟨1, _⟩ => show win1_1.index t (1 : Fin 2) * 256 + 1 * (y 1).val = (y 1).val; omega

theorem blk1_2 (c : Dev nD) (t : Fin cfg1.N) (y : S256.Idx) : iblk1 V c 2 t y = V c main_arg8 y := by
  show V c main_arg8 (((cfg1.win 2).blk t).view.emb y) = V c main_arg8 y
  refine congrArg _ (funext fun a => Fin.ext ?_)
  obtain ⟨-, -, -, -, e0, -⟩ := idx1 t
  match a with
  | ⟨0, _⟩ => show win1_2.index t (0 : Fin 1) * 256 + 1 * (y 0).val = (y 0).val; omega

theorem blk1_3 (c : Dev nD) (t : Fin cfg1.N) (y : S256x128.Idx) : iblk1 V c 3 t y = V c main_arg9 y := by
  show V c main_arg9 (((cfg1.win 3).blk t).view.emb y) = V c main_arg9 y
  refine congrArg _ (funext fun a => Fin.ext ?_)
  obtain ⟨-, -, -, -, -, e0, e1, -⟩ := idx1 t
  match a with
  | ⟨0, _⟩ => show win1_3.index t (0 : Fin 2) * 256 + 1 * (y 0).val = (y 0).val; omega
  | ⟨1, _⟩ => show win1_3.index t (1 : Fin 2) * 128 + 1 * (y 1).val = (y 1).val; omega

theorem blk1_4 (c : Dev nD) (t : Fin cfg1.N) (y : S128.Idx) : iblk1 V c 4 t y = V c main_arg10 y := by
  show V c main_arg10 (((cfg1.win 4).blk t).view.emb y) = V c main_arg10 y
  refine congrArg _ (funext fun a => Fin.ext ?_)
  obtain ⟨-, -, -, -, -, -, -, e0, -⟩ := idx1 t
  match a with
  | ⟨0, _⟩ => show win1_4.index t (0 : Fin 1) * 128 + 1 * (y 0).val = (y 0).val; omega

theorem emb1_5 (t : Fin cfg1.N) (p : Fin 4096) (q : Fin 128) (r : Fin 32768) (hr : r.val = t.val * 4096 + p.val) :
    ((cfg1.win 5).blk t).view.emb (ix2 p q) = (ix2 r q : S32768x128.Idx) := by
  refine funext fun a => Fin.ext ?_
  obtain ⟨-, -, -, -, -, -, -, -, e0, e1⟩ := idx1 t
  match a with
  | ⟨0, _⟩ => show win1_5.index t (0 : Fin 2) * 4096 + 1 * p.val = r.val; omega
  | ⟨1, _⟩ => show win1_5.index t (1 : Fin 2) * 128 + 1 * q.val = q.val; omega

/-- The update of a staged block's row is the update of the whole array's corresponding row. -/
theorem node_block (X0 : FVec Ideal ⟨2, ![4096, 128]⟩ .f32) (W1 : FVec Ideal ⟨2, ![128, 256]⟩ .f32) (B1 : FVec Ideal ⟨1, ![256]⟩ .f32)
    (W2 : FVec Ideal ⟨2, ![256, 128]⟩ .f32) (B2 : FVec Ideal ⟨1, ![128]⟩ .f32)
    (X : FVec Ideal ⟨2, ![32768, 128]⟩ .f32) (w1 : FVec Ideal ⟨2, ![128, 256]⟩ .f32) (b1 : FVec Ideal ⟨1, ![256]⟩ .f32)
    (w2 : FVec Ideal ⟨2, ![256, 128]⟩ .f32) (b2 : FVec Ideal ⟨1, ![128]⟩ .f32) (p : Fin 4096) (r : Fin 32768) (q : Fin 128)
    (h0 : ∀ k, X0 (ix2 p k) = X (ix2 r k)) (h1 : W1 = w1) (h2 : B1 = b1) (h3 : W2 = w2) (h4 : B2 = b2) :
    nodeAt X0 W1 B1 W2 B2 p q = nodeAt X w1 b1 w2 b2 r q := by
  subst h1 h2 h3 h4
  exact nodeAt_congr X0 X W1 B1 W2 B2 p r h0 q

/-- WHAT POINT `t` WRITES BACK is block `t` of the updated node array of the region's entry arrays. -/
theorem flushed1_eq (c : Dev nD) (t : Fin cfg1.N) :
    (dat1 V c).flushed 5 t = ((cfg1.win 5).blk t).view.read (Elt Ideal)
      (nodeArr (V c main_v32) (V c main_arg7) (V c main_arg8) (V c main_arg9) (V c main_arg10)) := by
  show (cfg1.win 5).cut (grid1.coords t) ((dat1 V c).after 5 t) = _
  rw [after1_5]
  unfold out1_5
  rw [View.canon_unit_zero zero2]
  simp only [View.ld_unit_zero (S := S4096x128) zero2, View.ld_unit_zero (S := S128x256) zero2, View.ld_unit_zero (S := S256) zero1,
    View.ld_unit_zero (S := S256x128) zero2, View.ld_unit_zero (S := S128) zero1]
  rw [pay1_eq]
  funext j
  obtain ⟨p, q, rfl⟩ : ∃ (p : Fin 4096) (q : Fin 128), j = ix2 p q := ⟨j 0, j 1, eq_ix2 j⟩
  have hlt : t.val * 4096 + p.val < 32768 := by
    have ht : t.val < 8 := by have h := t.isLt; have hN : cfg1.N = 8 := N_1; omega
    have hp := p.isLt; omega
  show blockNode _ _ _ _ _ _ _ _ (iblk1 V c 0 t) (iblk1 V c 1 t) (iblk1 V c 2 t) (iblk1 V c 3 t) (iblk1 V c 4 t) (ix2 p q)
      = nodeArr (V c main_v32) (V c main_arg7) (V c main_arg8) (V c main_arg9) (V c main_arg10) (((cfg1.win 5).blk t).view.emb (ix2 p q))
  rw [emb1_5 t p q ⟨t.val * 4096 + p.val, hlt⟩ rfl]
  refine (blockNode_entry _ _ _ _ _ _ _ _ _ _ _ _ _ p q).trans ?_
  exact node_block _ _ _ _ _ _ _ _ _ _ p ⟨t.val * 4096 + p.val, hlt⟩ q (fun k => blk1_0 V c t p k _ rfl)
    (funext (blk1_1 V c t)) (funext (blk1_2 V c t)) (funext (blk1_3 V c t)) (funext (blk1_4 V c t))

theorem mem_blk1 (t : Fin cfg1.N) (i : S32768x128.Idx) :
    i ∈ ((cfg1.win 5).blk t).view.set ↔ ∀ a : Fin 2, win1_5.index t a * S4096x128.size a ≤ (i a).val ∧ (i a).val < win1_5.index t a * S4096x128.size a + S4096x128.size a := by
  show i ∈ ((View.whole main_v33).slice (win1_5.rect t)).set ↔ _
  rw [View.set_slice_whole, Rect.mem_set_unit]
  exact Iff.rfl

/-- The 8 blocks tile the result array. -/
theorem cover1 (i : S32768x128.Idx) : ∃ t : Fin cfg1.N, (cfg1.win 5).flush t = true ∧ i ∈ ((cfg1.win 5).blk t).view.set := by
  have hi0 : (i 0).val < 32768 := (i 0).isLt
  have hi1 : (i 1).val < 128 := (i 1).isLt
  have hN : cfg1.N = 8 := N_1
  let t : Fin cfg1.N := ⟨(i 0).val / 4096, by rw [hN]; omega⟩
  refine ⟨t, flush1_5 t, ?_⟩
  rw [mem_blk1]
  obtain ⟨-, -, -, -, -, -, -, -, e0, e1⟩ := idx1 t
  have ht : t.val = (i 0).val / 4096 := rfl
  intro a
  match a with
  | ⟨0, _⟩ => show win1_5.index t (0 : Fin 2) * 4096 ≤ (i 0).val ∧ (i 0).val < win1_5.index t (0 : Fin 2) * 4096 + 4096; omega
  | ⟨1, _⟩ => show win1_5.index t (1 : Fin 2) * 128 ≤ (i 1).val ∧ (i 1).val < win1_5.index t (1 : Fin 2) * 128 + 128; omega

/-- THE RESULT ARRAY after the region: the updated node array of the region's entry arrays, entry by entry. -/
theorem final1 (c : Dev nD) : (dat1 V c).arrAt 5 cfg1.N
    = nodeArr (V c main_v32) (V c main_arg7) (V c main_arg8) (V c main_arg9) (V c main_arg10) :=
  (dat1 V c).arrAt_eq_of_cover 5 _ (fun t _ => flushed1_eq V c t) cover1

end Cert.KernelIdeal.Hand.Node

end
-- ==== Proof.KI.Bridge.lean ====
import proofs.«111398_j7215545057969_1_alg».proof.Proof.KI.Frame
import proofs.«111398_j7215545057969_1_alg».proof.Proof.KI.Value0
import proofs.«111398_j7215545057969_1_alg».proof.Proof.KI.Value1
import proofs.«111398_j7215545057969_1_alg».proof.Proof.Gen.ReferenceIdeal.Read
import proofs.«111398_j7215545057969_1_alg».proof.Proof.LibMlp
import Idealize.ShloMosaic.Lib.StableHlo.Run
import Idealize.ShloMosaic.Lib.ValueIdx
import Idealize.ShloMosaic.Lib.Pipeline.Value
import Idealize.ShloMosaic.PureOps.Ideal.Laws

set_option maxRecDepth 16384

noncomputable section

namespace Cert.KernelIdeal.Hand.Bridge

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen Cert.Lib.Mlp

/-! # The kernel program's two results as the reference's functions of the arguments

Both programs gather, concatenate, scatter and divide on the host by the same operations; they differ in who computes
the two perceptrons. So each result is followed through the kernel program's buffers: the concatenated edge features
the edge region is entered with are the reference's; the message array it leaves is the reference's two-layer message
of them; the pre-update node features the node region is entered with are then the reference's, since the scatter-mean
between is the same function of the same messages; and the array the node region leaves is the reference's residual
update of those. -/

open Cert.KernelIdeal.Hand Cert.ReferenceIdeal.Read Idealize.ShloMosaic.StableHlo

variable (m : (ℓ : Loc nD τ sig) → Buf (Elt Ideal) ℓ) (ρ : Dev nD → PrngReg)

/-- The result of an operation of three operands, each operand's contents at its own reference. -/
theorem nary3_result {x a b y : Ref sig .tc}
    (f : ((k : Fin 3) → ((![x, a, b] : Fin 3 → Ref sig .tc) k).ty.Contents (Elt Ideal)) → y.ty.Contents (Elt Ideal)) (hxs hy)
    (F : Valuation τ sig (Elt Ideal)) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-! ## The edge region's entry -/

set_option maxHeartbeats 16000000 in
/-- The first host stretch, from any contents `W`: the concatenated edge features are the reference's function of the
    three arguments it reads. -/
theorem stretch0_v18 (W : Valuation τ sig (Elt Ideal)) : StableHlo.after hostOps0 W (Proc.devRef .tc main_v18)
    = val_main_v18 (F := Ideal) (W (Proc.devRef .tc main_arg0)) (W (Proc.devRef .tc main_arg1)) (W (Proc.devRef .tc main_arg2)) := by
  dsimp only [hostOps0]
  simp only [after_cons, after_nil]
  rw [nary3_result]
  repeat (first
    | rw [nullary_result] | rw [unary_result] | rw [binary_result] | rw [ternary_result] | rw [reshape_result]
    | (rw [nullary_result_ne]; rotate_left; decide)
    | (rw [unary_result_ne]; rotate_left; decide)
    | (rw [binary_result_ne]; rotate_left; decide)
    | (rw [ternary_result_ne]; rotate_left; decide)
    | (rw [reshape_result_ne]; rotate_left; decide))
  rfl

set_option maxHeartbeats 16000000 in
/-- The first host stretch, from any contents `W`: the receivers' indices. -/
theorem stretch0_v3 (W : Valuation τ sig (Elt Ideal)) : StableHlo.after hostOps0 W (Proc.devRef .tc main_v3)
    = val_main_v3 (F := Ideal) (W (Proc.devRef .tc main_arg2)) := by
  dsimp only [hostOps0]
  after_results
  rfl

/-- The concatenated edge features the edge region is entered with are the reference's. -/
theorem entry_v18 (c : Dev nD) : E1 m ρ c main_v18 = val_main_v18 (F := Ideal) (m ((c : Thread nD τ).loc main_arg0)) (m ((c : Thread nD τ).loc main_arg1)) (m ((c : Thread nD τ).loc main_arg2)) :=
  stretch0_v18 (U0 m ρ c)

theorem entry_arg3 (c : Dev nD) : E1 m ρ c main_arg3 = (m ((c : Thread nD τ).loc main_arg3)) := keep1 m ρ c main_arg3 (by decide)
theorem entry_arg4 (c : Dev nD) : E1 m ρ c main_arg4 = (m ((c : Thread nD τ).loc main_arg4)) := keep1 m ρ c main_arg4 (by decide)
theorem entry_arg5 (c : Dev nD) : E1 m ρ c main_arg5 = (m ((c : Thread nD τ).loc main_arg5)) := keep1 m ρ c main_arg5 (by decide)
theorem entry_arg6 (c : Dev nD) : E1 m ρ c main_arg6 = (m ((c : Thread nD τ).loc main_arg6)) := keep1 m ρ c main_arg6 (by decide)

/-- The receivers' indices are untouched by the edge region. -/
theorem mid_v3 (c : Dev nD) : U2 m ρ c (Proc.devRef .tc main_v3) = val_main_v3 (F := Ideal) (m ((c : Thread nD τ).loc main_arg2)) :=
  (keep2 m ρ c main_v3 (by decide)).trans (stretch0_v3 (U0 m ρ c))

theorem mid_arg0 (c : Dev nD) : U2 m ρ c (Proc.devRef .tc main_arg0) = (m ((c : Thread nD τ).loc main_arg0)) :=
  (keep2 m ρ c main_arg0 (by decide)).trans ((keep1 m ρ c main_arg0 (by decide)).trans rfl)

/-! ## The message array -/

/-- The reference's message stage is the host form of the two-layer message of its concatenated features. -/
theorem ref_msg (x0 : (⟨Cert.ReferenceIdeal.S32768x128, .f32⟩ : BufTy).Contents (Elt Ideal)) (x1 : (⟨Cert.ReferenceIdeal.S524288x128, .f32⟩ : BufTy).Contents (Elt Ideal))
    (x2 : (⟨Cert.ReferenceIdeal.S2x524288, .i32⟩ : BufTy).Contents (Elt Ideal)) (x3 : (⟨Cert.ReferenceIdeal.S384x128, .f32⟩ : BufTy).Contents (Elt Ideal))
    (x4 : (⟨Cert.ReferenceIdeal.S128, .f32⟩ : BufTy).Contents (Elt Ideal)) (x5 : (⟨Cert.ReferenceIdeal.S128x128, .f32⟩ : BufTy).Contents (Elt Ideal))
    (x6 : (⟨Cert.ReferenceIdeal.S128, .f32⟩ : BufTy).Contents (Elt Ideal)) :
    val_main_v28 (F := Ideal) x0 x1 x2 x3 x4 x5 x6 = msgArr (val_main_v18 (F := Ideal) x0 x1 x2) x3 x4 x5 x6 := by
  refine Eq.trans ?_ (hostMsg_eq Cert.ReferenceIdeal.Gen.dot_S524288x384_S384x128_S524288x128_1_0_0_1_n_n_wf
    Cert.ReferenceIdeal.Gen.dot_S524288x128_S128x128_S524288x128_1_0_0_1_n_n_wf
    Cert.ReferenceIdeal.Gen.bcast_S128_S1x128_1 Cert.ReferenceIdeal.Gen.bcast_S1x128_S524288x128_0_1
    Cert.ReferenceIdeal.Gen.bcast_S_S524288x128 Cert.ReferenceIdeal.Gen.bcast_S_S524288x128
    Cert.ReferenceIdeal.Gen.bcast_S128_S1x128_1 Cert.ReferenceIdeal.Gen.bcast_S1x128_S524288x128_0_1
    Cert.ReferenceIdeal.Gen.bcast_S_S524288x128 Cert.ReferenceIdeal.Gen.bcast_S_S524288x128
    (val_main_v18 (F := Ideal) x0 x1 x2) x3 x4 x5 x6)
  rfl

/-- The message array the kernel program ends with is the reference's. -/
theorem msg_eq (c : Dev nD) : (dat0 (E1 m ρ) c).arrAt 5 cfg0.N
    = val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [final0 (E1 m ρ) c, entry_v18, entry_arg3, entry_arg4, entry_arg5, entry_arg6, ref_msg]

/-! ## The node region's entry -/

/-- The scatter-mean and the residual, as one function of the node features, the receivers' indices and the messages. -/
def meanOf (x0 : FVec Ideal S32768x128 .f32) (recv : (⟨S524288, .i32⟩ : BufTy).Contents (Elt Ideal)) (msg : FVec Ideal S524288x128 .f32) :
    FVec Ideal S32768x128 .f32 :=
  addf x0 (Host.divf
    (Host.scatterAdd scatter_S32768x128_S524288x1_S524288x128_1_0_0_1
      (broadcastInDim S32768x128 ![] bcast_S_S32768x128 (constant (F := Ideal) S_ .f32 0x00000000#32))
      (broadcastInDim S524288x1 ![0] bcast_S524288_S524288x1_0 recv) msg)
    (broadcastInDim S32768x128 ![0, 1] bcast_S32768x1_S32768x128_0_1 (broadcastInDim S32768x1 ![0] bcast_S32768_S32768x1_0
      (maximumf (Host.scatterAdd scatter_S32768_S524288x1_S524288_n_0_0_1
          (broadcastInDim S32768 ![] bcast_S_S32768 (constant (F := Ideal) S_ .f32 0x00000000#32))
          (broadcastInDim S524288x1 ![0] bcast_S524288_S524288x1_0 recv)
          (broadcastInDim S524288 ![] bcast_S_S524288 (constant (F := Ideal) S_ .f32 0x3F800000#32)))
        (broadcastInDim S32768 ![] bcast_S_S32768 (constant (F := Ideal) S_ .f32 0x3F800000#32))))))

set_option maxHeartbeats 16000000 in
/-- The second host stretch, from any contents `W`, computes `meanOf` of the node features, the receivers' indices and the messages. -/
theorem stretch1_v32 (W : Valuation τ sig (Elt Ideal)) : StableHlo.after hostOps1 W (Proc.devRef .tc main_v32)
    = meanOf (W (Proc.devRef .tc main_arg0)) (W (Proc.devRef .tc main_v3)) (W (Proc.devRef .tc main_v19)) := by
  dsimp only [hostOps1]
  after_results
  rfl

theorem entry_v32_raw (c : Dev nD) : E3 m ρ c main_v32
    = meanOf (U2 m ρ c (Proc.devRef .tc main_arg0)) (U2 m ρ c (Proc.devRef .tc main_v3)) (U2 m ρ c (Proc.devRef .tc main_v19)) :=
  stretch1_v32 (U2 m ρ c)

/-- The reference's pre-update node features are `meanOf` of its own messages. -/
theorem ref_mean (x0 : (⟨Cert.ReferenceIdeal.S32768x128, .f32⟩ : BufTy).Contents (Elt Ideal)) (x1 : (⟨Cert.ReferenceIdeal.S524288x128, .f32⟩ : BufTy).Contents (Elt Ideal))
    (x2 : (⟨Cert.ReferenceIdeal.S2x524288, .i32⟩ : BufTy).Contents (Elt Ideal)) (x3 : (⟨Cert.ReferenceIdeal.S384x128, .f32⟩ : BufTy).Contents (Elt Ideal))
    (x4 : (⟨Cert.ReferenceIdeal.S128, .f32⟩ : BufTy).Contents (Elt Ideal)) (x5 : (⟨Cert.ReferenceIdeal.S128x128, .f32⟩ : BufTy).Contents (Elt Ideal))
    (x6 : (⟨Cert.ReferenceIdeal.S128, .f32⟩ : BufTy).Contents (Elt Ideal)) :
    val_main_v41 (F := Ideal) x0 x1 x2 x3 x4 x5 x6
      = meanOf x0 (val_main_v3 (F := Ideal) x2) (val_main_v28 (F := Ideal) x0 x1 x2 x3 x4 x5 x6) := by
  unfold meanOf val_main_v41 val_main_v40 val_main_v39 val_main_v38 val_main_v37 val_main_v36 val_main_v35 val_main_v34 val_main_v33
    val_main_v32 val_main_v31 val_main_v30 val_main_v29 val_main_cst val_main_cst_3 val_main_cst_4 val_main_cst_5
  rfl

/-- The pre-update node features the node region is entered with are the reference's. -/
theorem entry_v32 (c : Dev nD) : E3 m ρ c main_v32
    = val_main_v41 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  rw [entry_v32_raw, mid_arg0, mid_v3, U2_arr m ρ c 5, msg_eq, ref_mean]

theorem entry_arg7 (c : Dev nD) : E3 m ρ c main_arg7 = (m ((c : Thread nD τ).loc main_arg7)) :=
  (keep3 m ρ c main_arg7 (by decide)).trans ((keep2 m ρ c main_arg7 (by decide)).trans ((keep1 m ρ c main_arg7 (by decide)).trans rfl))
theorem entry_arg8 (c : Dev nD) : E3 m ρ c main_arg8 = (m ((c : Thread nD τ).loc main_arg8)) :=
  (keep3 m ρ c main_arg8 (by decide)).trans ((keep2 m ρ c main_arg8 (by decide)).trans ((keep1 m ρ c main_arg8 (by decide)).trans rfl))
theorem entry_arg9 (c : Dev nD) : E3 m ρ c main_arg9 = (m ((c : Thread nD τ).loc main_arg9)) :=
  (keep3 m ρ c main_arg9 (by decide)).trans ((keep2 m ρ c main_arg9 (by decide)).trans ((keep1 m ρ c main_arg9 (by decide)).trans rfl))
theorem entry_arg10 (c : Dev nD) : E3 m ρ c main_arg10 = (m ((c : Thread nD τ).loc main_arg10)) :=
  (keep3 m ρ c main_arg10 (by decide)).trans ((keep2 m ρ c main_arg10 (by decide)).trans ((keep1 m ρ c main_arg10 (by decide)).trans rfl))

/-! ## The updated node array -/

/-- The reference's result stage is the host form of the residual update of its pre-update features. -/
theorem ref_node (x0 : (⟨Cert.ReferenceIdeal.S32768x128, .f32⟩ : BufTy).Contents (Elt Ideal)) (x1 : (⟨Cert.ReferenceIdeal.S524288x128, .f32⟩ : BufTy).Contents (Elt Ideal))
    (x2 : (⟨Cert.ReferenceIdeal.S2x524288, .i32⟩ : BufTy).Contents (Elt Ideal)) (x3 : (⟨Cert.ReferenceIdeal.S384x128, .f32⟩ : BufTy).Contents (Elt Ideal))
    (x4 : (⟨Cert.ReferenceIdeal.S128, .f32⟩ : BufTy).Contents (Elt Ideal)) (x5 : (⟨Cert.ReferenceIdeal.S128x128, .f32⟩ : BufTy).Contents (Elt Ideal))
    (x6 : (⟨Cert.ReferenceIdeal.S128, .f32⟩ : BufTy).Contents (Elt Ideal)) (x7 : (⟨Cert.ReferenceIdeal.S128x256, .f32⟩ : BufTy).Contents (Elt Ideal))
    (x8 : (⟨Cert.ReferenceIdeal.S256, .f32⟩ : BufTy).Contents (Elt Ideal)) (x9 : (⟨Cert.ReferenceIdeal.S256x128, .f32⟩ : BufTy).Contents (Elt Ideal))
    (x10 : (⟨Cert.ReferenceIdeal.S128, .f32⟩ : BufTy).Contents (Elt Ideal)) :
    val_main_v51 (F := Ideal) x0 x1 x2 x3 x4 x5 x6 x7 x8 x9 x10
      = nodeArr (val_main_v41 (F := Ideal) x0 x1 x2 x3 x4 x5 x6) x7 x8 x9 x10 := by
  refine Eq.trans ?_ (hostNode_eq Cert.ReferenceIdeal.Gen.dot_S32768x128_S128x256_S32768x256_1_0_0_1_n_n_wf
    Cert.ReferenceIdeal.Gen.dot_S32768x256_S256x128_S32768x128_1_0_0_1_n_n_wf
    Cert.ReferenceIdeal.Gen.bcast_S256_S1x256_1 Cert.ReferenceIdeal.Gen.bcast_S1x256_S32768x256_0_1
    Cert.ReferenceIdeal.Gen.bcast_S_S32768x256 Cert.ReferenceIdeal.Gen.bcast_S_S32768x256
    Cert.ReferenceIdeal.Gen.bcast_S128_S1x128_1 Cert.ReferenceIdeal.Gen.bcast_S1x128_S32768x128_0_1
    (val_main_v41 (F := Ideal) x0 x1 x2 x3 x4 x5 x6) x7 x8 x9 x10)
  rfl

/-- The node array the kernel program ends with is the reference's. -/
theorem node_eq (c : Dev nD) : (dat1 (E3 m ρ) c).arrAt 5 cfg1.N
    = val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  rw [Cert.KernelIdeal.Hand.Node.final1 (E3 m ρ) c, entry_v32, entry_arg7, entry_arg8, entry_arg9, entry_arg10, ref_node]

/-- The kernel program's run with both results at the reference's functions of the arguments. -/
theorem run_ref : θ_run defs (onTc (τ := τ) (main (F := Ideal))) ⟨m, fun _ => 0, ρ⟩ (fun r => ∀ c : Dev nD,
      r.2.mem ((c.tc : Thread nD τ).loc main_v33) = val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))
      ∧ r.2.mem ((c.tc : Thread nD τ).loc main_v19) = val_main_v28 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => ⟨(h c).1.trans (node_eq m ρ c), (h c).2.1.trans (msg_eq m ρ c), (h c).2.2⟩) (run_named m ρ)

end Cert.KernelIdeal.Hand.Bridge

end
-- ==== Proof.lean ====
/-
  A message-passing layer on a graph of 32768 nodes and 524288 edges, feature width 128.
  For every edge the features of its two end nodes are gathered and laid beside the edge's own features (384 numbers);
  a two-layer perceptron with the activation `z · 1 / (1 + exp (-z))` after each layer turns them into a message
  (128 numbers); the messages are summed into their receiving nodes and divided by the number received (at least one);
  the node features plus that mean go through a second two-layer perceptron whose output is added back to them.

  The kernel program computes the two perceptrons in two tiled kernels — 128 tiles of 4096 edges, 8 tiles of 4096
  nodes — rounding the operands of every matrix product to a narrower float format and spelling the activation with one
  logistic operation; the gathers, the concatenation, the scatter-sums and the division stay on the host. The reference
  does everything on the host with plain products and the logistic spelt out.

  At the ideal values a change of float format is the identity, a matrix product into a zero accumulator is the plain
  sum of products, and the logistic operation is `1 / (1 + exp (-z))` by definition, so an entry of a tile is the same
  sum over the same row as the reference's entry: no law beyond reading both sides at an entry is needed, and the
  precondition (finite inputs) is never opened. The host operations between the kernels are the reference's own, applied
  to equal arrays.

  The three frames: each program runs to the end without a fault and leaves its arguments as launched. For the two
  kernel programs this is the run of their four parts (host stretch, edge region, host stretch, node region) with the
  buffers' contents followed from the launch to the return; for the reference it is its run with the results dropped.
  The ideal pass rewrote nothing, so the kernel's idealization is its own text read at the ideal values.
-/
import proofs.«111398_j7215545057969_1_alg».proof.Defs
import proofs.«111398_j7215545057969_1_alg».proof.Proof.Gen.Kernel
import proofs.«111398_j7215545057969_1_alg».proof.Proof.Gen.KernelIdeal
import proofs.«111398_j7215545057969_1_alg».proof.Proof.Gen.ReferenceIdeal
import proofs.«111398_j7215545057969_1_alg».proof.Proof.Gen.Pre_finite_inputs
import proofs.«111398_j7215545057969_1_alg».proof.Proof.Gen.ReferenceIdeal.Read
import proofs.«111398_j7215545057969_1_alg».proof.Proof.K.Frame
import proofs.«111398_j7215545057969_1_alg».proof.Proof.KI.Frame
import proofs.«111398_j7215545057969_1_alg».proof.Proof.KI.Bridge
import Idealize.ShloMosaic.Adequacy
import Idealize.ShloMosaic.Init

noncomputable section

namespace Cert.Proof

open Idealize.ShloMosaic Idealize.SL.Sem

/-- The kernel program as printed runs to the end and leaves its arguments as launched. -/
theorem frame_k : @Cert.frame_Kernel Cert.Kernel.Gen.facts Cert.Pre_finite_inputs.Gen.facts :=
  fun m ρ _ => Cert.Kernel.Hand.frame m ρ

/-- So does its reading at the ideal values. -/
theorem frame_ki : @Cert.frame_KernelIdeal Cert.KernelIdeal.Gen.facts Cert.Pre_finite_inputs.Gen.facts :=
  fun m ρ _ => Cert.KernelIdeal.Hand.frame m ρ

/-- The reference's frame is its run with the two results dropped. -/
theorem frame_ri : @Cert.frame_ReferenceIdeal Cert.ReferenceIdeal.Gen.facts Cert.Pre_finite_inputs.Gen.facts :=
  fun m ρ _ => (θ_run Cert.ReferenceIdeal.defs _ _).mono (fun _ h c => (h c).2.2) (Cert.ReferenceIdeal.Value.run (F := Ideal) m ρ)

/-- Both programs end with the reference's two functions of the arguments: the kernel program by following its buffers
    through the two regions, the reference by its own run, the arguments rewritten by their agreement. -/
theorem algebraic : @Cert.algebraic_KernelIdeal_ReferenceIdeal Cert.KernelIdeal.Gen.facts Cert.ReferenceIdeal.Gen.facts Cert.Pre_finite_inputs.Gen.facts := by
  intro m ρ m' ρ' _ hagree
  refine ⟨fun c => Cert.ReferenceIdeal.Read.val_main_v51 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)),
    fun c => Cert.ReferenceIdeal.Read.val_main_v28 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Hand.Bridge.run_ref m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨h0, h1, h2, h3, h4, h5, h6, h7, h8, h9, h10⟩ := hagree c
    rw [Cert.ReferenceIdeal.Read.val_main_v51_eq, h0, h1, h2, h3, h4, h5, h6, h7, h8, h9, h10]
  · obtain ⟨h0, h1, h2, h3, h4, h5, h6, -⟩ := hagree c
    rw [Cert.ReferenceIdeal.Read.val_main_v28_eq, h0, h1, h2, h3, h4, h5, h6]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
